-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x3 : Shape := ⟨2, ![1048576, 3]⟩
abbrev S1048576 : Shape := ⟨1, ![1048576]⟩
abbrev S96x256 : Shape := ⟨2, ![96, 256]⟩
abbrev S96 : Shape := ⟨1, ![96]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S96x256 : S_.BroadcastsInDim S96x256 (![] : Fin 0 → Fin S96x256.rank)
  reducesTo_S96x256_S_d0_1 : S96x256.ReducesTo [0, 1] S_
  bcast_S_S96 : S_.BroadcastsInDim S96 (![] : Fin 0 → Fin S96.rank)
  reducesTo_S96_S_d0 : S96.ReducesTo [0] S_

variable [Facts]

def fn {F : FTy → Type} [FloatOps F] (main_arg0 : FVec F S1048576x64 .f32) (main_arg1 : IVec S1048576x3 32) (main_arg2 : IVec S1048576 32) (main_arg3 : FVec F S96x256 .f32) (main_arg4 : FVec F S96 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S96x256 .f32 := Host.absf main_arg3
  let main_cst_0 : FVec F S_ .f32 := constant S_ .f32 0x7F800000#32
  let main_v5 : FVec F S96x256 .f32 := broadcastInDim S96x256 ![] bcast_S_S96x256 main_cst_0
  let main_v6 : IVec S96x256 1 := cmpf .olt main_v4 main_v5
  let main_c_1 : IVec S_ 1 := constantI S_ 1 1#1
  let main_v7 : IVec S_ 1 := (fun x v => Host.reduce IntOp.andi x v reducesTo_S96x256_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  main_v13
-- ==== Kernel.lean ====
abbrev S1048576x64 : Shape := ⟨2, ![1048576, 64]⟩
abbrev S1048576x3 : Shape := ⟨2, ![1048576, 3]⟩
abbrev S1048576 : Shape := ⟨1, ![1048576]⟩
abbrev S96x256 : Shape := ⟨2, ![96, 256]⟩
abbrev S96 : Shape := ⟨1, ![96]⟩
abbrev S_ : Shape := ⟨0, ![]⟩
abbrev S1048576x1 : Shape := ⟨2, ![1048576, 1]⟩
abbrev S1048576x65 : Shape := ⟨2, ![1048576, 65]⟩
abbrev S4x65 : Shape := ⟨2, ![4, 65]⟩
abbrev S4x64 : Shape := ⟨2, ![4, 64]⟩
abbrev S4x1 : Shape := ⟨2, ![4, 1]⟩
abbrev S131072x65 : Shape := ⟨2, ![131072, 65]⟩
abbrev S131072x64 : Shape := ⟨2, ![131072, 64]⟩
abbrev S131072x1 : Shape := ⟨2, ![131072, 1]⟩
abbrev S16384x65 : Shape := ⟨2, ![16384, 65]⟩
abbrev S16384x64 : Shape := ⟨2, ![16384, 64]⟩
abbrev S16384x1 : Shape := ⟨2, ![16384, 1]⟩
abbrev S256x96 : Shape := ⟨2, ![256, 96]⟩
abbrev S1x96 : Shape := ⟨2, ![1, 96]⟩
abbrev S1048576x96 : Shape := ⟨2, ![1048576, 96]⟩
abbrev S8192x64 : Shape := ⟨2, ![8192, 64]⟩
abbrev S8192x96 : Shape := ⟨2, ![8192, 96]⟩
abbrev S64x96 : Shape := ⟨2, ![64, 96]⟩

abbrev nBuf : Space → Nat
  | .hbm => 213
  | .vmem => 12
  | .smem => 0
  | _ => 0

abbrev hbmTy0_0 (i : Nat) : BufTy := match i % 128 with
  | 0 => ⟨S1048576x64, .f32⟩
  | 1 => ⟨S1048576x3, .i32⟩
  | 2 => ⟨S1048576, .i32⟩
  | 3 => ⟨S96x256, .f32⟩
  | 4 => ⟨S96, .f32⟩
  | 5 => ⟨S_, .f32⟩
  | 6 => ⟨S1048576x1, .f32⟩
  | 7 => ⟨S1048576x65, .f32⟩
  | 8 => ⟨S_, .f32⟩
  | 9 => ⟨S4x65, .f32⟩
  | 10 => ⟨S1048576x1, .i32⟩
  | 11 => ⟨S4x65, .f32⟩
  | 12 => ⟨S4x64, .f32⟩
  | 13 => ⟨S4x1, .f32⟩
  | 14 => ⟨S_, .f32⟩
  | 15 => ⟨S4x1, .f32⟩
  | 16 => ⟨S4x1, .f32⟩
  | 17 => ⟨S4x64, .f32⟩
  | 18 => ⟨S4x64, .f32⟩
  | 19 => ⟨S4x64, .bf16⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S1048576x64, .bf16⟩
  | 29 => ⟨S_, .i32⟩
  | 30 => ⟨S_, .i32⟩
  | 31 => ⟨S1048576x3, .i32⟩
  | 32 => ⟨S1048576x3, .i32⟩
  | 33 => ⟨S1048576x3, .i32⟩
  | 34 => ⟨S_, .i32⟩
  | 35 => ⟨S1048576x3, .i32⟩
  | 36 => ⟨S1048576x3, .i1⟩
  | 37 => ⟨S1048576x3, .i32⟩
  | 38 => ⟨S1048576x3, .i32⟩
  | 39 => ⟨S_, .i32⟩
  | 40 => ⟨S1048576x3, .i32⟩
  | 41 => ⟨S1048576x3, .i1⟩
  | 42 => ⟨S1048576x3, .i1⟩
  | 43 => ⟨S_, .i32⟩
  | 44 => ⟨S1048576x3, .i32⟩
  | 45 => ⟨S1048576x3, .i32⟩
  | 46 => ⟨S1048576x3, .i32⟩
  | 47 => ⟨S_, .i32⟩
  | 48 => ⟨S1048576, .i32⟩
  | 49 => ⟨S1048576, .i32⟩
  | 50 => ⟨S1048576x1, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S1048576x1, .i32⟩
  | 57 => ⟨S1048576, .i32⟩
  | 58 => ⟨S1048576, .i32⟩
  | 59 => ⟨S_, .i32⟩
  | 60 => ⟨S1048576, .i32⟩
  | 61 => ⟨S1048576, .i32⟩
  | 62 => ⟨S1048576x1, .i32⟩
  | 63 => ⟨S1048576, .i32⟩
  | 64 => ⟨S1048576, .i32⟩
  | 65 => ⟨S_, .f32⟩
  | 66 => ⟨S1048576x1, .f32⟩
  | 67 => ⟨S1048576x65, .f32⟩
  | 68 => ⟨S_, .f32⟩
  | 69 => ⟨S1048576x65, .f32⟩
  | 70 => ⟨S1048576x1, .i32⟩
  | 71 => ⟨S1048576x65, .f32⟩
  | 72 => ⟨S1048576x64, .f32⟩
  | 73 => ⟨S1048576x1, .f32⟩
  | 74 => ⟨S_, .f32⟩
  | 75 => ⟨S1048576x1, .f32⟩
  | 76 => ⟨S1048576x1, .f32⟩
  | 77 => ⟨S1048576x64, .f32⟩
  | 78 => ⟨S1048576x64, .f32⟩
  | 79 => ⟨S1048576x64, .bf16⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S1048576x64, .bf16⟩
  | 89 => ⟨S_, .i32⟩
  | 90 => ⟨S_, .i32⟩
  | 91 => ⟨S1048576x3, .i32⟩
  | 92 => ⟨S1048576x3, .i32⟩
  | 93 => ⟨S1048576x3, .i32⟩
  | 94 => ⟨S_, .i32⟩
  | 95 => ⟨S1048576x3, .i32⟩
  | 96 => ⟨S1048576x3, .i1⟩
  | 97 => ⟨S1048576x3, .i32⟩
  | 98 => ⟨S1048576x3, .i32⟩
  | 99 => ⟨S_, .i32⟩
  | 100 => ⟨S1048576x3, .i32⟩
  | 101 => ⟨S1048576x3, .i1⟩
  | 102 => ⟨S1048576x3, .i1⟩
  | 103 => ⟨S_, .i32⟩
  | 104 => ⟨S1048576x3, .i32⟩
  | 105 => ⟨S1048576x3, .i32⟩
  | 106 => ⟨S1048576x3, .i32⟩
  | 107 => ⟨S_, .i32⟩
  | 108 => ⟨S1048576, .i32⟩
  | 109 => ⟨S1048576, .i32⟩
  | 110 => ⟨S1048576x1, .i32⟩
  | 111 => ⟨S1048576, .i32⟩
  | 112 => ⟨S1048576, .i32⟩
  | 113 => ⟨S_, .i32⟩
  | 114 => ⟨S1048576, .i32⟩
  | 115 => ⟨S1048576, .i32⟩
  | 116 => ⟨S1048576x1, .i32⟩
  | 117 => ⟨S1048576, .i32⟩
  | 118 => ⟨S1048576, .i32⟩
  | 119 => ⟨S_, .i32⟩
  | 120 => ⟨S1048576, .i32⟩
  | 121 => ⟨S1048576, .i32⟩
  | 122 => ⟨S1048576x1, .i32⟩
  | 123 => ⟨S1048576, .i32⟩
  | 124 => ⟨S1048576, .i32⟩
  | 125 => ⟨S_, .f32⟩
  | 126 => ⟨S1048576x1, .f32⟩
  | 127 => ⟨S1048576x65, .f32⟩
  | _ => ⟨S1048576x64, .f32⟩

abbrev hbmTy0_1 (i : Nat) : BufTy := match i % 128 with
  | 0 => ⟨S_, .f32⟩
  | 1 => ⟨S131072x65, .f32⟩
  | 2 => ⟨S1048576x1, .i32⟩
  | 3 => ⟨S131072x65, .f32⟩
  | 4 => ⟨S131072x64, .f32⟩
  | 5 => ⟨S131072x1, .f32⟩
  | 6 => ⟨S_, .f32⟩
  | 7 => ⟨S131072x1, .f32⟩
  | 8 => ⟨S131072x1, .f32⟩
  | 9 => ⟨S131072x64, .f32⟩
  | 10 => ⟨S131072x64, .f32⟩
  | 11 => ⟨S131072x64, .bf16⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i32⟩
  | 18 => ⟨S1048576, .i32⟩
  | 19 => ⟨S1048576x1, .i32⟩
  | 20 => ⟨S1048576x64, .bf16⟩
  | 21 => ⟨S_, .i32⟩
  | 22 => ⟨S_, .i32⟩
  | 23 => ⟨S1048576x3, .i32⟩
  | 24 => ⟨S1048576x3, .i32⟩
  | 25 => ⟨S1048576x3, .i32⟩
  | 26 => ⟨S_, .i32⟩
  | 27 => ⟨S1048576x3, .i32⟩
  | 28 => ⟨S1048576x3, .i1⟩
  | 29 => ⟨S1048576x3, .i32⟩
  | 30 => ⟨S1048576x3, .i32⟩
  | 31 => ⟨S_, .i32⟩
  | 32 => ⟨S1048576x3, .i32⟩
  | 33 => ⟨S1048576x3, .i1⟩
  | 34 => ⟨S1048576x3, .i1⟩
  | 35 => ⟨S_, .i32⟩
  | 36 => ⟨S1048576x3, .i32⟩
  | 37 => ⟨S1048576x3, .i32⟩
  | 38 => ⟨S1048576x3, .i32⟩
  | 39 => ⟨S_, .i32⟩
  | 40 => ⟨S1048576, .i32⟩
  | 41 => ⟨S1048576, .i32⟩
  | 42 => ⟨S1048576x1, .i32⟩
  | 43 => ⟨S1048576, .i32⟩
  | 44 => ⟨S1048576, .i32⟩
  | 45 => ⟨S_, .i32⟩
  | 46 => ⟨S1048576, .i32⟩
  | 47 => ⟨S1048576, .i32⟩
  | 48 => ⟨S1048576x1, .i32⟩
  | 49 => ⟨S1048576, .i32⟩
  | 50 => ⟨S1048576, .i32⟩
  | 51 => ⟨S_, .i32⟩
  | 52 => ⟨S1048576, .i32⟩
  | 53 => ⟨S1048576, .i32⟩
  | 54 => ⟨S1048576x1, .i32⟩
  | 55 => ⟨S1048576, .i32⟩
  | 56 => ⟨S1048576, .i32⟩
  | 57 => ⟨S_, .f32⟩
  | 58 => ⟨S1048576x1, .f32⟩
  | 59 => ⟨S1048576x65, .f32⟩
  | 60 => ⟨S_, .f32⟩
  | 61 => ⟨S16384x65, .f32⟩
  | 62 => ⟨S1048576x1, .i32⟩
  | 63 => ⟨S16384x65, .f32⟩
  | 64 => ⟨S16384x64, .f32⟩
  | 65 => ⟨S16384x1, .f32⟩
  | 66 => ⟨S_, .f32⟩
  | 67 => ⟨S16384x1, .f32⟩
  | 68 => ⟨S16384x1, .f32⟩
  | 69 => ⟨S16384x64, .f32⟩
  | 70 => ⟨S16384x64, .f32⟩
  | 71 => ⟨S16384x64, .bf16⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S1048576x64, .bf16⟩
  | 81 => ⟨S256x96, .f32⟩
  | 82 => ⟨S256x96, .bf16⟩
  | 83 => ⟨S1x96, .f32⟩
  | 84 => ⟨S1048576x96, .f32⟩
  | _ => ⟨S1048576x64, .f32⟩

abbrev hbmTy (i : Nat) : BufTy := match i / 128 with
  | 0 => hbmTy0_0 i
  | 1 => hbmTy0_1 i
  | _ => ⟨S1048576x64, .f32⟩

abbrev bufTy : (tb : Table) → Fin (tcTables nBuf tb) → BufTy
  | .hbm, ⟨i, _⟩ => hbmTy i
  | .local _ .vmem, ⟨0, _⟩ => ⟨S8192x64, .bf16⟩
  | .local _ .vmem, ⟨1, _⟩ => ⟨S8192x64, .bf16⟩
  | .local _ .vmem, ⟨2, _⟩ => ⟨S8192x64, .bf16⟩
  | .local _ .vmem, ⟨3, _⟩ => ⟨S8192x64, .bf16⟩
  | .local _ .vmem, ⟨4, _⟩ => ⟨S8192x64, .bf16⟩
  | .local _ .vmem, ⟨5, _⟩ => ⟨S8192x64, .bf16⟩
  | .local _ .vmem, ⟨6, _⟩ => ⟨S8192x64, .bf16⟩
  | .local _ .vmem, ⟨7, _⟩ => ⟨S8192x64, .bf16⟩
  | .local _ .vmem, ⟨8, _⟩ => ⟨S256x96, .bf16⟩
  | .local _ .vmem, ⟨9, _⟩ => ⟨S1x96, .f32⟩
  | .local _ .vmem, ⟨10, _⟩ => ⟨S8192x96, .f32⟩
  | .local _ .vmem, ⟨11, _⟩ => ⟨S8192x96, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_10 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_12 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_c : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_0 : Ref sig .tc := ⟨.hbm, 103, rfl⟩
abbrev main_call1_v12 : Ref sig .tc := ⟨.hbm, 104, rfl⟩
abbrev main_call1_v13 : Ref sig .tc := ⟨.hbm, 105, rfl⟩
abbrev main_v54 : Ref sig .tc := ⟨.hbm, 106, rfl⟩
abbrev main_c_13 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_c_14 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_c_15 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_16 : Ref sig .tc := ⟨.hbm, 125, rfl⟩
abbrev main_v70 : Ref sig .tc := ⟨.hbm, 126, rfl⟩
abbrev main_v71 : Ref sig .tc := ⟨.hbm, 127, rfl⟩
abbrev main_cst_17 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_18 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_19 : Ref sig .tc := ⟨.hbm, 140, rfl⟩
abbrev main_v82 : Ref sig .tc := ⟨.hbm, 141, rfl⟩
abbrev main_v83 : Ref sig .tc := ⟨.hbm, 142, rfl⟩
abbrev main_c_20 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_c_21 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_c : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_c_0 : Ref sig .tc := ⟨.hbm, 163, rfl⟩
abbrev main_call2_v12 : Ref sig .tc := ⟨.hbm, 164, rfl⟩
abbrev main_call2_v13 : Ref sig .tc := ⟨.hbm, 165, rfl⟩
abbrev main_v89 : Ref sig .tc := ⟨.hbm, 166, rfl⟩
abbrev main_c_22 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_c_23 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_c_24 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_cst_25 : Ref sig .tc := ⟨.hbm, 185, rfl⟩
abbrev main_v105 : Ref sig .tc := ⟨.hbm, 186, rfl⟩
abbrev main_v106 : Ref sig .tc := ⟨.hbm, 187, rfl⟩
abbrev main_cst_26 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_27 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_c_28 : Ref sig .tc := ⟨.hbm, 200, rfl⟩
abbrev main_v117 : Ref sig .tc := ⟨.hbm, 201, rfl⟩
abbrev main_v118 : Ref sig .tc := ⟨.hbm, 202, rfl⟩
abbrev main_c_29 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1048576x1 : S_.BroadcastsInDim S1048576x1 (![] : Fin 0 → Fin S1048576x1.rank)
  concatenates_S1048576x64_S1048576x1_S1048576x65_d1 : Shape.Concatenates [S1048576x64, S1048576x1] S1048576x65 1
  bcast_S_S4x65 : S_.BroadcastsInDim S4x65 (![] : Fin 0 → Fin S4x65.rank)
  bcast_S1048576_S1048576x1_0 : S1048576.BroadcastsInDim S1048576x1 (![0] : Fin 1 → Fin S1048576x1.rank)
  slices_S4x65_S4x64_0_0 : S4x65.Slices ![0, 0] S4x64
  slices_S4x65_S4x1_0_64 : S4x65.Slices ![0, 64] S4x1
  bcast_S_S4x1 : S_.BroadcastsInDim S4x1 (![] : Fin 0 → Fin S4x1.rank)
  bcast_S4x1_S4x64_0_1 : S4x1.BroadcastsInDim S4x64 (![0, 1] : Fin 2 → Fin S4x64.rank)
  bitsLt_bf16_f32 : FTy.bits .bf16 < FTy.bits .f32
  bcast_S_S1048576 : S_.BroadcastsInDim S1048576 (![] : Fin 0 → Fin S1048576.rank)
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576x65 : S_.BroadcastsInDim S1048576x65 (![] : Fin 0 → Fin S1048576x65.rank)
  slices_S1048576x65_S1048576x64_0_0 : S1048576x65.Slices ![0, 0] S1048576x64
  slices_S1048576x65_S1048576x1_0_64 : S1048576x65.Slices ![0, 64] S1048576x1
  bcast_S1048576x1_S1048576x64_0_1 : S1048576x1.BroadcastsInDim S1048576x64 (![0, 1] : Fin 2 → Fin S1048576x64.rank)
  bcast_S_S131072x65 : S_.BroadcastsInDim S131072x65 (![] : Fin 0 → Fin S131072x65.rank)
  slices_S131072x65_S131072x64_0_0 : S131072x65.Slices ![0, 0] S131072x64
  slices_S131072x65_S131072x1_0_64 : S131072x65.Slices ![0, 64] S131072x1
  bcast_S_S131072x1 : S_.BroadcastsInDim S131072x1 (![] : Fin 0 → Fin S131072x1.rank)
  bcast_S131072x1_S131072x64_0_1 : S131072x1.BroadcastsInDim S131072x64 (![0, 1] : Fin 2 → Fin S131072x64.rank)
  bcast_S_S16384x65 : S_.BroadcastsInDim S16384x65 (![] : Fin 0 → Fin S16384x65.rank)
  slices_S16384x65_S16384x64_0_0 : S16384x65.Slices ![0, 0] S16384x64
  slices_S16384x65_S16384x1_0_64 : S16384x65.Slices ![0, 64] S16384x1
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  transposes_S96x256_S256x96_1_0 : S96x256.Transposes [1, 0] S256x96
  shapeCasts_S96_S1x96 : S96.ShapeCasts S1x96
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x96_S64x96_0_0 : ∀ a, (![0, 0] : Fin 2 → Nat) a + S64x96.size a ≤ S256x96.size a
  h_S64x96 : 0 < S64x96.numel
  shapeCasts_S64x96_S64x96 : S64x96.ShapeCasts S64x96
  inb_S256x96_S64x96_64_0 : ∀ a, (![64, 0] : Fin 2 → Nat) a + S64x96.size a ≤ S256x96.size a
  inb_S256x96_S64x96_128_0 : ∀ a, (![128, 0] : Fin 2 → Nat) a + S64x96.size a ≤ S256x96.size a
  inb_S256x96_S64x96_192_0 : ∀ a, (![192, 0] : Fin 2 → Nat) a + S64x96.size a ≤ S256x96.size a
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S8192x96 : S1x96.Broadcasts S8192x96
  inb_S8192x96_S8192x96_0_0 : ∀ a, (![0, 0] : Fin 2 → Nat) a + S8192x96.size a ≤ S8192x96.size a
  h_S8192x96 : 0 < S8192x96.numel
  scatter_S4x65_S1048576x1_S1048576x65_1_0_0_1_wf : ScatterDims.WF S4x65 S1048576x1 S1048576x65 [1] [0] [0] 1
  gather_S4x64_S1048576x1_S1048576x64_1_0_n_n_0_1_164_wf : GatherDims.WF S4x64 S1048576x1 S1048576x64 [1] [0] [] [0] [] 1 ![1, 64]
  scatter_S1048576x65_S1048576x1_S1048576x65_1_0_0_1_wf : ScatterDims.WF S1048576x65 S1048576x1 S1048576x65 [1] [0] [0] 1
  gather_S1048576x64_S1048576x1_S1048576x64_1_0_n_n_0_1_164_wf : GatherDims.WF S1048576x64 S1048576x1 S1048576x64 [1] [0] [] [0] [] 1 ![1, 64]
  scatter_S131072x65_S1048576x1_S1048576x65_1_0_0_1_wf : ScatterDims.WF S131072x65 S1048576x1 S1048576x65 [1] [0] [0] 1
  gather_S131072x64_S1048576x1_S1048576x64_1_0_n_n_0_1_164_wf : GatherDims.WF S131072x64 S1048576x1 S1048576x64 [1] [0] [] [0] [] 1 ![1, 64]
  scatter_S16384x65_S1048576x1_S1048576x65_1_0_0_1_wf : ScatterDims.WF S16384x65 S1048576x1 S1048576x65 [1] [0] [0] 1
  gather_S16384x64_S1048576x1_S1048576x64_1_0_n_n_0_1_164_wf : GatherDims.WF S16384x64 S1048576x1 S1048576x64 [1] [0] [] [0] [] 1 ![1, 64]
  dot_S8192x64_S64x96_S8192x96_1_0_0_1_n_n_wf : DotDims.WF S8192x64 S64x96 S8192x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .bf16 = 32 ∨ (Rect.block (s := S1048576x64) S8192x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1048576x64.size a
  hwx0_1 : ∀ i : grid0.Coords, EltTy.bits .bf16 = 32 ∨ (Rect.block (s := S1048576x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1048576x64.size a
  hwx0_2 : ∀ i : grid0.Coords, EltTy.bits .bf16 = 32 ∨ (Rect.block (s := S1048576x64) S8192x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S1048576x64.size a
  hwx0_3 : ∀ i : grid0.Coords, EltTy.bits .bf16 = 32 ∨ (Rect.block (s := S1048576x64) S8192x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x96.size a ≤ S256x96.size a
  hwx0_4 : ∀ i : grid0.Coords, EltTy.bits .bf16 = 32 ∨ (Rect.block (s := S256x96) S256x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x96.size a ≤ S1048576x96.size a
  hwx0_6 : ∀ i : grid0.Coords, EltTy.bits .f32 = 32 ∨ (Rect.block (s := S1048576x96) S8192x96.size (cc0_transform_6 i) (hinb0_6 i)).WholeWords (EltTy.packing .f32)

variable [Facts₀]

def scatter_S4x65_S1048576x1_S1048576x65_1_0_0_1 : ScatterDims S4x65 S1048576x1 S1048576x65 where
  updateWindowDims := [1]
  insertedWindowDims := [0]
  scatterDimsToOperandDims := [0]
  indexVectorDim := 1
  wf := scatter_S4x65_S1048576x1_S1048576x65_1_0_0_1_wf
def gather_S4x64_S1048576x1_S1048576x64_1_0_n_n_0_1_164 : GatherDims S4x64 S1048576x1 S1048576x64 where
  offsetDims := [1]
  collapsedSliceDims := [0]
  operandBatchingDims := []
  startIndicesBatchingDims := []
  startIndexMap := [0]
  indexVectorDim := 1
  sliceSizes := ![1, 64]
  wf := gather_S4x64_S1048576x1_S1048576x64_1_0_n_n_0_1_164_wf
def scatter_S1048576x65_S1048576x1_S1048576x65_1_0_0_1 : ScatterDims S1048576x65 S1048576x1 S1048576x65 where
  updateWindowDims := [1]
  insertedWindowDims := [0]
  scatterDimsToOperandDims := [0]
  indexVectorDim := 1
  wf := scatter_S1048576x65_S1048576x1_S1048576x65_1_0_0_1_wf
def gather_S1048576x64_S1048576x1_S1048576x64_1_0_n_n_0_1_164 : GatherDims S1048576x64 S1048576x1 S1048576x64 where
  offsetDims := [1]
  collapsedSliceDims := [0]
  operandBatchingDims := []
  startIndicesBatchingDims := []
  startIndexMap := [0]
  indexVectorDim := 1
  sliceSizes := ![1, 64]
  wf := gather_S1048576x64_S1048576x1_S1048576x64_1_0_n_n_0_1_164_wf
def scatter_S131072x65_S1048576x1_S1048576x65_1_0_0_1 : ScatterDims S131072x65 S1048576x1 S1048576x65 where
  updateWindowDims := [1]
  insertedWindowDims := [0]
  scatterDimsToOperandDims := [0]
  indexVectorDim := 1
  wf := scatter_S131072x65_S1048576x1_S1048576x65_1_0_0_1_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S16384x65_S1048576x1_S1048576x65_1_0_0_1 : ScatterDims S16384x65 S1048576x1 S1048576x65 where
  updateWindowDims := [1]
  insertedWindowDims := [0]
  scatterDimsToOperandDims := [0]
  indexVectorDim := 1
  wf := scatter_S16384x65_S1048576x1_S1048576x65_1_0_0_1_wf
def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def dot_S8192x64_S64x96_S8192x96_1_0_0_1_n_n : DotDims S8192x64 S64x96 S8192x96 where
  lhsContracting := [1]
  rhsContracting := [0]
  lhsNonContracting := [0]
  rhsNonContracting := [1]
  lhsBatch := []
  rhsBatch := []
  wf := dot_S8192x64_S64x96_S8192x96_1_0_0_1_n_n_wf

abbrev win0_0 : Pipeline.Window sig grid0 :=
  Pipeline.Window.ofSpec (Memref.whole main_v18) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v123) S8192x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v125) S256x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v126) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v127) S8192x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x3 : Shape := ⟨2, ![1048576, 3]⟩
abbrev S1048576 : Shape := ⟨1, ![1048576]⟩
abbrev S96x256 : Shape := ⟨2, ![96, 256]⟩
abbrev S96 : Shape := ⟨1, ![96]⟩
abbrev S_ : Shape := ⟨0, ![]⟩
abbrev S4x64 : Shape := ⟨2, ![4, 64]⟩
abbrev S1048576x1 : Shape := ⟨2, ![1048576, 1]⟩
abbrev S4x1 : Shape := ⟨2, ![4, 1]⟩
abbrev S131072x64 : Shape := ⟨2, ![131072, 64]⟩
abbrev S131072x1 : Shape := ⟨2, ![131072, 1]⟩
abbrev S16384x64 : Shape := ⟨2, ![16384, 64]⟩
abbrev S16384x1 : Shape := ⟨2, ![16384, 1]⟩
abbrev S1048576x256 : Shape := ⟨2, ![1048576, 256]⟩
abbrev S256x96 : Shape := ⟨2, ![256, 96]⟩
abbrev S1048576x96 : Shape := ⟨2, ![1048576, 96]⟩
abbrev S1x96 : Shape := ⟨2, ![1, 96]⟩

abbrev nBuf : Space → Nat
  | .hbm => 215
  | .vmem => 0
  | .smem => 0
  | _ => 0

abbrev hbmTy0_0 (i : Nat) : BufTy := match i % 128 with
  | 0 => ⟨S1048576x64, .f32⟩
  | 1 => ⟨S1048576x3, .i32⟩
  | 2 => ⟨S1048576, .i32⟩
  | 3 => ⟨S96x256, .f32⟩
  | 4 => ⟨S96, .f32⟩
  | 5 => ⟨S_, .f32⟩
  | 6 => ⟨S4x64, .f32⟩
  | 7 => ⟨S1048576x1, .i32⟩
  | 8 => ⟨S4x64, .f32⟩
  | 9 => ⟨S_, .f32⟩
  | 10 => ⟨S1048576x1, .f32⟩
  | 11 => ⟨S_, .f32⟩
  | 12 => ⟨S4x1, .f32⟩
  | 13 => ⟨S1048576x1, .i32⟩
  | 14 => ⟨S4x1, .f32⟩
  | 15 => ⟨S_, .f32⟩
  | 16 => ⟨S4x1, .f32⟩
  | 17 => ⟨S4x1, .f32⟩
  | 18 => ⟨S4x64, .f32⟩
  | 19 => ⟨S4x64, .f32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S1048576x64, .f32⟩
  | 29 => ⟨S_, .i32⟩
  | 30 => ⟨S_, .i32⟩
  | 31 => ⟨S1048576x3, .i32⟩
  | 32 => ⟨S1048576x3, .i32⟩
  | 33 => ⟨S1048576x3, .i32⟩
  | 34 => ⟨S_, .i32⟩
  | 35 => ⟨S1048576x3, .i32⟩
  | 36 => ⟨S1048576x3, .i1⟩
  | 37 => ⟨S1048576x3, .i32⟩
  | 38 => ⟨S1048576x3, .i32⟩
  | 39 => ⟨S_, .i32⟩
  | 40 => ⟨S1048576x3, .i32⟩
  | 41 => ⟨S1048576x3, .i1⟩
  | 42 => ⟨S1048576x3, .i1⟩
  | 43 => ⟨S_, .i32⟩
  | 44 => ⟨S1048576x3, .i32⟩
  | 45 => ⟨S1048576x3, .i32⟩
  | 46 => ⟨S1048576x3, .i32⟩
  | 47 => ⟨S_, .i32⟩
  | 48 => ⟨S1048576, .i32⟩
  | 49 => ⟨S1048576, .i32⟩
  | 50 => ⟨S1048576x1, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S1048576x1, .i32⟩
  | 57 => ⟨S1048576, .i32⟩
  | 58 => ⟨S1048576, .i32⟩
  | 59 => ⟨S_, .i32⟩
  | 60 => ⟨S1048576, .i32⟩
  | 61 => ⟨S1048576, .i32⟩
  | 62 => ⟨S1048576x1, .i32⟩
  | 63 => ⟨S1048576, .i32⟩
  | 64 => ⟨S1048576, .i32⟩
  | 65 => ⟨S_, .f32⟩
  | 66 => ⟨S1048576x64, .f32⟩
  | 67 => ⟨S1048576x1, .i32⟩
  | 68 => ⟨S1048576x64, .f32⟩
  | 69 => ⟨S_, .f32⟩
  | 70 => ⟨S1048576x1, .f32⟩
  | 71 => ⟨S_, .f32⟩
  | 72 => ⟨S1048576x1, .f32⟩
  | 73 => ⟨S1048576x1, .i32⟩
  | 74 => ⟨S1048576x1, .f32⟩
  | 75 => ⟨S_, .f32⟩
  | 76 => ⟨S1048576x1, .f32⟩
  | 77 => ⟨S1048576x1, .f32⟩
  | 78 => ⟨S1048576x64, .f32⟩
  | 79 => ⟨S1048576x64, .f32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S1048576x64, .f32⟩
  | 89 => ⟨S_, .i32⟩
  | 90 => ⟨S_, .i32⟩
  | 91 => ⟨S1048576x3, .i32⟩
  | 92 => ⟨S1048576x3, .i32⟩
  | 93 => ⟨S1048576x3, .i32⟩
  | 94 => ⟨S_, .i32⟩
  | 95 => ⟨S1048576x3, .i32⟩
  | 96 => ⟨S1048576x3, .i1⟩
  | 97 => ⟨S1048576x3, .i32⟩
  | 98 => ⟨S1048576x3, .i32⟩
  | 99 => ⟨S_, .i32⟩
  | 100 => ⟨S1048576x3, .i32⟩
  | 101 => ⟨S1048576x3, .i1⟩
  | 102 => ⟨S1048576x3, .i1⟩
  | 103 => ⟨S_, .i32⟩
  | 104 => ⟨S1048576x3, .i32⟩
  | 105 => ⟨S1048576x3, .i32⟩
  | 106 => ⟨S1048576x3, .i32⟩
  | 107 => ⟨S_, .i32⟩
  | 108 => ⟨S1048576, .i32⟩
  | 109 => ⟨S1048576, .i32⟩
  | 110 => ⟨S1048576x1, .i32⟩
  | 111 => ⟨S1048576, .i32⟩
  | 112 => ⟨S1048576, .i32⟩
  | 113 => ⟨S_, .i32⟩
  | 114 => ⟨S1048576, .i32⟩
  | 115 => ⟨S1048576, .i32⟩
  | 116 => ⟨S1048576x1, .i32⟩
  | 117 => ⟨S1048576, .i32⟩
  | 118 => ⟨S1048576, .i32⟩
  | 119 => ⟨S_, .i32⟩
  | 120 => ⟨S1048576, .i32⟩
  | 121 => ⟨S1048576, .i32⟩
  | 122 => ⟨S1048576x1, .i32⟩
  | 123 => ⟨S1048576, .i32⟩
  | 124 => ⟨S1048576, .i32⟩
  | 125 => ⟨S_, .f32⟩
  | 126 => ⟨S131072x64, .f32⟩
  | 127 => ⟨S1048576x1, .i32⟩
  | _ => ⟨S1048576x64, .f32⟩

abbrev hbmTy0_1 (i : Nat) : BufTy := match i % 128 with
  | 0 => ⟨S131072x64, .f32⟩
  | 1 => ⟨S_, .f32⟩
  | 2 => ⟨S1048576x1, .f32⟩
  | 3 => ⟨S_, .f32⟩
  | 4 => ⟨S131072x1, .f32⟩
  | 5 => ⟨S1048576x1, .i32⟩
  | 6 => ⟨S131072x1, .f32⟩
  | 7 => ⟨S_, .f32⟩
  | 8 => ⟨S131072x1, .f32⟩
  | 9 => ⟨S131072x1, .f32⟩
  | 10 => ⟨S131072x64, .f32⟩
  | 11 => ⟨S131072x64, .f32⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i32⟩
  | 18 => ⟨S1048576, .i32⟩
  | 19 => ⟨S1048576x1, .i32⟩
  | 20 => ⟨S1048576x64, .f32⟩
  | 21 => ⟨S_, .i32⟩
  | 22 => ⟨S_, .i32⟩
  | 23 => ⟨S1048576x3, .i32⟩
  | 24 => ⟨S1048576x3, .i32⟩
  | 25 => ⟨S1048576x3, .i32⟩
  | 26 => ⟨S_, .i32⟩
  | 27 => ⟨S1048576x3, .i32⟩
  | 28 => ⟨S1048576x3, .i1⟩
  | 29 => ⟨S1048576x3, .i32⟩
  | 30 => ⟨S1048576x3, .i32⟩
  | 31 => ⟨S_, .i32⟩
  | 32 => ⟨S1048576x3, .i32⟩
  | 33 => ⟨S1048576x3, .i1⟩
  | 34 => ⟨S1048576x3, .i1⟩
  | 35 => ⟨S_, .i32⟩
  | 36 => ⟨S1048576x3, .i32⟩
  | 37 => ⟨S1048576x3, .i32⟩
  | 38 => ⟨S1048576x3, .i32⟩
  | 39 => ⟨S_, .i32⟩
  | 40 => ⟨S1048576, .i32⟩
  | 41 => ⟨S1048576, .i32⟩
  | 42 => ⟨S1048576x1, .i32⟩
  | 43 => ⟨S1048576, .i32⟩
  | 44 => ⟨S1048576, .i32⟩
  | 45 => ⟨S_, .i32⟩
  | 46 => ⟨S1048576, .i32⟩
  | 47 => ⟨S1048576, .i32⟩
  | 48 => ⟨S1048576x1, .i32⟩
  | 49 => ⟨S1048576, .i32⟩
  | 50 => ⟨S1048576, .i32⟩
  | 51 => ⟨S_, .i32⟩
  | 52 => ⟨S1048576, .i32⟩
  | 53 => ⟨S1048576, .i32⟩
  | 54 => ⟨S1048576x1, .i32⟩
  | 55 => ⟨S1048576, .i32⟩
  | 56 => ⟨S1048576, .i32⟩
  | 57 => ⟨S_, .f32⟩
  | 58 => ⟨S16384x64, .f32⟩
  | 59 => ⟨S1048576x1, .i32⟩
  | 60 => ⟨S16384x64, .f32⟩
  | 61 => ⟨S_, .f32⟩
  | 62 => ⟨S1048576x1, .f32⟩
  | 63 => ⟨S_, .f32⟩
  | 64 => ⟨S16384x1, .f32⟩
  | 65 => ⟨S1048576x1, .i32⟩
  | 66 => ⟨S16384x1, .f32⟩
  | 67 => ⟨S_, .f32⟩
  | 68 => ⟨S16384x1, .f32⟩
  | 69 => ⟨S16384x1, .f32⟩
  | 70 => ⟨S16384x64, .f32⟩
  | 71 => ⟨S16384x64, .f32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S1048576x64, .f32⟩
  | 81 => ⟨S1048576x256, .f32⟩
  | 82 => ⟨S256x96, .f32⟩
  | 83 => ⟨S1048576x96, .f32⟩
  | 84 => ⟨S1x96, .f32⟩
  | 85 => ⟨S1048576x96, .f32⟩
  | 86 => ⟨S1048576x96, .f32⟩
  | _ => ⟨S1048576x64, .f32⟩

abbrev hbmTy (i : Nat) : BufTy := match i / 128 with
  | 0 => hbmTy0_0 i
  | 1 => hbmTy0_1 i
  | _ => ⟨S1048576x64, .f32⟩

abbrev bufTy : (tb : Table) → Fin (tcTables nBuf tb) → BufTy
  | .hbm, ⟨i, _⟩ => hbmTy i
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_9 : Ref sig .tc := ⟨.hbm, 69, rfl⟩
abbrev main_v37 : Ref sig .tc := ⟨.hbm, 70, rfl⟩
abbrev main_cst_10 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_11 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_12 : Ref sig .tc := ⟨.hbm, 80, rfl⟩
abbrev main_v45 : Ref sig .tc := ⟨.hbm, 81, rfl⟩
abbrev main_v46 : Ref sig .tc := ⟨.hbm, 82, rfl⟩
abbrev main_c_13 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_14 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_c : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_0 : Ref sig .tc := ⟨.hbm, 103, rfl⟩
abbrev main_call1_v12 : Ref sig .tc := ⟨.hbm, 104, rfl⟩
abbrev main_call1_v13 : Ref sig .tc := ⟨.hbm, 105, rfl⟩
abbrev main_v52 : Ref sig .tc := ⟨.hbm, 106, rfl⟩
abbrev main_c_15 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_16 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_17 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_18 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_19 : Ref sig .tc := ⟨.hbm, 129, rfl⟩
abbrev main_v71 : Ref sig .tc := ⟨.hbm, 130, rfl⟩
abbrev main_cst_20 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_21 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_c_22 : Ref sig .tc := ⟨.hbm, 140, rfl⟩
abbrev main_v79 : Ref sig .tc := ⟨.hbm, 141, rfl⟩
abbrev main_v80 : Ref sig .tc := ⟨.hbm, 142, rfl⟩
abbrev main_c_23 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_c_24 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_c : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_c_0 : Ref sig .tc := ⟨.hbm, 163, rfl⟩
abbrev main_call2_v12 : Ref sig .tc := ⟨.hbm, 164, rfl⟩
abbrev main_call2_v13 : Ref sig .tc := ⟨.hbm, 165, rfl⟩
abbrev main_v86 : Ref sig .tc := ⟨.hbm, 166, rfl⟩
abbrev main_c_25 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_c_26 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_c_27 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_cst_28 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_cst_29 : Ref sig .tc := ⟨.hbm, 189, rfl⟩
abbrev main_v105 : Ref sig .tc := ⟨.hbm, 190, rfl⟩
abbrev main_cst_30 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_cst_31 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_c_32 : Ref sig .tc := ⟨.hbm, 200, rfl⟩
abbrev main_v113 : Ref sig .tc := ⟨.hbm, 201, rfl⟩
abbrev main_v114 : Ref sig .tc := ⟨.hbm, 202, rfl⟩
abbrev main_c_33 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩

abbrev nD : Nat := 1
abbrev τ : Topo := Topo.v7x

variable {F : FTy → Type} [FloatOps F]

class Facts₀ : Prop where
  bcast_S_S4x64 : S_.BroadcastsInDim S4x64 (![] : Fin 0 → Fin S4x64.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S_S4x1 : S_.BroadcastsInDim S4x1 (![] : Fin 0 → Fin S4x1.rank)
  bcast_S4x1_S4x64_0_1 : S4x1.BroadcastsInDim S4x64 (![0, 1] : Fin 2 → Fin S4x64.rank)
  bcast_S_S1048576 : S_.BroadcastsInDim S1048576 (![] : Fin 0 → Fin S1048576.rank)
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576x64 : S_.BroadcastsInDim S1048576x64 (![] : Fin 0 → Fin S1048576x64.rank)
  bcast_S1048576x1_S1048576x64_0_1 : S1048576x1.BroadcastsInDim S1048576x64 (![0, 1] : Fin 2 → Fin S1048576x64.rank)
  bcast_S_S131072x64 : S_.BroadcastsInDim S131072x64 (![] : Fin 0 → Fin S131072x64.rank)
  bcast_S_S131072x1 : S_.BroadcastsInDim S131072x1 (![] : Fin 0 → Fin S131072x1.rank)
  bcast_S131072x1_S131072x64_0_1 : S131072x1.BroadcastsInDim S131072x64 (![0, 1] : Fin 2 → Fin S131072x64.rank)
  bcast_S_S16384x64 : S_.BroadcastsInDim S16384x64 (![] : Fin 0 → Fin S16384x64.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  concatenates_S1048576x64_S1048576x64_S1048576x64_S1048576x64_S1048576x256_d1 : Shape.Concatenates [S1048576x64, S1048576x64, S1048576x64, S1048576x64] S1048576x256 1
  transposes_S96x256_S256x96_1_0 : S96x256.Transposes [1, 0] S256x96
  bcast_S96_S1x96_1 : S96.BroadcastsInDim S1x96 (![1] : Fin 1 → Fin S1x96.rank)
  bcast_S1x96_S1048576x96_0_1 : S1x96.BroadcastsInDim S1048576x96 (![0, 1] : Fin 2 → Fin S1048576x96.rank)
  scatter_S4x64_S1048576x1_S1048576x64_1_0_0_1_wf : ScatterDims.WF S4x64 S1048576x1 S1048576x64 [1] [0] [0] 1
  scatter_S4x1_S1048576x1_S1048576x1_1_0_0_1_wf : ScatterDims.WF S4x1 S1048576x1 S1048576x1 [1] [0] [0] 1
  gather_S4x64_S1048576x1_S1048576x64_1_0_n_n_0_1_164_wf : GatherDims.WF S4x64 S1048576x1 S1048576x64 [1] [0] [] [0] [] 1 ![1, 64]
  scatter_S1048576x64_S1048576x1_S1048576x64_1_0_0_1_wf : ScatterDims.WF S1048576x64 S1048576x1 S1048576x64 [1] [0] [0] 1
  scatter_S1048576x1_S1048576x1_S1048576x1_1_0_0_1_wf : ScatterDims.WF S1048576x1 S1048576x1 S1048576x1 [1] [0] [0] 1
  gather_S1048576x64_S1048576x1_S1048576x64_1_0_n_n_0_1_164_wf : GatherDims.WF S1048576x64 S1048576x1 S1048576x64 [1] [0] [] [0] [] 1 ![1, 64]
  scatter_S131072x64_S1048576x1_S1048576x64_1_0_0_1_wf : ScatterDims.WF S131072x64 S1048576x1 S1048576x64 [1] [0] [0] 1
  scatter_S131072x1_S1048576x1_S1048576x1_1_0_0_1_wf : ScatterDims.WF S131072x1 S1048576x1 S1048576x1 [1] [0] [0] 1
  gather_S131072x64_S1048576x1_S1048576x64_1_0_n_n_0_1_164_wf : GatherDims.WF S131072x64 S1048576x1 S1048576x64 [1] [0] [] [0] [] 1 ![1, 64]
  scatter_S16384x64_S1048576x1_S1048576x64_1_0_0_1_wf : ScatterDims.WF S16384x64 S1048576x1 S1048576x64 [1] [0] [0] 1
  scatter_S16384x1_S1048576x1_S1048576x1_1_0_0_1_wf : ScatterDims.WF S16384x1 S1048576x1 S1048576x1 [1] [0] [0] 1
  gather_S16384x64_S1048576x1_S1048576x64_1_0_n_n_0_1_164_wf : GatherDims.WF S16384x64 S1048576x1 S1048576x64 [1] [0] [] [0] [] 1 ![1, 64]
  dot_S1048576x256_S256x96_S1048576x96_1_0_0_1_n_n_wf : DotDims.WF S1048576x256 S256x96 S1048576x96 [1] [0] [0] [1] [] []

variable [Facts₀]

def scatter_S4x64_S1048576x1_S1048576x64_1_0_0_1 : ScatterDims S4x64 S1048576x1 S1048576x64 where
  updateWindowDims := [1]
  insertedWindowDims := [0]
  scatterDimsToOperandDims := [0]
  indexVectorDim := 1
  wf := scatter_S4x64_S1048576x1_S1048576x64_1_0_0_1_wf
def scatter_S4x1_S1048576x1_S1048576x1_1_0_0_1 : ScatterDims S4x1 S1048576x1 S1048576x1 where
  updateWindowDims := [1]
  insertedWindowDims := [0]
  scatterDimsToOperandDims := [0]
  indexVectorDim := 1
  wf := scatter_S4x1_S1048576x1_S1048576x1_1_0_0_1_wf
def gather_S4x64_S1048576x1_S1048576x64_1_0_n_n_0_1_164 : GatherDims S4x64 S1048576x1 S1048576x64 where
  offsetDims := [1]
  collapsedSliceDims := [0]
  operandBatchingDims := []
  startIndicesBatchingDims := []
  startIndexMap := [0]
  indexVectorDim := 1
  sliceSizes := ![1, 64]
  wf := gather_S4x64_S1048576x1_S1048576x64_1_0_n_n_0_1_164_wf
def scatter_S1048576x64_S1048576x1_S1048576x64_1_0_0_1 : ScatterDims S1048576x64 S1048576x1 S1048576x64 where
  updateWindowDims := [1]
  insertedWindowDims := [0]
  scatterDimsToOperandDims := [0]
  indexVectorDim := 1
  wf := scatter_S1048576x64_S1048576x1_S1048576x64_1_0_0_1_wf
def scatter_S1048576x1_S1048576x1_S1048576x1_1_0_0_1 : ScatterDims S1048576x1 S1048576x1 S1048576x1 where
  updateWindowDims := [1]
  insertedWindowDims := [0]
  scatterDimsToOperandDims := [0]
  indexVectorDim := 1
  wf := scatter_S1048576x1_S1048576x1_S1048576x1_1_0_0_1_wf
def gather_S1048576x64_S1048576x1_S1048576x64_1_0_n_n_0_1_164 : GatherDims S1048576x64 S1048576x1 S1048576x64 where
  offsetDims := [1]
  collapsedSliceDims := [0]
  operandBatchingDims := []
  startIndicesBatchingDims := []
  startIndexMap := [0]
  indexVectorDim := 1
  sliceSizes := ![1, 64]
  wf := gather_S1048576x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def scatter_S131072x1_S1048576x1_S1048576x1_1_0_0_1 : ScatterDims S131072x1 S1048576x1 S1048576x1 where
  updateWindowDims := [1]
  insertedWindowDims := [0]
  scatterDimsToOperandDims := [0]
  indexVectorDim := 1
  wf := scatter_S131072x1_S1048576x1_S1048576x1_1_0_0_1_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S16384x64_S1048576x1_S1048576x64_1_0_0_1 : ScatterDims S16384x64 S1048576x1 S1048576x64 where
  updateWindowDims := [1]
  insertedWindowDims := [0]
  scatterDimsToOperandDims := [0]
  indexVectorDim := 1
  wf := scatter_S16384x64_S1048576x1_S1048576x64_1_0_0_1_wf
def scatter_S16384x1_S1048576x1_S1048576x1_1_0_0_1 : ScatterDims S16384x1 S1048576x1 S1048576x1 where
  updateWindowDims := [1]
  insertedWindowDims := [0]
  scatterDimsToOperandDims := [0]
  indexVectorDim := 1
  wf := scatter_S16384x1_S1048576x1_S1048576x1_1_0_0_1_wf
def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def dot_S1048576x256_S256x96_S1048576x96_1_0_0_1_n_n : DotDims S1048576x256 S256x96 S1048576x96 where
  lhsContracting := [1]
  rhsContracting := [0]
  lhsNonContracting := [0]
  rhsNonContracting := [1]
  lhsBatch := []
  rhsBatch := []
  wf := dot_S1048576x256_S256x96_S1048576x96_1_0_0_1_n_n_wf

class Facts : Prop extends Facts₀ where

variable [Facts]
-- ==== Proof.KerTerm.lean ====
/-
  The kernel program's host operations before its one region, as pure terms of the five argument arrays: what the
  region's six input windows hold.

  The pooling is the reference's (a point cloud of N = 1048576 points pooled into the cells of four scales, each
  point reading back its own cell's mean), arranged differently: at every scale the features and a column of ones
  are set side by side ([N,65]) and accumulated into the cells' table in ONE pass; columns 0…63 of the table are
  then the per-cell sums and column 64 the per-cell count.  The means are rounded to bf16 before every point reads
  its row back.  The weight is transposed and rounded to bf16 ([256,96]); the bias is recast as a row [1,96].
-/
import proofs.«109526_j73418170958019_2_alg».proof.Proof.Gen.KernelIdeal

noncomputable section

namespace Cert.KernelIdeal.KerTerm

open Cert.KernelIdeal Cert.KernelIdeal.Gen Idealize.ShloMosaic

variable {F : FTy → Type} [FloatOps F]

/-- The contents of a buffer of shape `s` and element type `e`. -/
abbrev Ty (F : FTy → Type) [FloatOps F] (s : Shape) (e : EltTy) := (⟨s, e⟩ : BufTy).Contents (Elt F)

/-- Every coordinate divided by the scalar `k`, rounded toward −∞: the truncating quotient, less one where
    dividend and divisor differ in sign and the remainder is not zero. -/
def floorDiv (k : Ty F S_ .i32) (a1 : Ty F S1048576x3 .i32) : Ty F S1048576x3 .i32 :=
  select
    (andi (cmpi .ne (signi a1) (broadcastInDim S1048576x3 ![] bcast_S_S1048576x3 (signi k)))
      (cmpi .ne (Host.remsi a1 (broadcastInDim S1048576x3 ![] bcast_S_S1048576x3 k))
        (broadcastInDim S1048576x3 ![] bcast_S_S1048576x3 (constantI S_ 32 0#32))))
    (subi (Host.divsi a1 (broadcastInDim S1048576x3 ![] bcast_S_S1048576x3 k))
      (broadcastInDim S1048576x3 ![] bcast_S_S1048576x3 (constantI S_ 32 1#32)))
    (Host.divsi a1 (broadcastInDim S1048576x3 ![] bcast_S_S1048576x3 k))

/-- Column `0`, `1` or `2` of the pooled coordinates, as a vector over the points. -/
def col0 (q : Ty F S1048576x3 .i32) : Ty F S1048576 .i32 :=
  shapeCast S1048576 (extractStridedSlice S1048576x1 ![0, 0] q slices_S1048576x3_S1048576x1_0_0) shapeCasts_S1048576x1_S1048576
def col1 (q : Ty F S1048576x3 .i32) : Ty F S1048576 .i32 :=
  shapeCast S1048576 (extractStridedSlice S1048576x1 ![0, 1] q slices_S1048576x3_S1048576x1_0_1) shapeCasts_S1048576x1_S1048576
def col2 (q : Ty F S1048576x3 .i32) : Ty F S1048576 .i32 :=
  shapeCast S1048576 (extractStridedSlice S1048576x1 ![0, 2] q slices_S1048576x3_S1048576x1_0_2) shapeCasts_S1048576x1_S1048576

/-- The scalar `s` at every point. -/
def splat (s : BitVec 32) : Ty F S1048576 .i32 := broadcastInDim S1048576 ![] bcast_S_S1048576 (constantI S_ 32 s : Ty F S_ .i32)

/-- The cell number `((b·s + q₀)·s + q₁)·s + q₂` of every point, from the batch index `b` and the pooled
    coordinates `q`. -/
def cellId (s : BitVec 32) (q : Ty F S1048576x3 .i32) (a2 : Ty F S1048576 .i32) : Ty F S1048576 .i32 :=
  addi (muli (addi (muli (addi (muli a2 (splat (F := F) s)) (col0 q)) (splat (F := F) s)) (col1 q)) (splat (F := F) s)) (col2 q)

/-- The cell numbers as the one-column index table the scatter reads. -/
def asColumn (sg : Ty F S1048576 .i32) : Ty F S1048576x1 .i32 :=
  broadcastInDim S1048576x1 ![0] bcast_S1048576_S1048576x1_0 sg

/-- The cell numbers as the gather reads them: a negative one counted from the end of a table of `n` rows. -/
def wrapped (n : BitVec 32) (sg : Ty F S1048576 .i32) : Ty F S1048576x1 .i32 :=
  asColumn (select (cmpi .slt sg (splat (F := F) 0#32)) (addi sg (splat (F := F) n)) sg)

/-- The constant 1 at every point, one column. -/
def onesCol : Ty F S1048576x1 .f32 := broadcastInDim S1048576x1 ![] bcast_S_S1048576x1 (constant S_ .f32 0x3F800000#32)

/-- The features with a column of ones set beside them: `[N,65]`. -/
def withOnes (a0 : Ty F S1048576x64 .f32) : Ty F S1048576x65 .f32 :=
  concatenate S1048576x65 1 [⟨S1048576x64, a0⟩, ⟨S1048576x1, onesCol⟩] concatenates_S1048576x64_S1048576x1_S1048576x65_d1

/-- The scale of 4 cells: one accumulation of `[features | 1]` into the cells' table, 65 columns wide. -/
def sums4 (a0 : Ty F S1048576x64 .f32) (sg : Ty F S1048576 .i32) : Ty F S4x65 .f32 :=
  Host.scatterAdd scatter_S4x65_S1048576x1_S1048576x65_1_0_0_1
    (broadcastInDim S4x65 ![] bcast_S_S4x65 (constant S_ .f32 0x00000000#32)) (asColumn sg) (withOnes a0)

/-- The scale of 4 cells: columns 0…63 of the table (the sums) over `max (column 64, the count) 1`, rounded to
    bf16, read back by every point. -/
def pooled4 (a0 : Ty F S1048576x64 .f32) (sg : Ty F S1048576 .i32) : Ty F S1048576x64 .bf16 :=
  Host.gather gather_S4x64_S1048576x1_S1048576x64_1_0_n_n_0_1_164
    (truncf .bf16
      (Host.divf
        (extractStridedSlice S4x64 ![0, 0] (sums4 a0 sg) slices_S4x65_S4x64_0_0)
        (broadcastInDim S4x64 ![0, 1] bcast_S4x1_S4x64_0_1
          (maximumf
            (extractStridedSlice S4x1 ![0, 64] (sums4 a0 sg) slices_S4x65_S4x1_0_64)
            (broadcastInDim S4x1 ![] bcast_S_S4x1 (constant S_ .f32 0x3F800000#32)))))
      bitsLt_bf16_f32)
    (wrapped 4#32 sg)

/-- The scale of 1048576 cells: one accumulation of `[features | 1]` into the cells' table, 65 columns wide. -/
def sums1048576 (a0 : Ty F S1048576x64 .f32) (sg : Ty F S1048576 .i32) : Ty F S1048576x65 .f32 :=
  Host.scatterAdd scatter_S1048576x65_S1048576x1_S1048576x65_1_0_0_1
    (broadcastInDim S1048576x65 ![] bcast_S_S1048576x65 (constant S_ .f32 0x00000000#32)) (asColumn sg) (withOnes a0)

/-- The scale of 1048576 cells: columns 0…63 of the table (the sums) over `max (column 64, the count) 1`, rounded to
    bf16, read back by every point. -/
def pooled1048576 (a0 : Ty F S1048576x64 .f32) (sg : Ty F S1048576 .i32) : Ty F S1048576x64 .bf16 :=
  Host.gather gather_S1048576x64_S1048576x1_S1048576x64_1_0_n_n_0_1_164
    (truncf .bf16
      (Host.divf
        (extractStridedSlice S1048576x64 ![0, 0] (sums1048576 a0 sg) slices_S1048576x65_S1048576x64_0_0)
        (broadcastInDim S1048576x64 ![0, 1] bcast_S1048576x1_S1048576x64_0_1
          (maximumf
            (extractStridedSlice S1048576x1 ![0, 64] (sums1048576 a0 sg) slices_S1048576x65_S1048576x1_0_64)
            (broadcastInDim S1048576x1 ![] bcast_S_S1048576x1 (constant S_ .f32 0x3F800000#32)))))
      bitsLt_bf16_f32)
    (wrapped 1048576#32 sg)

/-- The scale of 131072 cells: one accumulation of `[features | 1]` into the cells' table, 65 columns wide. -/
def sums131072 (a0 : Ty F S1048576x64 .f32) (sg : Ty F S1048576 .i32) : Ty F S131072x65 .f32 :=
  Host.scatterAdd scatter_S131072x65_S1048576x1_S1048576x65_1_0_0_1
    (broadcastInDim S131072x65 ![] bcast_S_S131072x65 (constant S_ .f32 0x00000000#32)) (asColumn sg) (withOnes a0)

/-- The scale of 131072 cells: columns 0…63 of the table (the sums) over `max (column 64, the count) 1`, rounded to
    bf16, read back by every point. -/
def pooled131072 (a0 : Ty F S1048576x64 .f32) (sg : Ty F S1048576 .i32) : Ty F S1048576x64 .bf16 :=
  Host.gather gather_S131072x64_S1048576x1_S1048576x64_1_0_n_n_0_1_164
    (truncf .bf16
      (Host.divf
        (extractStridedSlice S131072x64 ![0, 0] (sums131072 a0 sg) slices_S131072x65_S131072x64_0_0)
        (broadcastInDim S131072x64 ![0, 1] bcast_S131072x1_S131072x64_0_1
          (maximumf
            (extractStridedSlice S131072x1 ![0, 64] (sums131072 a0 sg) slices_S131072x65_S131072x1_0_64)
            (broadcastInDim S131072x1 ![] bcast_S_S131072x1 (constant S_ .f32 0x3F800000#32)))))
      bitsLt_bf16_f32)
    (wrapped 131072#32 sg)

/-- The scale of 16384 cells: one accumulation of `[features | 1]` into the cells' table, 65 columns wide. -/
def sums16384 (a0 : Ty F S1048576x64 .f32) (sg : Ty F S1048576 .i32) : Ty F S16384x65 .f32 :=
  Host.scatterAdd scatter_S16384x65_S1048576x1_S1048576x65_1_0_0_1
    (broadcastInDim S16384x65 ![] bcast_S_S16384x65 (constant S_ .f32 0x00000000#32)) (asColumn sg) (withOnes a0)

/-- The scale of 16384 cells: columns 0…63 of the table (the sums) over `max (column 64, the count) 1`, rounded to
    bf16, read back by every point. -/
def pooled16384 (a0 : Ty F S1048576x64 .f32) (sg : Ty F S1048576 .i32) : Ty F S1048576x64 .bf16 :=
  Host.gather gather_S16384x64_S1048576x1_S1048576x64_1_0_n_n_0_1_164
    (truncf .bf16
      (Host.divf
        (extractStridedSlice S16384x64 ![0, 0] (sums16384 a0 sg) slices_S16384x65_S16384x64_0_0)
        (broadcastInDim S16384x64 ![0, 1] bcast_S16384x1_S16384x64_0_1
          (maximumf
            (extractStridedSlice S16384x1 ![0, 64] (sums16384 a0 sg) slices_S16384x65_S16384x1_0_64)
            (broadcastInDim S16384x1 ![] bcast_S_S16384x1 (constant S_ .f32 0x3F800000#32)))))
      bitsLt_bf16_f32)
    (wrapped 16384#32 sg)

/-- The cell numbers of the three pyramid scales. -/
def cells2 (a1 : Ty F S1048576x3 .i32) (a2 : Ty F S1048576 .i32) : Ty F S1048576 .i32 :=
  cellId 64#32 (floorDiv (constantI S_ 32 2#32) a1) a2
def cells4 (a1 : Ty F S1048576x3 .i32) (a2 : Ty F S1048576 .i32) : Ty F S1048576 .i32 :=
  cellId 32#32 (floorDiv (constantI S_ 32 4#32) a1) a2
def cells8 (a1 : Ty F S1048576x3 .i32) (a2 : Ty F S1048576 .i32) : Ty F S1048576 .i32 :=
  cellId 16#32 (floorDiv (constantI S_ 32 8#32) a1) a2

/-- The weight transposed and rounded to bf16: `[256,96]`. -/
def weights (a3 : Ty F S96x256 .f32) : Ty F S256x96 .bf16 :=
  truncf .bf16 (transpose S256x96 [1, 0] a3 transposes_S96x256_S256x96_1_0) bitsLt_bf16_f32

/-- The bias as a row: `[1,96]`. -/
def biasRow (a4 : Ty F S96 .f32) : Ty F S1x96 .f32 := shapeCast S1x96 a4 shapeCasts_S96_S1x96

end Cert.KernelIdeal.KerTerm

end
-- ==== Proof.KerHost.lean ====
/-
  What the kernel program's host operations before its one region leave in the region's six input windows' arrays,
  as terms of the five argument arrays (the terms of KerTerm).

  The 207 operations come in seven stretches.  They are read stretch by stretch: `valK V0` is the device's buffer
  contents after the first K stretches from any contents `V0`; a buffer a stretch does not write keeps its contents
  through it (`valK_keep`), and for every buffer a later stretch or the region still reads, `valK_‹buffer›` gives its
  contents after stretch K as a term of `V0` at the argument buffers.  The buffers that cross from one stretch to a
  later one are the arguments (never written), the three divisors 2, 4, 8 (each written at the end of one stretch and
  read by the floor division that follows), the three floor-divided coordinate arrays, and the six results.
  Every equation is an unfolding: the fold of `HloOp.result` read at a literal buffer, then the definitions of KerTerm.
-/
import proofs.«109526_j73418170958019_2_alg».proof.Proof.Gen.KernelIdeal.Frame
import proofs.«109526_j73418170958019_2_alg».proof.Proof.KerTerm
import Idealize.ShloMosaic.Lib.StableHlo.Run

set_option maxRecDepth 16384

noncomputable section

namespace Cert.KernelIdeal.KerHost

open Cert.KernelIdeal Cert.KernelIdeal.Gen Idealize.ShloMosaic Idealize.ShloMosaic.TcCoe Idealize.SL.Sem Idealize.ShloMosaic.StableHlo

variable {F : FTy → Type} [FloatOps F]

/-! ## The seven stretches, one after the other -/

/-- The device's buffer contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after the first stretch (the scale of 4 cells and the divisor 2). -/
def val1 (V0 : Valuation τ sig (Elt F)) : Valuation τ sig (Elt F) := after hostOps0 (val0 V0)
/-- The buffers that stretch 1's operations write. -/
abbrev hostOps0_W : List (Ref sig .tc) := [main_cst, main_v0, main_v1, main_cst_0, main_v2, main_v3, main_v4, main_v5, main_v6, main_cst_1, main_v7, main_v8, main_v9, main_v10, main_v11, main_c, main_v12, main_v13, main_c_2, main_v14, main_v15, main_v16, main_v17, main_v18, main_c_3]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer that stretch 1 does not write keeps its contents through it. -/
theorem val1_keep (V0 : Valuation τ sig (Elt F)) (r : Ref sig .tc) (h : r ∉ hostOps0_W) :
    val1 V0 (Proc.devRef .tc r) = val0 V0 (Proc.devRef .tc r) :=
  after_of_writes_sub hostOps0 _ hostOps0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
attribute [local irreducible] Host.scatterAdd Host.gather Host.divsi Host.remsi Host.divf concatenate in
set_option maxHeartbeats 2000000 in
theorem val1_main_v18 (V0 : Valuation τ sig (Elt F)) : val1 V0 (no_index (Proc.devRef .tc main_v18)) = KerTerm.pooled4 (V0 (Proc.devRef .tc main_arg0)) (V0 (Proc.devRef .tc main_arg2)) := by
  unfold val1
  simp only [hostOps0]
  after_results_simp
  simp only [val0_main_arg2, val0_main_arg0] <;> rfl
attribute [local irreducible] Host.scatterAdd Host.gather Host.divsi Host.remsi Host.divf concatenate in
set_option maxHeartbeats 2000000 in
theorem val1_main_c_3 (V0 : Valuation τ sig (Elt F)) : val1 V0 (no_index (Proc.devRef .tc main_c_3)) = (constantI S_ 32 2#32 : KerTerm.Ty F S_ .i32) := by
  unfold val1
  simp only [hostOps0]
  after_results_simp
  all_goals rfl

/-- The device's buffer contents after the first 2 stretches (the coordinates floor-divided by 2). -/
def val2 (V0 : Valuation τ sig (Elt F)) : Valuation τ sig (Elt F) := after hostOps0_1 (val1 V0)
/-- The buffers that stretch 2's operations write. -/
abbrev hostOps0_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v19]
theorem hostOps0_1_writes : (hostOps0_1 : List (HloOp τ sig (Elt F))).Forall fun op => op.writes ⊆ (hostOps0_1_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer that stretch 2 does not write keeps its contents through it. -/
theorem val2_keep (V0 : Valuation τ sig (Elt F)) (r : Ref sig .tc) (h : r ∉ hostOps0_1_W) :
    val2 V0 (Proc.devRef .tc r) = val1 V0 (Proc.devRef .tc r) :=
  after_of_writes_sub hostOps0_1 _ hostOps0_1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_v18 (V0 : Valuation τ sig (Elt F)) : val2 V0 (no_index (Proc.devRef .tc main_v18)) = KerTerm.pooled4 (V0 (Proc.devRef .tc main_arg0)) (V0 (Proc.devRef .tc main_arg2)) :=
  (val2_keep V0 main_v18 (by decide)).trans (val1_main_v18 V0)
attribute [local irreducible] Host.scatterAdd Host.gather Host.divsi Host.remsi Host.divf concatenate in
set_option maxHeartbeats 1700000 in
theorem val2_main_v19 (V0 : Valuation τ sig (Elt F)) : val2 V0 (no_index (Proc.devRef .tc main_v19)) = KerTerm.floorDiv (constantI S_ 32 2#32) (V0 (Proc.devRef .tc main_arg1)) := by
  unfold val2
  simp only [hostOps0_1]
  after_results_simp
  simp only [val1_main_c_3, val1_main_arg1] <;> rfl

/-- The device's buffer contents after the first 3 stretches (the scale of 1048576 cells and the divisor 4). -/
def val3 (V0 : Valuation τ sig (Elt F)) : Valuation τ sig (Elt F) := after hostOps0_2 (val2 V0)
/-- The buffers that stretch 3's operations write. -/
abbrev hostOps0_2_W : List (Ref sig .tc) := [main_c_4, main_v20, main_v21, main_v22, main_v23, main_v24, main_c_5, main_v25, main_v26, main_v27, main_v28, main_v29, main_c_6, main_v30, main_v31, main_v32, main_v33, main_v34, main_cst_7, main_v35, main_v36, main_cst_8, main_v37, main_v38, main_v39, main_v40, main_v41, main_cst_9, main_v42, main_v43, main_v44, main_v45, main_v46, main_c_10, main_v47, main_v48, main_c_11, main_v49, main_v50, main_v51, main_v52, main_v53, main_c_12]
theorem hostOps0_2_writes : (hostOps0_2 : List (HloOp τ sig (Elt F))).Forall fun op => op.writes ⊆ (hostOps0_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer that stretch 3 does not write keeps its contents through it. -/
theorem val3_keep (V0 : Valuation τ sig (Elt F)) (r : Ref sig .tc) (h : r ∉ hostOps0_2_W) :
    val3 V0 (Proc.devRef .tc r) = val2 V0 (Proc.devRef .tc r) :=
  after_of_writes_sub hostOps0_2 _ hostOps0_2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_v18 (V0 : Valuation τ sig (Elt F)) : val3 V0 (no_index (Proc.devRef .tc main_v18)) = KerTerm.pooled4 (V0 (Proc.devRef .tc main_arg0)) (V0 (Proc.devRef .tc main_arg2)) :=
  (val3_keep V0 main_v18 (by decide)).trans (val2_main_v18 V0)
attribute [local irreducible] Host.scatterAdd Host.gather Host.divsi Host.remsi Host.divf concatenate in
set_option maxHeartbeats 2000000 in
theorem val3_main_v53 (V0 : Valuation τ sig (Elt F)) : val3 V0 (no_index (Proc.devRef .tc main_v53)) = KerTerm.pooled1048576 (V0 (Proc.devRef .tc main_arg0)) (KerTerm.cells2 (V0 (Proc.devRef .tc main_arg1)) (V0 (Proc.devRef .tc main_arg2))) := by
  unfold val3
  simp only [hostOps0_2]
  after_results_simp
  simp only [val2_main_v19, val2_main_arg2, val2_main_arg0] <;> rfl
attribute [local irreducible] Host.scatterAdd Host.gather Host.divsi Host.remsi Host.divf concatenate in
set_option maxHeartbeats 2000000 in
theorem val3_main_c_12 (V0 : Valuation τ sig (Elt F)) : val3 V0 (no_index (Proc.devRef .tc main_c_12)) = (constantI S_ 32 4#32 : KerTerm.Ty F S_ .i32) := by
  unfold val3
  simp only [hostOps0_2]
  after_results_simp
  all_goals rfl

/-- The device's buffer contents after the first 4 stretches (the coordinates floor-divided by 4). -/
def val4 (V0 : Valuation τ sig (Elt F)) : Valuation τ sig (Elt F) := after hostOps0_3 (val3 V0)
/-- The buffers that stretch 4's operations write. -/
abbrev hostOps0_3_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v54]
theorem hostOps0_3_writes : (hostOps0_3 : List (HloOp τ sig (Elt F))).Forall fun op => op.writes ⊆ (hostOps0_3_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer that stretch 4 does not write keeps its contents through it. -/
theorem val4_keep (V0 : Valuation τ sig (Elt F)) (r : Ref sig .tc) (h : r ∉ hostOps0_3_W) :
    val4 V0 (Proc.devRef .tc r) = val3 V0 (Proc.devRef .tc r) :=
  after_of_writes_sub hostOps0_3 _ hostOps0_3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v18 (V0 : Valuation τ sig (Elt F)) : val4 V0 (no_index (Proc.devRef .tc main_v18)) = KerTerm.pooled4 (V0 (Proc.devRef .tc main_arg0)) (V0 (Proc.devRef .tc main_arg2)) :=
  (val4_keep V0 main_v18 (by decide)).trans (val3_main_v18 V0)
theorem val4_main_v53 (V0 : Valuation τ sig (Elt F)) : val4 V0 (no_index (Proc.devRef .tc main_v53)) = KerTerm.pooled1048576 (V0 (Proc.devRef .tc main_arg0)) (KerTerm.cells2 (V0 (Proc.devRef .tc main_arg1)) (V0 (Proc.devRef .tc main_arg2))) :=
  (val4_keep V0 main_v53 (by decide)).trans (val3_main_v53 V0)
attribute [local irreducible] Host.scatterAdd Host.gather Host.divsi Host.remsi Host.divf concatenate in
set_option maxHeartbeats 1700000 in
theorem val4_main_v54 (V0 : Valuation τ sig (Elt F)) : val4 V0 (no_index (Proc.devRef .tc main_v54)) = KerTerm.floorDiv (constantI S_ 32 4#32) (V0 (Proc.devRef .tc main_arg1)) := by
  unfold val4
  simp only [hostOps0_3]
  after_results_simp
  simp only [val3_main_c_12, val3_main_arg1] <;> rfl

/-- The device's buffer contents after the first 5 stretches (the scale of 131072 cells and the divisor 8). -/
def val5 (V0 : Valuation τ sig (Elt F)) : Valuation τ sig (Elt F) := after hostOps0_4 (val4 V0)
/-- The buffers that stretch 5's operations write. -/
abbrev hostOps0_4_W : List (Ref sig .tc) := [main_c_13, main_v55, main_v56, main_v57, main_v58, main_v59, main_c_14, main_v60, main_v61, main_v62, main_v63, main_v64, main_c_15, main_v65, main_v66, main_v67, main_v68, main_v69, main_cst_16, main_v70, main_v71, main_cst_17, main_v72, main_v73, main_v74, main_v75, main_v76, main_cst_18, main_v77, main_v78, main_v79, main_v80, main_v81, main_c_19, main_v82, main_v83, main_c_20, main_v84, main_v85, main_v86, main_v87, main_v88, main_c_21]
theorem hostOps0_4_writes : (hostOps0_4 : List (HloOp τ sig (Elt F))).Forall fun op => op.writes ⊆ (hostOps0_4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer that stretch 5 does not write keeps its contents through it. -/
theorem val5_keep (V0 : Valuation τ sig (Elt F)) (r : Ref sig .tc) (h : r ∉ hostOps0_4_W) :
    val5 V0 (Proc.devRef .tc r) = val4 V0 (Proc.devRef .tc r) :=
  after_of_writes_sub hostOps0_4 _ hostOps0_4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_v18 (V0 : Valuation τ sig (Elt F)) : val5 V0 (no_index (Proc.devRef .tc main_v18)) = KerTerm.pooled4 (V0 (Proc.devRef .tc main_arg0)) (V0 (Proc.devRef .tc main_arg2)) :=
  (val5_keep V0 main_v18 (by decide)).trans (val4_main_v18 V0)
theorem val5_main_v53 (V0 : Valuation τ sig (Elt F)) : val5 V0 (no_index (Proc.devRef .tc main_v53)) = KerTerm.pooled1048576 (V0 (Proc.devRef .tc main_arg0)) (KerTerm.cells2 (V0 (Proc.devRef .tc main_arg1)) (V0 (Proc.devRef .tc main_arg2))) :=
  (val5_keep V0 main_v53 (by decide)).trans (val4_main_v53 V0)
attribute [local irreducible] Host.scatterAdd Host.gather Host.divsi Host.remsi Host.divf concatenate in
set_option maxHeartbeats 2000000 in
theorem val5_main_v88 (V0 : Valuation τ sig (Elt F)) : val5 V0 (no_index (Proc.devRef .tc main_v88)) = KerTerm.pooled131072 (V0 (Proc.devRef .tc main_arg0)) (KerTerm.cells4 (V0 (Proc.devRef .tc main_arg1)) (V0 (Proc.devRef .tc main_arg2))) := by
  unfold val5
  simp only [hostOps0_4]
  after_results_simp
  simp only [val4_main_v54, val4_main_arg2, val4_main_arg0] <;> rfl
attribute [local irreducible] Host.scatterAdd Host.gather Host.divsi Host.remsi Host.divf concatenate in
set_option maxHeartbeats 2000000 in
theorem val5_main_c_21 (V0 : Valuation τ sig (Elt F)) : val5 V0 (no_index (Proc.devRef .tc main_c_21)) = (constantI S_ 32 8#32 : KerTerm.Ty F S_ .i32) := by
  unfold val5
  simp only [hostOps0_4]
  after_results_simp
  all_goals rfl

/-- The device's buffer contents after the first 6 stretches (the coordinates floor-divided by 8). -/
def val6 (V0 : Valuation τ sig (Elt F)) : Valuation τ sig (Elt F) := after hostOps0_5 (val5 V0)
/-- The buffers that stretch 6's operations write. -/
abbrev hostOps0_5_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v89]
theorem hostOps0_5_writes : (hostOps0_5 : List (HloOp τ sig (Elt F))).Forall fun op => op.writes ⊆ (hostOps0_5_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer that stretch 6 does not write keeps its contents through it. -/
theorem val6_keep (V0 : Valuation τ sig (Elt F)) (r : Ref sig .tc) (h : r ∉ hostOps0_5_W) :
    val6 V0 (Proc.devRef .tc r) = val5 V0 (Proc.devRef .tc r) :=
  after_of_writes_sub hostOps0_5 _ hostOps0_5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_v18 (V0 : Valuation τ sig (Elt F)) : val6 V0 (no_index (Proc.devRef .tc main_v18)) = KerTerm.pooled4 (V0 (Proc.devRef .tc main_arg0)) (V0 (Proc.devRef .tc main_arg2)) :=
  (val6_keep V0 main_v18 (by decide)).trans (val5_main_v18 V0)
theorem val6_main_v53 (V0 : Valuation τ sig (Elt F)) : val6 V0 (no_index (Proc.devRef .tc main_v53)) = KerTerm.pooled1048576 (V0 (Proc.devRef .tc main_arg0)) (KerTerm.cells2 (V0 (Proc.devRef .tc main_arg1)) (V0 (Proc.devRef .tc main_arg2))) :=
  (val6_keep V0 main_v53 (by decide)).trans (val5_main_v53 V0)
theorem val6_main_v88 (V0 : Valuation τ sig (Elt F)) : val6 V0 (no_index (Proc.devRef .tc main_v88)) = KerTerm.pooled131072 (V0 (Proc.devRef .tc main_arg0)) (KerTerm.cells4 (V0 (Proc.devRef .tc main_arg1)) (V0 (Proc.devRef .tc main_arg2))) :=
  (val6_keep V0 main_v88 (by decide)).trans (val5_main_v88 V0)
attribute [local irreducible] Host.scatterAdd Host.gather Host.divsi Host.remsi Host.divf concatenate in
set_option maxHeartbeats 1700000 in
theorem val6_main_v89 (V0 : Valuation τ sig (Elt F)) : val6 V0 (no_index (Proc.devRef .tc main_v89)) = KerTerm.floorDiv (constantI S_ 32 8#32) (V0 (Proc.devRef .tc main_arg1)) := by
  unfold val6
  simp only [hostOps0_5]
  after_results_simp
  simp only [val5_main_c_21, val5_main_arg1] <;> rfl

/-- The device's buffer contents after the first 7 stretches (the scale of 16384 cells, the weight and the bias). -/
def val7 (V0 : Valuation τ sig (Elt F)) : Valuation τ sig (Elt F) := after hostOps0_6 (val6 V0)
/-- The buffers that stretch 7's operations write. -/
abbrev hostOps0_6_W : List (Ref sig .tc) := [main_c_22, main_v90, main_v91, main_v92, main_v93, main_v94, main_c_23, main_v95, main_v96, main_v97, main_v98, main_v99, main_c_24, main_v100, main_v101, main_v102, main_v103, main_v104, main_cst_25, main_v105, main_v106, main_cst_26, main_v107, main_v108, main_v109, main_v110, main_v111, main_cst_27, main_v112, main_v113, main_v114, main_v115, main_v116, main_c_28, main_v117, main_v118, main_c_29, main_v119, main_v120, main_v121, main_v122, main_v123, main_v124, main_v125, main_v126]
theorem hostOps0_6_writes : (hostOps0_6 : List (HloOp τ sig (Elt F))).Forall fun op => op.writes ⊆ (hostOps0_6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer that stretch 7 does not write keeps its contents through it. -/
theorem val7_keep (V0 : Valuation τ sig (Elt F)) (r : Ref sig .tc) (h : r ∉ hostOps0_6_W) :
    val7 V0 (Proc.devRef .tc r) = val6 V0 (Proc.devRef .tc r) :=
  after_of_writes_sub hostOps0_6 _ hostOps0_6_writes h
theorem val7_main_v18 (V0 : Valuation τ sig (Elt F)) : val7 V0 (no_index (Proc.devRef .tc main_v18)) = KerTerm.pooled4 (V0 (Proc.devRef .tc main_arg0)) (V0 (Proc.devRef .tc main_arg2)) :=
  (val7_keep V0 main_v18 (by decide)).trans (val6_main_v18 V0)
theorem val7_main_v53 (V0 : Valuation τ sig (Elt F)) : val7 V0 (no_index (Proc.devRef .tc main_v53)) = KerTerm.pooled1048576 (V0 (Proc.devRef .tc main_arg0)) (KerTerm.cells2 (V0 (Proc.devRef .tc main_arg1)) (V0 (Proc.devRef .tc main_arg2))) :=
  (val7_keep V0 main_v53 (by decide)).trans (val6_main_v53 V0)
theorem val7_main_v88 (V0 : Valuation τ sig (Elt F)) : val7 V0 (no_index (Proc.devRef .tc main_v88)) = KerTerm.pooled131072 (V0 (Proc.devRef .tc main_arg0)) (KerTerm.cells4 (V0 (Proc.devRef .tc main_arg1)) (V0 (Proc.devRef .tc main_arg2))) :=
  (val7_keep V0 main_v88 (by decide)).trans (val6_main_v88 V0)
attribute [local irreducible] Host.scatterAdd Host.gather Host.divsi Host.remsi Host.divf concatenate in
set_option maxHeartbeats 2000000 in
theorem val7_main_v123 (V0 : Valuation τ sig (Elt F)) : val7 V0 (no_index (Proc.devRef .tc main_v123)) = KerTerm.pooled16384 (V0 (Proc.devRef .tc main_arg0)) (KerTerm.cells8 (V0 (Proc.devRef .tc main_arg1)) (V0 (Proc.devRef .tc main_arg2))) := by
  unfold val7
  simp only [hostOps0_6]
  after_results_simp
  simp only [val6_main_v89, val6_main_arg2, val6_main_arg0] <;> rfl
attribute [local irreducible] Host.scatterAdd Host.gather Host.divsi Host.remsi Host.divf concatenate in
set_option maxHeartbeats 2000000 in
theorem val7_main_v125 (V0 : Valuation τ sig (Elt F)) : val7 V0 (no_index (Proc.devRef .tc main_v125)) = KerTerm.weights (V0 (Proc.devRef .tc main_arg3)) := by
  unfold val7
  simp only [hostOps0_6]
  after_results_simp
  simp only [val6_main_arg3] <;> rfl
attribute [local irreducible] Host.scatterAdd Host.gather Host.divsi Host.remsi Host.divf concatenate in
set_option maxHeartbeats 2000000 in
theorem val7_main_v126 (V0 : Valuation τ sig (Elt F)) : val7 V0 (no_index (Proc.devRef .tc main_v126)) = KerTerm.biasRow (V0 (Proc.devRef .tc main_arg4)) := by
  unfold val7
  simp only [hostOps0_6]
  after_results_simp
  simp only [val6_main_arg4] <;> rfl

/-! ## The region's arrays -/

variable (m : (ℓ : Loc nD τ sig) → Buf (Elt F) ℓ)

/-- Core `c`'s buffers when the region is entered are the seven stretches' contents from the launch contents: the
    fold over the seven lists appended is the folds one after the other. -/
theorem V_eq_val7 (c : Dev nD) (b : Ref sig .tc) : V m c b = val7 (fun b => m (c, b)) (Proc.devRef .tc b) := by
  unfold val7 val6 val5 val4 val3 val2 val1 val0
  simp only [← after_append]
  rfl

/-- Window 0's array: the scale of 4 cells, every point reading its batch's mean. -/
theorem V_v18 (c : Dev nD) : V m c main_v18 = KerTerm.pooled4 (m ((c : Thread nD τ).loc main_arg0)) (m ((c : Thread nD τ).loc main_arg2)) :=
  (V_eq_val7 m c main_v18).trans (val7_main_v18 _)
/-- Window 1's array: the scale of 1048576 cells. -/
theorem V_v53 (c : Dev nD) : V m c main_v53 = KerTerm.pooled1048576 (m ((c : Thread nD τ).loc main_arg0)) (KerTerm.cells2 (m ((c : Thread nD τ).loc main_arg1)) (m ((c : Thread nD τ).loc main_arg2))) :=
  (V_eq_val7 m c main_v53).trans (val7_main_v53 _)
/-- Window 2's array: the scale of 131072 cells. -/
theorem V_v88 (c : Dev nD) : V m c main_v88 = KerTerm.pooled131072 (m ((c : Thread nD τ).loc main_arg0)) (KerTerm.cells4 (m ((c : Thread nD τ).loc main_arg1)) (m ((c : Thread nD τ).loc main_arg2))) :=
  (V_eq_val7 m c main_v88).trans (val7_main_v88 _)
/-- Window 3's array: the scale of 16384 cells. -/
theorem V_v123 (c : Dev nD) : V m c main_v123 = KerTerm.pooled16384 (m ((c : Thread nD τ).loc main_arg0)) (KerTerm.cells8 (m ((c : Thread nD τ).loc main_arg1)) (m ((c : Thread nD τ).loc main_arg2))) :=
  (V_eq_val7 m c main_v123).trans (val7_main_v123 _)
/-- Window 4's array: the weight transposed and rounded to bf16. -/
theorem V_v125 (c : Dev nD) : V m c main_v125 = KerTerm.weights (m ((c : Thread nD τ).loc main_arg3)) :=
  (V_eq_val7 m c main_v125).trans (val7_main_v125 _)
/-- Window 5's array: the bias as a row. -/
theorem V_v126 (c : Dev nD) : V m c main_v126 = KerTerm.biasRow (m ((c : Thread nD τ).loc main_arg4)) :=
  (V_eq_val7 m c main_v126).trans (val7_main_v126 _)

end Cert.KernelIdeal.KerHost

end
-- ==== Proof.KerPayload.lean ====
/-
  The kernel body's arithmetic, read at one entry of its result.

  The body multiplies each of four [8192,64] blocks by its own [64,96] block of weights, each product accumulated
  from zero, adds the four products in order and then adds the [1,96] bias row laid along every row.  At entry (p, q)
  that is: the four sums over k of row p of a block against column q of its weights, added in order, plus the bias
  row's entry q.  At the ideal values nothing is rounded, so this is an equation of extended reals.
-/
import proofs.«109526_j73418170958019_2_alg».proof.Proof.Gen.KernelIdeal.Value
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.ValueIdx

/-- One product of an [8192,64] block with a [64,96] block into the zero accumulator, read at an entry: row `p` of the
    first against column `q` of the second. -/
theorem matmul_block_apply (x : FVec Ideal S8192x64 .bf16) (w : FVec Ideal S64x96 .bf16) (p : Fin 8192) (q : Fin 96) :
    matmul dot_S8192x64_S64x96_S8192x96_1_0_0_1_n_n none x w (constant (F := Ideal) S8192x96 .f32 0x00000000#32) (ix2 p q)
      = ∑ k : Fin 64, x (ix2 p k) * w (ix2 k q) := by
  show FloatOps.matmul dot_S8192x64_S64x96_S8192x96_1_0_0_1_n_n none x w _ (ix2 p q) = _
  rw [Ideal.matmul_constant_zero_apply,
    ← Equiv.sum_comp (contrEquiv1 dot_S8192x64_S64x96_S8192x96_1_0_0_1_n_n 64 rfl rfl).symm]
  refine Finset.sum_congr rfl fun c _ => ?_
  have c2 := contrEquiv1_symm_val dot_S8192x64_S64x96_S8192x96_1_0_0_1_n_n 64 rfl rfl c
  have l2 : dot_S8192x64_S64x96_S8192x96_1_0_0_1_n_n.lhsIdx (ix2 p q)
      ((contrEquiv1 dot_S8192x64_S64x96_S8192x96_1_0_0_1_n_n 64 rfl rfl).symm c) = ix2 p c := by
    funext ax; apply Fin.ext
    match ax with
    | ⟨0, _⟩ => simp [DotDims.lhsIdx, dot_S8192x64_S64x96_S8192x96_1_0_0_1_n_n]; rfl
    | ⟨1, _⟩ => simp [DotDims.lhsIdx, dot_S8192x64_S64x96_S8192x96_1_0_0_1_n_n]; exact c2
  have r2 : dot_S8192x64_S64x96_S8192x96_1_0_0_1_n_n.rhsIdx (ix2 p q)
      ((contrEquiv1 dot_S8192x64_S64x96_S8192x96_1_0_0_1_n_n 64 rfl rfl).symm c) = ix2 c q := by
    funext ax; apply Fin.ext
    match ax with
    | ⟨0, _⟩ => simp [DotDims.rhsIdx, dot_S8192x64_S64x96_S8192x96_1_0_0_1_n_n]; exact c2
    | ⟨1, _⟩ => simp [DotDims.rhsIdx, dot_S8192x64_S64x96_S8192x96_1_0_0_1_n_n]; rfl
  rw [l2, r2]

/-- The body's arithmetic at an entry of its [8192,96] result: the four products' entries added in order, then the bias
    row's entry of that column. -/
theorem pay_apply (x0 x1 x2 x3 : Vec Ideal S8192x64 .bf16) (w0 w1 w2 w3 : Vec Ideal S64x96 .bf16)
    (bb : Vec Ideal S1x96 .f32) (p : Fin 8192) (q : Fin 96) :
    k0_pay1 (F := Ideal) x0 w0 x1 w1 x2 w2 x3 w3 bb (ix2 p q)
      = ((((∑ k : Fin 64, x0 (ix2 p k) * w0 (ix2 k q)) + ∑ k : Fin 64, x1 (ix2 p k) * w1 (ix2 k q))
          + ∑ k : Fin 64, x2 (ix2 p k) * w2 (ix2 k q)) + ∑ k : Fin 64, x3 (ix2 p k) * w3 (ix2 k q))
        + bb (ix2 (0 : Fin 1) q) := by
  unfold k0_pay1
  simp only [shapeCast_self]
  show ((((matmul dot_S8192x64_S64x96_S8192x96_1_0_0_1_n_n none x0 w0 (constant (F := Ideal) S8192x96 .f32 0x00000000#32) (ix2 p q)
        + matmul dot_S8192x64_S64x96_S8192x96_1_0_0_1_n_n none x1 w1 (constant (F := Ideal) S8192x96 .f32 0x00000000#32) (ix2 p q))
        + matmul dot_S8192x64_S64x96_S8192x96_1_0_0_1_n_n none x2 w2 (constant (F := Ideal) S8192x96 .f32 0x00000000#32) (ix2 p q))
        + matmul dot_S8192x64_S64x96_S8192x96_1_0_0_1_n_n none x3 w3 (constant (F := Ideal) S8192x96 .f32 0x00000000#32) (ix2 p q))
        + broadcastTo S8192x96 bb broadcasts_S1x96_S8192x96 (ix2 p q)) = _
  rw [matmul_block_apply, matmul_block_apply, matmul_block_apply, matmul_block_apply, broadcastTo_1b_ab_apply]

end Cert.KernelIdeal.KerValue

end
-- ==== Proof.LinearSpec.lean ====
/-
  The linear layer as ONE function, index by index, of the four pooled arrays, the transposed weight and the bias row.

  Row `n` of the result, column `o`, is the sum over the four pooled arrays `g₀ … g₃` (each [N,64]) of the products of
  row `n` of `g_v` with rows `64·v … 64·v + 63` of the weight table `wt` ([256,96]) at column `o`, plus the bias row
  at `o`.  The four partial sums are added in order, the bias last.
-/
import Idealize.ShloMosaic.PureOps.Ideal
import Idealize.ShloMosaic.Lib.ValueIdx

noncomputable section

namespace Cert.LinearSpec

open Idealize.ShloMosaic Idealize.ShloMosaic.ValueIdx

/-- One pooled array's share of entry `(n, o)`: its row `n` against rows `64·v … 64·v + 63` of the weight table,
    column `o`. -/
def band (v : Fin 4) (g : (⟨2, ![1048576, 64]⟩ : Shape).Idx → EReal) (wt : (⟨2, ![256, 96]⟩ : Shape).Idx → EReal)
    (n : Fin 1048576) (o : Fin 96) : EReal :=
  ∑ k : Fin 64, g (ix2 n k) * wt (ix2 (⟨64 * v.val + k.val, by omega⟩ : Fin 256) o)

/-- The linear layer's result: the four shares added in order, then the bias. -/
def linearOf (g0 g1 g2 g3 : (⟨2, ![1048576, 64]⟩ : Shape).Idx → EReal) (wt : (⟨2, ![256, 96]⟩ : Shape).Idx → EReal)
    (b2 : (⟨2, ![1, 96]⟩ : Shape).Idx → EReal) : (⟨2, ![1048576, 96]⟩ : Shape).Idx → EReal :=
  fun i => (((band 0 g0 wt (i 0) (i 1) + band 1 g1 wt (i 0) (i 1)) + band 2 g2 wt (i 0) (i 1))
    + band 3 g3 wt (i 0) (i 1)) + b2 (ix2 (0 : Fin 1) (i 1))

end Cert.LinearSpec

end
-- ==== Proof.KerRegion.lean ====
/-
  From the blocks the grid points write back to the whole output array.

  The region runs the body at 128 grid points.  At point `t` the four pooled arrays' windows and the output's window
  sit at rows `8192·t … 8192·t + 8191` of their arrays; the weight table's and the bias row's windows are the whole
  table and the whole row at every point.  The body loads the four input blocks whole and the weight block as four bands
  of 64 rows, so what it leaves at entry (p, q) of its output block is the linear layer's entry (8192·t + p, q) of the
  six arrays.  Every row `r` of the output lies in the block of point `r / 8192`, so the output array after the region is
  the linear layer of the six arrays, entry by entry.
-/
import proofs.«109526_j73418170958019_2_alg».proof.Proof.KerPayload
import proofs.«109526_j73418170958019_2_alg».proof.Proof.LinearSpec
import Idealize.ShloMosaic.Lib.Pipeline.Value
import Idealize.ShloMosaic.Lib.ValueIdx
import Idealize.ShloMosaic.Lib.ValueLayout

noncomputable section

namespace Cert.KernelIdeal.KerValue

open Cert.KernelIdeal Cert.KernelIdeal.Gen Idealize.ShloMosaic Idealize.ShloMosaic.TcCoe Idealize.SL.Sem
open Idealize.ShloMosaic.ValueIdx Cert.LinearSpec
open Idealize.ShloMosaic.Pipeline (Dat)

theorem zeros2 : (![0, 0] : Fin 2 → Nat) = fun _ => 0 := funext fun a => by fin_cases a <;> rfl

/-- Rows `64·v … 64·v + 63` of the [256,96] weight block, as the body loads them: entry (k, q) of the loaded
    [64,96] block is entry (64·v + k, q) of the weight block. -/
theorem ld_w0 (x4 : Vec Ideal S256x96 .bf16) (k : Fin 64) (q : Fin 96) :
    View.ld x4 r0_1 (ix2 k q) = x4 (ix2 (⟨64 * (0 : Fin 4).val + k.val, by omega⟩ : Fin 256) q) := by
  show x4 _ = x4 _
  refine congrArg x4 (funext fun a => Fin.ext ?_)
  match a with
  | ⟨0, _⟩ => show 0 + 1 * k.val = 64 * 0 + k.val; omega
  | ⟨1, _⟩ => show 0 + 1 * q.val = q.val; omega
theorem ld_w1 (x4 : Vec Ideal S256x96 .bf16) (k : Fin 64) (q : Fin 96) :
    View.ld x4 r0_2 (ix2 k q) = x4 (ix2 (⟨64 * (1 : Fin 4).val + k.val, by omega⟩ : Fin 256) q) := by
  show x4 _ = x4 _
  refine congrArg x4 (funext fun a => Fin.ext ?_)
  match a with
  | ⟨0, _⟩ => show 64 + 1 * k.val = 64 * 1 + k.val; omega
  | ⟨1, _⟩ => show 0 + 1 * q.val = q.val; omega
theorem ld_w2 (x4 : Vec Ideal S256x96 .bf16) (k : Fin 64) (q : Fin 96) :
    View.ld x4 r0_3 (ix2 k q) = x4 (ix2 (⟨64 * (2 : Fin 4).val + k.val, by omega⟩ : Fin 256) q) := by
  show x4 _ = x4 _
  refine congrArg x4 (funext fun a => Fin.ext ?_)
  match a with
  | ⟨0, _⟩ => show 128 + 1 * k.val = 64 * 2 + k.val; omega
  | ⟨1, _⟩ => show 0 + 1 * q.val = q.val; omega
theorem ld_w3 (x4 : Vec Ideal S256x96 .bf16) (k : Fin 64) (q : Fin 96) :
    View.ld x4 r0_4 (ix2 k q) = x4 (ix2 (⟨64 * (3 : Fin 4).val + k.val, by omega⟩ : Fin 256) q) := by
  show x4 _ = x4 _
  refine congrArg x4 (funext fun a => Fin.ext ?_)
  match a with
  | ⟨0, _⟩ => show 192 + 1 * k.val = 64 * 3 + k.val; omega
  | ⟨1, _⟩ => show 0 + 1 * q.val = q.val; omega

/-- What the body leaves in the output block, at entry (p, q), when its four input blocks hold row `n` of four arrays
    at their row `p`, its weight block the weight table and its bias block the bias row: the linear layer's entry (n, q). -/
theorem out_eq (x0 x1 x2 x3 : Vec Ideal S8192x64 .bf16) (x4 : Vec Ideal S256x96 .bf16) (x5 : Vec Ideal S1x96 .f32)
    (g0 g1 g2 g3 : S1048576x64.Idx → EReal) (wt : S256x96.Idx → EReal) (b2 : S1x96.Idx → EReal)
    (n : Fin 1048576) (p : Fin 8192) (q : Fin 96)
    (h0 : ∀ k : Fin 64, x0 (ix2 p k) = g0 (ix2 n k)) (h1 : ∀ k : Fin 64, x1 (ix2 p k) = g1 (ix2 n k))
    (h2 : ∀ k : Fin 64, x2 (ix2 p k) = g2 (ix2 n k)) (h3 : ∀ k : Fin 64, x3 (ix2 p k) = g3 (ix2 n k))
    (h4 : x4 = wt) (h5 : x5 = b2) :
    out0_6 (F := Ideal) x0 x1 x2 x3 x4 x5 (ix2 p q) = linearOf g0 g1 g2 g3 wt b2 (ix2 n q) := by
  subst h4 h5
  unfold out0_6
  rw [View.canon_unit_zero zeros2]
  simp only [View.ld_unit_zero (S := S8192x64) zeros2, View.ld_unit_zero (S := S1x96) zeros2]
  refine (pay_apply _ _ _ _ _ _ _ _ _ p q).trans ?_
  show _ = (((band 0 g0 x4 n q + band 1 g1 x4 n q) + band 2 g2 x4 n q) + band 3 g3 x4 n q) + x5 (ix2 (0 : Fin 1) q)
  unfold band
  simp only [h0, h1, h2, h3]
  refine congrArg₂ (· + ·) (congrArg₂ (· + ·) (congrArg₂ (· + ·) (congrArg₂ (· + ·) ?_ ?_) ?_) ?_) rfl
  · exact Finset.sum_congr rfl fun k _ => congrArg _ (ld_w0 x4 k q)
  · exact Finset.sum_congr rfl fun k _ => congrArg _ (ld_w1 x4 k q)
  · exact Finset.sum_congr rfl fun k _ => congrArg _ (ld_w2 x4 k q)
  · exact Finset.sum_congr rfl fun k _ => congrArg _ (ld_w3 x4 k q)

variable (m : (ℓ : Loc nD τ sig) → Buf (Elt Ideal) ℓ)

/-- The printed index maps, decided over the grid: at point `t` each of the four pooled arrays' windows and the
    output's window sit at block row `t`, block column 0; the weight table's and the bias row's at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Any [1048576,64] array read through window 0's block at point `t`: rows `8192·t … 8192·t + 8191`. -/
theorem blk0_read (A : S1048576x64.Idx → EReal) (t : Fin cfg0.N) (p : Fin 8192) (k : Fin 64) (n : Fin 1048576)
    (hn : n.val = 8192 * t.val + p.val) :
    ((cfg0.win 0).blk t).view.read (Elt Ideal) A (ix2 p k) = A (ix2 n k) := by
  obtain ⟨e00, e01, e10, e11, e20, e21, e30, e31, -⟩ := idx_facts t
  show A (((cfg0.win 0).blk t).view.emb (ix2 p k)) = A (ix2 n k)
  refine congrArg A (funext fun a => Fin.ext ?_)
  match a with
  | ⟨0, _⟩ => show win0_0.index t (0 : Fin 2) * 8192 + 1 * p.val = n.val; rw [e00, hn]; omega
  | ⟨1, _⟩ => show win0_0.index t (1 : Fin 2) * 64 + 1 * k.val = k.val; rw [e01]; omega

/-- So window 0's block at point `t`, as the region finds its array, holds those rows of it. -/
theorem iblk0_apply (c : Dev nD) (t : Fin cfg0.N) (p : Fin 8192) (k : Fin 64) (n : Fin 1048576)
    (hn : n.val = 8192 * t.val + p.val) :
    (iblk m c 0 t : Vec Ideal S8192x64 .bf16) (ix2 p k) = (V m c main_v18 : S1048576x64.Idx → EReal) (ix2 n k) :=
  blk0_read (V m c main_v18) t p k n hn

/-- Any [1048576,64] array read through window 1's block at point `t`: rows `8192·t … 8192·t + 8191`. -/
theorem blk1_read (A : S1048576x64.Idx → EReal) (t : Fin cfg0.N) (p : Fin 8192) (k : Fin 64) (n : Fin 1048576)
    (hn : n.val = 8192 * t.val + p.val) :
    ((cfg0.win 1).blk t).view.read (Elt Ideal) A (ix2 p k) = A (ix2 n k) := by
  obtain ⟨e00, e01, e10, e11, e20, e21, e30, e31, -⟩ := idx_facts t
  show A (((cfg0.win 1).blk t).view.emb (ix2 p k)) = A (ix2 n k)
  refine congrArg A (funext fun a => Fin.ext ?_)
  match a with
  | ⟨0, _⟩ => show win0_1.index t (0 : Fin 2) * 8192 + 1 * p.val = n.val; rw [e10, hn]; omega
  | ⟨1, _⟩ => show win0_1.index t (1 : Fin 2) * 64 + 1 * k.val = k.val; rw [e11]; omega

/-- So window 1's block at point `t`, as the region finds its array, holds those rows of it. -/
theorem iblk1_apply (c : Dev nD) (t : Fin cfg0.N) (p : Fin 8192) (k : Fin 64) (n : Fin 1048576)
    (hn : n.val = 8192 * t.val + p.val) :
    (iblk m c 1 t : Vec Ideal S8192x64 .bf16) (ix2 p k) = (V m c main_v53 : S1048576x64.Idx → EReal) (ix2 n k) :=
  blk1_read (V m c main_v53) t p k n hn

/-- Any [1048576,64] array read through window 2's block at point `t`: rows `8192·t … 8192·t + 8191`. -/
theorem blk2_read (A : S1048576x64.Idx → EReal) (t : Fin cfg0.N) (p : Fin 8192) (k : Fin 64) (n : Fin 1048576)
    (hn : n.val = 8192 * t.val + p.val) :
    ((cfg0.win 2).blk t).view.read (Elt Ideal) A (ix2 p k) = A (ix2 n k) := by
  obtain ⟨e00, e01, e10, e11, e20, e21, e30, e31, -⟩ := idx_facts t
  show A (((cfg0.win 2).blk t).view.emb (ix2 p k)) = A (ix2 n k)
  refine congrArg A (funext fun a => Fin.ext ?_)
  match a with
  | ⟨0, _⟩ => show win0_2.index t (0 : Fin 2) * 8192 + 1 * p.val = n.val; rw [e20, hn]; omega
  | ⟨1, _⟩ => show win0_2.index t (1 : Fin 2) * 64 + 1 * k.val = k.val; rw [e21]; omega

/-- So window 2's block at point `t`, as the region finds its array, holds those rows of it. -/
theorem iblk2_apply (c : Dev nD) (t : Fin cfg0.N) (p : Fin 8192) (k : Fin 64) (n : Fin 1048576)
    (hn : n.val = 8192 * t.val + p.val) :
    (iblk m c 2 t : Vec Ideal S8192x64 .bf16) (ix2 p k) = (V m c main_v88 : S1048576x64.Idx → EReal) (ix2 n k) :=
  blk2_read (V m c main_v88) t p k n hn

/-- Any [1048576,64] array read through window 3's block at point `t`: rows `8192·t … 8192·t + 8191`. -/
theorem blk3_read (A : S1048576x64.Idx → EReal) (t : Fin cfg0.N) (p : Fin 8192) (k : Fin 64) (n : Fin 1048576)
    (hn : n.val = 8192 * t.val + p.val) :
    ((cfg0.win 3).blk t).view.read (Elt Ideal) A (ix2 p k) = A (ix2 n k) := by
  obtain ⟨e00, e01, e10, e11, e20, e21, e30, e31, -⟩ := idx_facts t
  show A (((cfg0.win 3).blk t).view.emb (ix2 p k)) = A (ix2 n k)
  refine congrArg A (funext fun a => Fin.ext ?_)
  match a with
  | ⟨0, _⟩ => show win0_3.index t (0 : Fin 2) * 8192 + 1 * p.val = n.val; rw [e30, hn]; omega
  | ⟨1, _⟩ => show win0_3.index t (1 : Fin 2) * 64 + 1 * k.val = k.val; rw [e31]; omega

/-- So window 3's block at point `t`, as the region finds its array, holds those rows of it. -/
theorem iblk3_apply (c : Dev nD) (t : Fin cfg0.N) (p : Fin 8192) (k : Fin 64) (n : Fin 1048576)
    (hn : n.val = 8192 * t.val + p.val) :
    (iblk m c 3 t : Vec Ideal S8192x64 .bf16) (ix2 p k) = (V m c main_v123 : S1048576x64.Idx → EReal) (ix2 n k) :=
  blk3_read (V m c main_v123) t p k n hn

/-- The weight table's window is the whole table at every point. -/
theorem blk4_read (A : S256x96.Idx → EReal) (t : Fin cfg0.N) : ((cfg0.win 4).blk t).view.read (Elt Ideal) A = A := by
  obtain ⟨-, -, -, -, -, -, -, -, e40, e41, -⟩ := idx_facts t
  funext y
  show A (((cfg0.win 4).blk t).view.emb y) = A y
  refine congrArg A (funext fun a => Fin.ext ?_)
  match a with
  | ⟨0, _⟩ => show win0_4.index t (0 : Fin 2) * 256 + 1 * (y 0).val = (y 0).val; rw [e40]; omega
  | ⟨1, _⟩ => show win0_4.index t (1 : Fin 2) * 96 + 1 * (y 1).val = (y 1).val; rw [e41]; omega

theorem iblk4_eq (c : Dev nD) (t : Fin cfg0.N) :
    (iblk m c 4 t : Vec Ideal S256x96 .bf16) = (V m c main_v125 : S256x96.Idx → EReal) :=
  blk4_read (V m c main_v125) t

/-- The bias row's window is the whole row at every point. -/
theorem blk5_read (A : S1x96.Idx → EReal) (t : Fin cfg0.N) : ((cfg0.win 5).blk t).view.read (Elt Ideal) A = A := by
  obtain ⟨-, -, -, -, -, -, -, -, -, -, e50, e51, -⟩ := idx_facts t
  funext y
  show A (((cfg0.win 5).blk t).view.emb y) = A y
  refine congrArg A (funext fun a => Fin.ext ?_)
  match a with
  | ⟨0, _⟩ => show win0_5.index t (0 : Fin 2) * 1 + 1 * (y 0).val = (y 0).val; rw [e50]; omega
  | ⟨1, _⟩ => show win0_5.index t (1 : Fin 2) * 96 + 1 * (y 1).val = (y 1).val; rw [e51]; omega

theorem iblk5_eq (c : Dev nD) (t : Fin cfg0.N) :
    (iblk m c 5 t : Vec Ideal S1x96 .f32) = (V m c main_v126 : S1x96.Idx → EReal) :=
  blk5_read (V m c main_v126) t

/-- Any [1048576,96] array read through the output window's block at point `t`: rows `8192·t … 8192·t + 8191`. -/
theorem blk6_read (G : S1048576x96.Idx → EReal) (t : Fin cfg0.N) (p : Fin 8192) (q : Fin 96) (n : Fin 1048576)
    (hn : n.val = 8192 * t.val + p.val) :
    ((cfg0.win 6).blk t).view.read (Elt Ideal) G (ix2 p q) = G (ix2 n q) := by
  obtain ⟨-, -, -, -, -, -, -, -, -, -, -, -, e60, e61⟩ := idx_facts t
  show G (((cfg0.win 6).blk t).view.emb (ix2 p q)) = G (ix2 n q)
  refine congrArg G (funext fun a => Fin.ext ?_)
  match a with
  | ⟨0, _⟩ => show win0_6.index t (0 : Fin 2) * 8192 + 1 * p.val = n.val; rw [e60, hn]; omega
  | ⟨1, _⟩ => show win0_6.index t (1 : Fin 2) * 96 + 1 * q.val = q.val; rw [e61]; omega

/-- The output window's block is never cut short: what is written back of a staging buffer's contents is all of it. -/
theorem cut6_apply (X : S8192x96.Idx → EReal) (t : Fin cfg0.N) (p : Fin 8192) (q : Fin 96) :
    (cfg0.win 6).cut (grid0.coords t) X (ix2 p q) = X (ix2 p q) := by
  show X _ = X _
  refine congrArg X (funext fun a => ?_)
  match a with
  | ⟨0, _⟩ => rfl
  | ⟨1, _⟩ => rfl

/-- The linear layer of the six arrays the region finds. -/
abbrev linearV (c : Dev nD) : S1048576x96.Idx → EReal :=
  linearOf (V m c main_v18) (V m c main_v53) (V m c main_v88) (V m c main_v123) (V m c main_v125) (V m c main_v126)

/-- What point `t` writes back is rows `8192·t … 8192·t + 8191` of the linear layer of the six arrays. -/
theorem flushed_eq (c : Dev nD) (t : Fin cfg0.N) :
    (dats (F := Ideal) m 0 c).flushed 6 t = ((cfg0.win 6).blk t).view.read (Elt Ideal) (linearV m c) := by
  refine (Cert.KernelIdeal.Value.flushed6 m c t).trans ?_
  have hN : t.val < 128 := lt_of_lt_of_eq t.isLt (show cfg0.N = 128 from N_0)
  funext j
  obtain ⟨p, q, rfl⟩ : ∃ (p : Fin 8192) (q : Fin 96), j = ix2 p q := ⟨j 0, j 1, eq_ix2 j⟩
  refine (cut6_apply _ t p q).trans ?_
  refine Eq.trans ?_ (blk6_read (linearV m c) t p q ⟨8192 * t.val + p.val, by omega⟩ rfl).symm
  exact out_eq (iblk m c 0 t) (iblk m c 1 t) (iblk m c 2 t) (iblk m c 3 t) (iblk m c 4 t) (iblk m c 5 t)
    (V m c main_v18) (V m c main_v53) (V m c main_v88) (V m c main_v123) (V m c main_v125) (V m c main_v126)
    ⟨8192 * t.val + p.val, by omega⟩ p q
    (fun k => iblk0_apply m c t p k _ rfl) (fun k => iblk1_apply m c t p k _ rfl)
    (fun k => iblk2_apply m c t p k _ rfl) (fun k => iblk3_apply m c t p k _ rfl)
    (iblk4_eq m c t) (iblk5_eq m c t)

/-- An index of the output array is in point `t`'s block iff each coordinate is in the block's range on its axis. -/
theorem mem_blk6 (t : Fin cfg0.N) (i : S1048576x96.Idx) :
    i ∈ ((cfg0.win 6).blk t).view.set ↔ ∀ a : Fin 2, win0_6.index t a * S8192x96.size a ≤ (i a).val
      ∧ (i a).val < win0_6.index t a * S8192x96.size a + S8192x96.size a := by
  show i ∈ ((View.whole main_v127).slice (win0_6.rect t)).set ↔ _
  rw [View.set_slice_whole, Rect.mem_set_unit]
  exact Iff.rfl

/-- Every entry of the output array is written back by some point: row `r` by point `r / 8192`. -/
theorem cover6 (i : S1048576x96.Idx) :
    ∃ t : Fin cfg0.N, (cfg0.win 6).flush t = true ∧ i ∈ ((cfg0.win 6).blk t).view.set := by
  have hi0 : (i 0).val < 1048576 := (i 0).isLt
  have hi1 : (i 1).val < 96 := (i 1).isLt
  have hlt : (i 0).val / 8192 < cfg0.N := by rw [show cfg0.N = 128 from N_0]; omega
  obtain ⟨-, -, -, -, -, -, -, -, -, -, -, -, e60, e61⟩ := idx_facts ⟨(i 0).val / 8192, hlt⟩
  refine ⟨⟨(i 0).val / 8192, hlt⟩, flush0_6 _, ?_⟩
  rw [mem_blk6]
  intro a
  match a with
  | ⟨0, _⟩ =>
    show win0_6.index ⟨(i 0).val / 8192, hlt⟩ (0 : Fin 2) * 8192 ≤ (i 0).val
      ∧ (i 0).val < win0_6.index ⟨(i 0).val / 8192, hlt⟩ (0 : Fin 2) * 8192 + 8192
    rw [e60]
    show (i 0).val / 8192 * 8192 ≤ (i 0).val ∧ (i 0).val < (i 0).val / 8192 * 8192 + 8192
    omega
  | ⟨1, _⟩ =>
    show win0_6.index ⟨(i 0).val / 8192, hlt⟩ (1 : Fin 2) * 96 ≤ (i 1).val
      ∧ (i 1).val < win0_6.index ⟨(i 0).val / 8192, hlt⟩ (1 : Fin 2) * 96 + 96
    rw [e61]
    omega

/-- The output array after the region: the linear layer of the six arrays the region finds, entry by entry. -/
theorem final6 (c : Dev nD) :
    (dats (F := Ideal) m 0 c).arrAt 6 cfg0.N
      = linearOf (V m c main_v18) (V m c main_v53) (V m c main_v88) (V m c main_v123) (V m c main_v125) (V m c main_v126) :=
  (dats (F := Ideal) m 0 c).arrAt_eq_of_cover 6 (linearV m c) (fun t _ => flushed_eq m c t) cover6

/-- info: 'Cert.KernelIdeal.KerValue.final6' depends on axioms: [propext, Classical.choice, Quot.sound] -/
#guard_msgs in #print axioms final6

end Cert.KernelIdeal.KerValue

end
-- ==== Proof.RefOps.lean ====
/-
  The reference's @main as a list of its host operations.

  @main is printed in three consecutive windows (`main_part0/1/2`) and calls the outlined function
  @floor_divide three times, which itself calls @_where.  A call of a module-local function is its body
  applied to the call's own buffers, so each call is written here as the body's seventeen operations over
  those buffers (sixteen of @floor_divide, then the select of @_where writing the call's result).  The 210
  operations are listed in thirteen consecutive segments that follow the program's own structure: one
  pooling scale, one call, or one run of cell-number arithmetic each.  `main_eq` states that @main is
  that straight line, `ops_sub` that every operation touches TensorCore references only, and the two
  scope facts that the signature scopes no TensorCore buffer and no semaphore.
-/
import proofs.«109526_j73418170958019_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, segment by segment -/

/-- Operations 1 … 25 of 210. Scale 0 (the 4 cells of the batch index): sums, counts, means, read back into `main_v17`; then the scalar 2. -/
abbrev seg0 : List (HloOp τ sig (Elt F)) :=
  [ StableHlo.nullary main_cst (constant S_ .f32 0x00000000#32),
    StableHlo.unary main_cst main_v0 (broadcastInDim S4x64 ![] bcast_S_S4x64 : (⟨S_, .f32⟩ : BufTy).Contents (Elt F) → (⟨S4x64, .f32⟩ : BufTy).Contents (Elt F)),
    StableHlo.unary main_arg2 main_v1 (broadcastInDim S1048576x1 ![0] bcast_S1048576_S1048576x1_0 : (⟨S1048576, .i32⟩ : BufTy).Contents (Elt F) → (⟨S1048576x1, .i32⟩ : BufTy).Contents (Elt F)),
    StableHlo.ternary main_v0 main_v1 main_arg0 main_v2 ((fun x i u => Host.scatterAdd scatter_S4x64_S1048576x1_S1048576x64_1_0_0_1 x i u) : (⟨S4x64, .f32⟩ : BufTy).Contents (Elt F) → (⟨S1048576x1, .i32⟩ : BufTy).Contents (Elt F) → (⟨S1048576x64, .f32⟩ : BufTy).Contents (Elt F) → (⟨S4x64, .f32⟩ : BufTy).Contents (Elt F)),
    StableHlo.nullary main_cst_0 (constant S_ .f32 0x3F800000#32),
    StableHlo.unary main_cst_0 main_v3 (broadcastInDim S1048576x1 ![] bcast_S_S1048576x1 : (⟨S_, .f32⟩ : BufTy).Contents (Elt F) → (⟨S1048576x1, .f32⟩ : BufTy).Contents (Elt F)),
    StableHlo.nullary main_cst_1 (constant S_ .f32 0x00000000#32),
    StableHlo.unary main_cst_1 main_v4 (broadcastInDim S4x1 ![] bcast_S_S4x1 : (⟨S_, .f32⟩ : BufTy).Contents (Elt F) → (⟨S4x1, .f32⟩ : BufTy).Contents (Elt F)),
    StableHlo.unary main_arg2 main_v5 (broadcastInDim S1048576x1 ![0] bcast_S1048576_S1048576x1_0 : (⟨S1048576, .i32⟩ : BufTy).Contents (Elt F) → (⟨S1048576x1, .i32⟩ : BufTy).Contents (Elt F)),
    StableHlo.ternary main_v4 main_v5 main_v3 main_v6 ((fun x i u => Host.scatterAdd scatter_S4x1_S1048576x1_S1048576x1_1_0_0_1 x i u) : (⟨S4x1, .f32⟩ : BufTy).Contents (Elt F) → (⟨S1048576x1, .i32⟩ : BufTy).Contents (Elt F) → (⟨S1048576x1, .f32⟩ : BufTy).Contents (Elt F) → (⟨S4x1, .f32⟩ : BufTy).Contents (Elt F)),
    StableHlo.nullary main_cst_2 (constant S_ .f32 0x3F800000#32),
    StableHlo.unary main_cst_2 main_v7 (broadcastInDim S4x1 ![] bcast_S_S4x1 : (⟨S_, .f32⟩ : BufTy).Contents (Elt F) → (⟨S4x1, .f32⟩ : BufTy).Contents (Elt F)),
    StableHlo.binary main_v6 main_v7 main_v8 (maximumf : (⟨S4x1, .f32⟩ : BufTy).Contents (Elt F) → (⟨S4x1, .f32⟩ : BufTy).Contents (Elt F) → (⟨S4x1, .f32⟩ : BufTy).Contents (Elt F)),
    StableHlo.unary main_v8 main_v9 (broadcastInDim S4x64 ![0, 1] bcast_S4x1_S4x64_0_1 : (⟨S4x1, .f32⟩ : BufTy).Contents (Elt F) → (⟨S4x64, .f32⟩ : BufTy).Contents (Elt F)),
    StableHlo.binary main_v2 main_v9 main_v10 (Host.divf : (⟨S4x64, .f32⟩ : BufTy).Contents (Elt F) → (⟨S4x64, .f32⟩ : BufTy).Contents (Elt F) → (⟨S4x64, .f32⟩ : BufTy).Contents (Elt F)),
    StableHlo.nullary main_c (constantI S_ 32 0#32),
    StableHlo.unary main_c main_v11 (broadcastInDim S1048576 ![] bcast_S_S1048576 : (⟨S_, .i32⟩ : BufTy).Contents (Elt F) → (⟨S1048576, .i32⟩ : BufTy).Contents (Elt F)),
    StableHlo.binary main_arg2 main_v11 main_v12 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 4#32),
    StableHlo.unary main_c_3 main_v13 (broadcastInDim S1048576 ![] bcast_S_S1048576 : (⟨S_, .i32⟩ : BufTy).Contents (Elt F) → (⟨S1048576, .i32⟩ : BufTy).Contents (Elt F)),
    StableHlo.binary main_arg2 main_v13 main_v14 (addi : (⟨S1048576, .i32⟩ : BufTy).Contents (Elt F) → (⟨S1048576, .i32⟩ : BufTy).Contents (Elt F) → (⟨S1048576, .i32⟩ : BufTy).Contents (Elt F)),
    StableHlo.ternary main_v12 main_v14 main_arg2 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v15 main_v16 (broadcastInDim S1048576x1 ![0] bcast_S1048576_S1048576x1_0 : (⟨S1048576, .i32⟩ : BufTy).Contents (Elt F) → (⟨S1048576x1, .i32⟩ : BufTy).Contents (Elt F)),
    StableHlo.binary main_v10 main_v16 main_v17 ((fun x i => Host.gather gather_S4x64_S1048576x1_S1048576x64_1_0_n_n_0_1_164 x i) : (⟨S4x64, .f32⟩ : BufTy).Contents (Elt F) → (⟨S1048576x1, .i32⟩ : BufTy).Contents (Elt F) → (⟨S1048576x64, .f32⟩ : BufTy).Contents (Elt F)),
    StableHlo.nullary main_c_4 (constantI S_ 32 2#32) ]

/-- Operations 26 … 42 of 210. The first call of @floor_divide, inlined over its own buffers: `main_v18 = ⌊arg1 / 2⌋`. -/
abbrev seg1 : List (HloOp τ sig (Elt F)) :=
  [ StableHlo.TRef.unary (.of main_c_4 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1048576x3, .i32⟩) (broadcastInDim S1048576x3 ![] bcast_S_S1048576x3),
    StableHlo.TRef.binary (.of main_arg1 : StableHlo.TRef sig ⟨S1048576x3, .i32⟩) (.of main_call0_v1 : StableHlo.TRef sig ⟨S1048576x3, .i32⟩) (.of main_call0_v2 : StableHlo.TRef sig ⟨S1048576x3, .i32⟩) Host.divsi,
    StableHlo.TRef.unary (.of main_arg1 : StableHlo.TRef sig ⟨S1048576x3, .i32⟩) (.of main_call0_v3 : StableHlo.TRef sig ⟨S1048576x3, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S1048576x3, .i32⟩) (broadcastInDim S1048576x3 ![] bcast_S_S1048576x3),
    StableHlo.TRef.binary (.of main_call0_v3 : StableHlo.TRef sig ⟨S1048576x3, .i32⟩) (.of main_call0_v5 : StableHlo.TRef sig ⟨S1048576x3, .i32⟩) (.of main_call0_v6 : StableHlo.TRef sig ⟨S1048576x3, .i1⟩) (cmpi .ne),
    StableHlo.TRef.unary (.of main_call0_v0 : StableHlo.TRef sig ⟨S_, .i32⟩) (.of main_call0_v7 : StableHlo.TRef sig ⟨S1048576x3, .i32⟩) (broadcastInDim S1048576x3 ![] bcast_S_S1048576x3),
    StableHlo.TRef.binary (.of main_arg1 : StableHlo.TRef sig ⟨S1048576x3, .i32⟩) (.of main_call0_v7 : StableHlo.TRef sig ⟨S1048576x3, .i32⟩) (.of main_call0_v8 : StableHlo.TRef sig ⟨S1048576x3, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S1048576x3, .i32⟩) (broadcastInDim S1048576x3 ![] bcast_S_S1048576x3),
    StableHlo.TRef.binary (.of main_call0_v8 : StableHlo.TRef sig ⟨S1048576x3, .i32⟩) (.of main_call0_v9 : StableHlo.TRef sig ⟨S1048576x3, .i32⟩) (.of main_call0_v10 : StableHlo.TRef sig ⟨S1048576x3, .i1⟩) (cmpi .ne),
    StableHlo.TRef.binary (.of main_call0_v6 : StableHlo.TRef sig ⟨S1048576x3, .i1⟩) (.of main_call0_v10 : StableHlo.TRef sig ⟨S1048576x3, .i1⟩) (.of main_call0_v11 : StableHlo.TRef sig ⟨S1048576x3, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S1048576x3, .i32⟩) (broadcastInDim S1048576x3 ![] bcast_S_S1048576x3),
    StableHlo.TRef.binary (.of main_call0_v2 : StableHlo.TRef sig ⟨S1048576x3, .i32⟩) (.of main_call0_v12 : StableHlo.TRef sig ⟨S1048576x3, .i32⟩) (.of main_call0_v13 : StableHlo.TRef sig ⟨S1048576x3, .i32⟩) subi,
    StableHlo.TRef.ternary (.of main_call0_v11 : StableHlo.TRef sig ⟨S1048576x3, .i1⟩) (.of main_call0_v13 : StableHlo.TRef sig ⟨S1048576x3, .i32⟩) (.of main_call0_v2 : StableHlo.TRef sig ⟨S1048576x3, .i32⟩) (.of main_v18 : StableHlo.TRef sig ⟨S1048576x3, .i32⟩) select ]

/-- Operations 43 … 60 of 210. The cell numbers of the scale of 1048576 cells, `main_v33`. -/
abbrev seg2 : List (HloOp τ sig (Elt F)) :=
  [ StableHlo.nullary main_c_5 (constantI S_ 32 64#32),
    StableHlo.unary main_c_5 main_v19 (broadcastInDim S1048576 ![] bcast_S_S1048576 : (⟨S_, .i32⟩ : BufTy).Contents (Elt F) → (⟨S1048576, .i32⟩ : BufTy).Contents (Elt F)),
    StableHlo.binary main_arg2 main_v19 main_v20 (muli : (⟨S1048576, .i32⟩ : BufTy).Contents (Elt F) → (⟨S1048576, .i32⟩ : BufTy).Contents (Elt F) → (⟨S1048576, .i32⟩ : BufTy).Contents (Elt F)),
    StableHlo.unary main_v18 main_v21 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v21 main_v22 rfl shapeCasts_S1048576x1_S1048576,
    StableHlo.binary main_v20 main_v22 main_v23 (addi : (⟨S1048576, .i32⟩ : BufTy).Contents (Elt F) → (⟨S1048576, .i32⟩ : BufTy).Contents (Elt F) → (⟨S1048576, .i32⟩ : BufTy).Contents (Elt F)),
    StableHlo.nullary main_c_6 (constantI S_ 32 64#32),
    StableHlo.unary main_c_6 main_v24 (broadcastInDim S1048576 ![] bcast_S_S1048576 : (⟨S_, .i32⟩ : BufTy).Contents (Elt F) → (⟨S1048576, .i32⟩ : BufTy).Contents (Elt F)),
    StableHlo.binary main_v23 main_v24 main_v25 (muli : (⟨S1048576, .i32⟩ : BufTy).Contents (Elt F) → (⟨S1048576, .i32⟩ : BufTy).Contents (Elt F) → (⟨S1048576, .i32⟩ : BufTy).Contents (Elt F)),
    StableHlo.unary main_v18 main_v26 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v26 main_v27 rfl shapeCasts_S1048576x1_S1048576,
    StableHlo.binary main_v25 main_v27 main_v28 (addi : (⟨S1048576, .i32⟩ : BufTy).Contents (Elt F) → (⟨S1048576, .i32⟩ : BufTy).Contents (Elt F) → (⟨S1048576, .i32⟩ : BufTy).Contents (Elt F)),
    StableHlo.nullary main_c_7 (constantI S_ 32 64#32),
    StableHlo.unary main_c_7 main_v29 (broadcastInDim S1048576 ![] bcast_S_S1048576 : (⟨S_, .i32⟩ : BufTy).Contents (Elt F) → (⟨S1048576, .i32⟩ : BufTy).Contents (Elt F)),
    StableHlo.binary main_v28 main_v29 main_v30 (muli : (⟨S1048576, .i32⟩ : BufTy).Contents (Elt F) → (⟨S1048576, .i32⟩ : BufTy).Contents (Elt F) → (⟨S1048576, .i32⟩ : BufTy).Contents (Elt F)),
    StableHlo.unary main_v18 main_v31 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v31 main_v32 rfl shapeCasts_S1048576x1_S1048576,
    StableHlo.binary main_v30 main_v32 main_v33 (addi : (⟨S1048576, .i32⟩ : BufTy).Contents (Elt F) → (⟨S1048576, .i32⟩ : BufTy).Contents (Elt F) → (⟨S1048576, .i32⟩ : BufTy).Contents (Elt F)) ]

/-- Operations 61 … 76 of 210. That scale's sums, counts and means, up to the scalar 0 of the index wrap. -/
abbrev seg3 : List (HloOp τ sig (Elt F)) :=
  [ StableHlo.nullary main_cst_8 (constant S_ .f32 0x00000000#32),
    StableHlo.unary main_cst_8 main_v34 (broadcastInDim S1048576x64 ![] bcast_S_S1048576x64 : (⟨S_, .f32⟩ : BufTy).Contents (Elt F) → (⟨S1048576x64, .f32⟩ : BufTy).Contents (Elt F)),
    StableHlo.unary main_v33 main_v35 (broadcastInDim S1048576x1 ![0] bcast_S1048576_S1048576x1_0 : (⟨S1048576, .i32⟩ : BufTy).Contents (Elt F) → (⟨S1048576x1, .i32⟩ : BufTy).Contents (Elt F)),
    StableHlo.ternary main_v34 main_v35 main_arg0 main_v36 ((fun x i u => Host.scatterAdd scatter_S1048576x64_S1048576x1_S1048576x64_1_0_0_1 x i u) : (⟨S1048576x64, .f32⟩ : BufTy).Contents (Elt F) → (⟨S1048576x1, .i32⟩ : BufTy).Contents (Elt F) → (⟨S1048576x64, .f32⟩ : BufTy).Contents (Elt F) → (⟨S1048576x64, .f32⟩ : BufTy).Contents (Elt F)),
    StableHlo.nullary main_cst_9 (constant S_ .f32 0x3F800000#32),
    StableHlo.unary main_cst_9 main_v37 (broadcastInDim S1048576x1 ![] bcast_S_S1048576x1 : (⟨S_, .f32⟩ : BufTy).Contents (Elt F) → (⟨S1048576x1, .f32⟩ : BufTy).Contents (Elt F)),
    StableHlo.nullary main_cst_10 (constant S_ .f32 0x00000000#32),
    StableHlo.unary main_cst_10 main_v38 (broadcastInDim S1048576x1 ![] bcast_S_S1048576x1 : (⟨S_, .f32⟩ : BufTy).Contents (Elt F) → (⟨S1048576x1, .f32⟩ : BufTy).Contents (Elt F)),
    StableHlo.unary main_v33 main_v39 (broadcastInDim S1048576x1 ![0] bcast_S1048576_S1048576x1_0 : (⟨S1048576, .i32⟩ : BufTy).Contents (Elt F) → (⟨S1048576x1, .i32⟩ : BufTy).Contents (Elt F)),
    StableHlo.ternary main_v38 main_v39 main_v37 main_v40 ((fun x i u => Host.scatterAdd scatter_S1048576x1_S1048576x1_S1048576x1_1_0_0_1 x i u) : (⟨S1048576x1, .f32⟩ : BufTy).Contents (Elt F) → (⟨S1048576x1, .i32⟩ : BufTy).Contents (Elt F) → (⟨S1048576x1, .f32⟩ : BufTy).Contents (Elt F) → (⟨S1048576x1, .f32⟩ : BufTy).Contents (Elt F)),
    StableHlo.nullary main_cst_11 (constant S_ .f32 0x3F800000#32),
    StableHlo.unary main_cst_11 main_v41 (broadcastInDim S1048576x1 ![] bcast_S_S1048576x1 : (⟨S_, .f32⟩ : BufTy).Contents (Elt F) → (⟨S1048576x1, .f32⟩ : BufTy).Contents (Elt F)),
    StableHlo.binary main_v40 main_v41 main_v42 (maximumf : (⟨S1048576x1, .f32⟩ : BufTy).Contents (Elt F) → (⟨S1048576x1, .f32⟩ : BufTy).Contents (Elt F) → (⟨S1048576x1, .f32⟩ : BufTy).Contents (Elt F)),
    StableHlo.unary main_v42 main_v43 (broadcastInDim S1048576x64 ![0, 1] bcast_S1048576x1_S1048576x64_0_1 : (⟨S1048576x1, .f32⟩ : BufTy).Contents (Elt F) → (⟨S1048576x64, .f32⟩ : BufTy).Contents (Elt F)),
    StableHlo.binary main_v36 main_v43 main_v44 (Host.divf : (⟨S1048576x64, .f32⟩ : BufTy).Contents (Elt F) → (⟨S1048576x64, .f32⟩ : BufTy).Contents (Elt F) → (⟨S1048576x64, .f32⟩ : BufTy).Contents (Elt F)),
    StableHlo.nullary main_c_12 (constantI S_ 32 0#32) ]

/-- Operations 77 … 85 of 210. That scale's read-back into `main_v51`; then the scalar 4. -/
abbrev seg4 : List (HloOp τ sig (Elt F)) :=
  [ StableHlo.unary main_c_12 main_v45 (broadcastInDim S1048576 ![] bcast_S_S1048576 : (⟨S_, .i32⟩ : BufTy).Contents (Elt F) → (⟨S1048576, .i32⟩ : BufTy).Contents (Elt F)),
    StableHlo.binary main_v33 main_v45 main_v46 (cmpi .slt : (⟨S1048576, .i32⟩ : BufTy).Contents (Elt F) → (⟨S1048576, .i32⟩ : BufTy).Contents (Elt F) → (⟨S1048576, .i1⟩ : BufTy).Contents (Elt F)),
    StableHlo.nullary main_c_13 (constantI S_ 32 1048576#32),
    StableHlo.unary main_c_13 main_v47 (broadcastInDim S1048576 ![] bcast_S_S1048576 : (⟨S_, .i32⟩ : BufTy).Contents (Elt F) → (⟨S1048576, .i32⟩ : BufTy).Contents (Elt F)),
    StableHlo.binary main_v33 main_v47 main_v48 (addi : (⟨S1048576, .i32⟩ : BufTy).Contents (Elt F) → (⟨S1048576, .i32⟩ : BufTy).Contents (Elt F) → (⟨S1048576, .i32⟩ : BufTy).Contents (Elt F)),
    StableHlo.ternary main_v46 main_v48 main_v33 main_v49 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v49 main_v50 (broadcastInDim S1048576x1 ![0] bcast_S1048576_S1048576x1_0 : (⟨S1048576, .i32⟩ : BufTy).Contents (Elt F) → (⟨S1048576x1, .i32⟩ : BufTy).Contents (Elt F)),
    StableHlo.binary main_v44 main_v50 main_v51 ((fun x i => Host.gather gather_S1048576x64_S1048576x1_S1048576x64_1_0_n_n_0_1_164 x i) : (⟨S1048576x64, .f32⟩ : BufTy).Contents (Elt F) → (⟨S1048576x1, .i32⟩ : BufTy).Contents (Elt F) → (⟨S1048576x64, .f32⟩ : BufTy).Contents (Elt F)),
    StableHlo.nullary main_c_14 (constantI S_ 32 4#32) ]

/-- Operations 86 … 102 of 210. The second call of @floor_divide, inlined: `main_v52 = ⌊arg1 / 4⌋`. -/
abbrev seg5 : List (HloOp τ sig (Elt F)) :=
  [ StableHlo.TRef.unary (.of main_c_14 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S1048576x3, .i32⟩) (broadcastInDim S1048576x3 ![] bcast_S_S1048576x3),
    StableHlo.TRef.binary (.of main_arg1 : StableHlo.TRef sig ⟨S1048576x3, .i32⟩) (.of main_call1_v1 : StableHlo.TRef sig ⟨S1048576x3, .i32⟩) (.of main_call1_v2 : StableHlo.TRef sig ⟨S1048576x3, .i32⟩) Host.divsi,
    StableHlo.TRef.unary (.of main_arg1 : StableHlo.TRef sig ⟨S1048576x3, .i32⟩) (.of main_call1_v3 : StableHlo.TRef sig ⟨S1048576x3, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S1048576x3, .i32⟩) (broadcastInDim S1048576x3 ![] bcast_S_S1048576x3),
    StableHlo.TRef.binary (.of main_call1_v3 : StableHlo.TRef sig ⟨S1048576x3, .i32⟩) (.of main_call1_v5 : StableHlo.TRef sig ⟨S1048576x3, .i32⟩) (.of main_call1_v6 : StableHlo.TRef sig ⟨S1048576x3, .i1⟩) (cmpi .ne),
    StableHlo.TRef.unary (.of main_call1_v0 : StableHlo.TRef sig ⟨S_, .i32⟩) (.of main_call1_v7 : StableHlo.TRef sig ⟨S1048576x3, .i32⟩) (broadcastInDim S1048576x3 ![] bcast_S_S1048576x3),
    StableHlo.TRef.binary (.of main_arg1 : StableHlo.TRef sig ⟨S1048576x3, .i32⟩) (.of main_call1_v7 : StableHlo.TRef sig ⟨S1048576x3, .i32⟩) (.of main_call1_v8 : StableHlo.TRef sig ⟨S1048576x3, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S1048576x3, .i32⟩) (broadcastInDim S1048576x3 ![] bcast_S_S1048576x3),
    StableHlo.TRef.binary (.of main_call1_v8 : StableHlo.TRef sig ⟨S1048576x3, .i32⟩) (.of main_call1_v9 : StableHlo.TRef sig ⟨S1048576x3, .i32⟩) (.of main_call1_v10 : StableHlo.TRef sig ⟨S1048576x3, .i1⟩) (cmpi .ne),
    StableHlo.TRef.binary (.of main_call1_v6 : StableHlo.TRef sig ⟨S1048576x3, .i1⟩) (.of main_call1_v10 : StableHlo.TRef sig ⟨S1048576x3, .i1⟩) (.of main_call1_v11 : StableHlo.TRef sig ⟨S1048576x3, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S1048576x3, .i32⟩) (broadcastInDim S1048576x3 ![] bcast_S_S1048576x3),
    StableHlo.TRef.binary (.of main_call1_v2 : StableHlo.TRef sig ⟨S1048576x3, .i32⟩) (.of main_call1_v12 : StableHlo.TRef sig ⟨S1048576x3, .i32⟩) (.of main_call1_v13 : StableHlo.TRef sig ⟨S1048576x3, .i32⟩) subi,
    StableHlo.TRef.ternary (.of main_call1_v11 : StableHlo.TRef sig ⟨S1048576x3, .i1⟩) (.of main_call1_v13 : StableHlo.TRef sig ⟨S1048576x3, .i32⟩) (.of main_call1_v2 : StableHlo.TRef sig ⟨S1048576x3, .i32⟩) (.of main_v52 : StableHlo.TRef sig ⟨S1048576x3, .i32⟩) select ]

/-- Operations 103 … 120 of 210. The cell numbers of the scale of 131072 cells, `main_v67`. -/
abbrev seg6 : List (HloOp τ sig (Elt F)) :=
  [ StableHlo.nullary main_c_15 (constantI S_ 32 32#32),
    StableHlo.unary main_c_15 main_v53 (broadcastInDim S1048576 ![] bcast_S_S1048576 : (⟨S_, .i32⟩ : BufTy).Contents (Elt F) → (⟨S1048576, .i32⟩ : BufTy).Contents (Elt F)),
    StableHlo.binary main_arg2 main_v53 main_v54 (muli : (⟨S1048576, .i32⟩ : BufTy).Contents (Elt F) → (⟨S1048576, .i32⟩ : BufTy).Contents (Elt F) → (⟨S1048576, .i32⟩ : BufTy).Contents (Elt F)),
    StableHlo.unary main_v52 main_v55 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v55 main_v56 rfl shapeCasts_S1048576x1_S1048576,
    StableHlo.binary main_v54 main_v56 main_v57 (addi : (⟨S1048576, .i32⟩ : BufTy).Contents (Elt F) → (⟨S1048576, .i32⟩ : BufTy).Contents (Elt F) → (⟨S1048576, .i32⟩ : BufTy).Contents (Elt F)),
    StableHlo.nullary main_c_16 (constantI S_ 32 32#32),
    StableHlo.unary main_c_16 main_v58 (broadcastInDim S1048576 ![] bcast_S_S1048576 : (⟨S_, .i32⟩ : BufTy).Contents (Elt F) → (⟨S1048576, .i32⟩ : BufTy).Contents (Elt F)),
    StableHlo.binary main_v57 main_v58 main_v59 (muli : (⟨S1048576, .i32⟩ : BufTy).Contents (Elt F) → (⟨S1048576, .i32⟩ : BufTy).Contents (Elt F) → (⟨S1048576, .i32⟩ : BufTy).Contents (Elt F)),
    StableHlo.unary main_v52 main_v60 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v60 main_v61 rfl shapeCasts_S1048576x1_S1048576,
    StableHlo.binary main_v59 main_v61 main_v62 (addi : (⟨S1048576, .i32⟩ : BufTy).Contents (Elt F) → (⟨S1048576, .i32⟩ : BufTy).Contents (Elt F) → (⟨S1048576, .i32⟩ : BufTy).Contents (Elt F)),
    StableHlo.nullary main_c_17 (constantI S_ 32 32#32),
    StableHlo.unary main_c_17 main_v63 (broadcastInDim S1048576 ![] bcast_S_S1048576 : (⟨S_, .i32⟩ : BufTy).Contents (Elt F) → (⟨S1048576, .i32⟩ : BufTy).Contents (Elt F)),
    StableHlo.binary main_v62 main_v63 main_v64 (muli : (⟨S1048576, .i32⟩ : BufTy).Contents (Elt F) → (⟨S1048576, .i32⟩ : BufTy).Contents (Elt F) → (⟨S1048576, .i32⟩ : BufTy).Contents (Elt F)),
    StableHlo.unary main_v52 main_v65 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v65 main_v66 rfl shapeCasts_S1048576x1_S1048576,
    StableHlo.binary main_v64 main_v66 main_v67 (addi : (⟨S1048576, .i32⟩ : BufTy).Contents (Elt F) → (⟨S1048576, .i32⟩ : BufTy).Contents (Elt F) → (⟨S1048576, .i32⟩ : BufTy).Contents (Elt F)) ]

/-- Operations 121 … 145 of 210. That scale's sums, counts, means and read-back into `main_v85`; then the scalar 8. -/
abbrev seg7 : List (HloOp τ sig (Elt F)) :=
  [ StableHlo.nullary main_cst_18 (constant S_ .f32 0x00000000#32),
    StableHlo.unary main_cst_18 main_v68 (broadcastInDim S131072x64 ![] bcast_S_S131072x64 : (⟨S_, .f32⟩ : BufTy).Contents (Elt F) → (⟨S131072x64, .f32⟩ : BufTy).Contents (Elt F)),
    StableHlo.unary main_v67 main_v69 (broadcastInDim S1048576x1 ![0] bcast_S1048576_S1048576x1_0 : (⟨S1048576, .i32⟩ : BufTy).Contents (Elt F) → (⟨S1048576x1, .i32⟩ : BufTy).Contents (Elt F)),
    StableHlo.ternary main_v68 main_v69 main_arg0 main_v70 ((fun x i u => Host.scatterAdd scatter_S131072x64_S1048576x1_S1048576x64_1_0_0_1 x i u) : (⟨S131072x64, .f32⟩ : BufTy).Contents (Elt F) → (⟨S1048576x1, .i32⟩ : BufTy).Contents (Elt F) → (⟨S1048576x64, .f32⟩ : BufTy).Contents (Elt F) → (⟨S131072x64, .f32⟩ : BufTy).Contents (Elt F)),
    StableHlo.nullary main_cst_19 (constant S_ .f32 0x3F800000#32),
    StableHlo.unary main_cst_19 main_v71 (broadcastInDim S1048576x1 ![] bcast_S_S1048576x1 : (⟨S_, .f32⟩ : BufTy).Contents (Elt F) → (⟨S1048576x1, .f32⟩ : BufTy).Contents (Elt F)),
    StableHlo.nullary main_cst_20 (constant S_ .f32 0x00000000#32),
    StableHlo.unary main_cst_20 main_v72 (broadcastInDim S131072x1 ![] bcast_S_S131072x1 : (⟨S_, .f32⟩ : BufTy).Contents (Elt F) → (⟨S131072x1, .f32⟩ : BufTy).Contents (Elt F)),
    StableHlo.unary main_v67 main_v73 (broadcastInDim S1048576x1 ![0] bcast_S1048576_S1048576x1_0 : (⟨S1048576, .i32⟩ : BufTy).Contents (Elt F) → (⟨S1048576x1, .i32⟩ : BufTy).Contents (Elt F)),
    StableHlo.ternary main_v72 main_v73 main_v71 main_v74 ((fun x i u => Host.scatterAdd scatter_S131072x1_S1048576x1_S1048576x1_1_0_0_1 x i u) : (⟨S131072x1, .f32⟩ : BufTy).Contents (Elt F) → (⟨S1048576x1, .i32⟩ : BufTy).Contents (Elt F) → (⟨S1048576x1, .f32⟩ : BufTy).Contents (Elt F) → (⟨S131072x1, .f32⟩ : BufTy).Contents (Elt F)),
    StableHlo.nullary main_cst_21 (constant S_ .f32 0x3F800000#32),
    StableHlo.unary main_cst_21 main_v75 (broadcastInDim S131072x1 ![] bcast_S_S131072x1 : (⟨S_, .f32⟩ : BufTy).Contents (Elt F) → (⟨S131072x1, .f32⟩ : BufTy).Contents (Elt F)),
    StableHlo.binary main_v74 main_v75 main_v76 (maximumf : (⟨S131072x1, .f32⟩ : BufTy).Contents (Elt F) → (⟨S131072x1, .f32⟩ : BufTy).Contents (Elt F) → (⟨S131072x1, .f32⟩ : BufTy).Contents (Elt F)),
    StableHlo.unary main_v76 main_v77 (broadcastInDim S131072x64 ![0, 1] bcast_S131072x1_S131072x64_0_1 : (⟨S131072x1, .f32⟩ : BufTy).Contents (Elt F) → (⟨S131072x64, .f32⟩ : BufTy).Contents (Elt F)),
    StableHlo.binary main_v70 main_v77 main_v78 (Host.divf : (⟨S131072x64, .f32⟩ : BufTy).Contents (Elt F) → (⟨S131072x64, .f32⟩ : BufTy).Contents (Elt F) → (⟨S131072x64, .f32⟩ : BufTy).Contents (Elt F)),
    StableHlo.nullary main_c_22 (constantI S_ 32 0#32),
    StableHlo.unary main_c_22 main_v79 (broadcastInDim S1048576 ![] bcast_S_S1048576 : (⟨S_, .i32⟩ : BufTy).Contents (Elt F) → (⟨S1048576, .i32⟩ : BufTy).Contents (Elt F)),
    StableHlo.binary main_v67 main_v79 main_v80 (cmpi .slt : (⟨S1048576, .i32⟩ : BufTy).Contents (Elt F) → (⟨S1048576, .i32⟩ : BufTy).Contents (Elt F) → (⟨S1048576, .i1⟩ : BufTy).Contents (Elt F)),
    StableHlo.nullary main_c_23 (constantI S_ 32 131072#32),
    StableHlo.unary main_c_23 main_v81 (broadcastInDim S1048576 ![] bcast_S_S1048576 : (⟨S_, .i32⟩ : BufTy).Contents (Elt F) → (⟨S1048576, .i32⟩ : BufTy).Contents (Elt F)),
    StableHlo.binary main_v67 main_v81 main_v82 (addi : (⟨S1048576, .i32⟩ : BufTy).Contents (Elt F) → (⟨S1048576, .i32⟩ : BufTy).Contents (Elt F) → (⟨S1048576, .i32⟩ : BufTy).Contents (Elt F)),
    StableHlo.ternary main_v80 main_v82 main_v67 main_v83 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v83 main_v84 (broadcastInDim S1048576x1 ![0] bcast_S1048576_S1048576x1_0 : (⟨S1048576, .i32⟩ : BufTy).Contents (Elt F) → (⟨S1048576x1, .i32⟩ : BufTy).Contents (Elt F)),
    StableHlo.binary main_v78 main_v84 main_v85 ((fun x i => Host.gather gather_S131072x64_S1048576x1_S1048576x64_1_0_n_n_0_1_164 x i) : (⟨S131072x64, .f32⟩ : BufTy).Contents (Elt F) → (⟨S1048576x1, .i32⟩ : BufTy).Contents (Elt F) → (⟨S1048576x64, .f32⟩ : BufTy).Contents (Elt F)),
    StableHlo.nullary main_c_24 (constantI S_ 32 8#32) ]

/-- Operations 146 … 162 of 210. The third call of @floor_divide, inlined: `main_v86 = ⌊arg1 / 8⌋`. -/
abbrev seg8 : List (HloOp τ sig (Elt F)) :=
  [ StableHlo.TRef.unary (.of main_c_24 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S1048576x3, .i32⟩) (broadcastInDim S1048576x3 ![] bcast_S_S1048576x3),
    StableHlo.TRef.binary (.of main_arg1 : StableHlo.TRef sig ⟨S1048576x3, .i32⟩) (.of main_call2_v1 : StableHlo.TRef sig ⟨S1048576x3, .i32⟩) (.of main_call2_v2 : StableHlo.TRef sig ⟨S1048576x3, .i32⟩) Host.divsi,
    StableHlo.TRef.unary (.of main_arg1 : StableHlo.TRef sig ⟨S1048576x3, .i32⟩) (.of main_call2_v3 : StableHlo.TRef sig ⟨S1048576x3, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S1048576x3, .i32⟩) (broadcastInDim S1048576x3 ![] bcast_S_S1048576x3),
    StableHlo.TRef.binary (.of main_call2_v3 : StableHlo.TRef sig ⟨S1048576x3, .i32⟩) (.of main_call2_v5 : StableHlo.TRef sig ⟨S1048576x3, .i32⟩) (.of main_call2_v6 : StableHlo.TRef sig ⟨S1048576x3, .i1⟩) (cmpi .ne),
    StableHlo.TRef.unary (.of main_call2_v0 : StableHlo.TRef sig ⟨S_, .i32⟩) (.of main_call2_v7 : StableHlo.TRef sig ⟨S1048576x3, .i32⟩) (broadcastInDim S1048576x3 ![] bcast_S_S1048576x3),
    StableHlo.TRef.binary (.of main_arg1 : StableHlo.TRef sig ⟨S1048576x3, .i32⟩) (.of main_call2_v7 : StableHlo.TRef sig ⟨S1048576x3, .i32⟩) (.of main_call2_v8 : StableHlo.TRef sig ⟨S1048576x3, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S1048576x3, .i32⟩) (broadcastInDim S1048576x3 ![] bcast_S_S1048576x3),
    StableHlo.TRef.binary (.of main_call2_v8 : StableHlo.TRef sig ⟨S1048576x3, .i32⟩) (.of main_call2_v9 : StableHlo.TRef sig ⟨S1048576x3, .i32⟩) (.of main_call2_v10 : StableHlo.TRef sig ⟨S1048576x3, .i1⟩) (cmpi .ne),
    StableHlo.TRef.binary (.of main_call2_v6 : StableHlo.TRef sig ⟨S1048576x3, .i1⟩) (.of main_call2_v10 : StableHlo.TRef sig ⟨S1048576x3, .i1⟩) (.of main_call2_v11 : StableHlo.TRef sig ⟨S1048576x3, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S1048576x3, .i32⟩) (broadcastInDim S1048576x3 ![] bcast_S_S1048576x3),
    StableHlo.TRef.binary (.of main_call2_v2 : StableHlo.TRef sig ⟨S1048576x3, .i32⟩) (.of main_call2_v12 : StableHlo.TRef sig ⟨S1048576x3, .i32⟩) (.of main_call2_v13 : StableHlo.TRef sig ⟨S1048576x3, .i32⟩) subi,
    StableHlo.TRef.ternary (.of main_call2_v11 : StableHlo.TRef sig ⟨S1048576x3, .i1⟩) (.of main_call2_v13 : StableHlo.TRef sig ⟨S1048576x3, .i32⟩) (.of main_call2_v2 : StableHlo.TRef sig ⟨S1048576x3, .i32⟩) (.of main_v86 : StableHlo.TRef sig ⟨S1048576x3, .i32⟩) select ]

/-- Operations 163 … 168 of 210. The first coordinate's step of the cell numbers of the scale of 16384 cells. -/
abbrev seg9 : List (HloOp τ sig (Elt F)) :=
  [ StableHlo.nullary main_c_25 (constantI S_ 32 16#32),
    StableHlo.unary main_c_25 main_v87 (broadcastInDim S1048576 ![] bcast_S_S1048576 : (⟨S_, .i32⟩ : BufTy).Contents (Elt F) → (⟨S1048576, .i32⟩ : BufTy).Contents (Elt F)),
    StableHlo.binary main_arg2 main_v87 main_v88 (muli : (⟨S1048576, .i32⟩ : BufTy).Contents (Elt F) → (⟨S1048576, .i32⟩ : BufTy).Contents (Elt F) → (⟨S1048576, .i32⟩ : BufTy).Contents (Elt F)),
    StableHlo.unary main_v86 main_v89 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v89 main_v90 rfl shapeCasts_S1048576x1_S1048576,
    StableHlo.binary main_v88 main_v90 main_v91 (addi : (⟨S1048576, .i32⟩ : BufTy).Contents (Elt F) → (⟨S1048576, .i32⟩ : BufTy).Contents (Elt F) → (⟨S1048576, .i32⟩ : BufTy).Contents (Elt F)) ]

/-- Operations 169 … 180 of 210. The rest of those cell numbers, `main_v101`. -/
abbrev seg10 : List (HloOp τ sig (Elt F)) :=
  [ StableHlo.nullary main_c_26 (constantI S_ 32 16#32),
    StableHlo.unary main_c_26 main_v92 (broadcastInDim S1048576 ![] bcast_S_S1048576 : (⟨S_, .i32⟩ : BufTy).Contents (Elt F) → (⟨S1048576, .i32⟩ : BufTy).Contents (Elt F)),
    StableHlo.binary main_v91 main_v92 main_v93 (muli : (⟨S1048576, .i32⟩ : BufTy).Contents (Elt F) → (⟨S1048576, .i32⟩ : BufTy).Contents (Elt F) → (⟨S1048576, .i32⟩ : BufTy).Contents (Elt F)),
    StableHlo.unary main_v86 main_v94 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v94 main_v95 rfl shapeCasts_S1048576x1_S1048576,
    StableHlo.binary main_v93 main_v95 main_v96 (addi : (⟨S1048576, .i32⟩ : BufTy).Contents (Elt F) → (⟨S1048576, .i32⟩ : BufTy).Contents (Elt F) → (⟨S1048576, .i32⟩ : BufTy).Contents (Elt F)),
    StableHlo.nullary main_c_27 (constantI S_ 32 16#32),
    StableHlo.unary main_c_27 main_v97 (broadcastInDim S1048576 ![] bcast_S_S1048576 : (⟨S_, .i32⟩ : BufTy).Contents (Elt F) → (⟨S1048576, .i32⟩ : BufTy).Contents (Elt F)),
    StableHlo.binary main_v96 main_v97 main_v98 (muli : (⟨S1048576, .i32⟩ : BufTy).Contents (Elt F) → (⟨S1048576, .i32⟩ : BufTy).Contents (Elt F) → (⟨S1048576, .i32⟩ : BufTy).Contents (Elt F)),
    StableHlo.unary main_v86 main_v99 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v99 main_v100 rfl shapeCasts_S1048576x1_S1048576,
    StableHlo.binary main_v98 main_v100 main_v101 (addi : (⟨S1048576, .i32⟩ : BufTy).Contents (Elt F) → (⟨S1048576, .i32⟩ : BufTy).Contents (Elt F) → (⟨S1048576, .i32⟩ : BufTy).Contents (Elt F)) ]

/-- Operations 181 … 204 of 210. That scale's sums, counts, means and read-back into `main_v119`. -/
abbrev seg11 : List (HloOp τ sig (Elt F)) :=
  [ StableHlo.nullary main_cst_28 (constant S_ .f32 0x00000000#32),
    StableHlo.unary main_cst_28 main_v102 (broadcastInDim S16384x64 ![] bcast_S_S16384x64 : (⟨S_, .f32⟩ : BufTy).Contents (Elt F) → (⟨S16384x64, .f32⟩ : BufTy).Contents (Elt F)),
    StableHlo.unary main_v101 main_v103 (broadcastInDim S1048576x1 ![0] bcast_S1048576_S1048576x1_0 : (⟨S1048576, .i32⟩ : BufTy).Contents (Elt F) → (⟨S1048576x1, .i32⟩ : BufTy).Contents (Elt F)),
    StableHlo.ternary main_v102 main_v103 main_arg0 main_v104 ((fun x i u => Host.scatterAdd scatter_S16384x64_S1048576x1_S1048576x64_1_0_0_1 x i u) : (⟨S16384x64, .f32⟩ : BufTy).Contents (Elt F) → (⟨S1048576x1, .i32⟩ : BufTy).Contents (Elt F) → (⟨S1048576x64, .f32⟩ : BufTy).Contents (Elt F) → (⟨S16384x64, .f32⟩ : BufTy).Contents (Elt F)),
    StableHlo.nullary main_cst_29 (constant S_ .f32 0x3F800000#32),
    StableHlo.unary main_cst_29 main_v105 (broadcastInDim S1048576x1 ![] bcast_S_S1048576x1 : (⟨S_, .f32⟩ : BufTy).Contents (Elt F) → (⟨S1048576x1, .f32⟩ : BufTy).Contents (Elt F)),
    StableHlo.nullary main_cst_30 (constant S_ .f32 0x00000000#32),
    StableHlo.unary main_cst_30 main_v106 (broadcastInDim S16384x1 ![] bcast_S_S16384x1 : (⟨S_, .f32⟩ : BufTy).Contents (Elt F) → (⟨S16384x1, .f32⟩ : BufTy).Contents (Elt F)),
    StableHlo.unary main_v101 main_v107 (broadcastInDim S1048576x1 ![0] bcast_S1048576_S1048576x1_0 : (⟨S1048576, .i32⟩ : BufTy).Contents (Elt F) → (⟨S1048576x1, .i32⟩ : BufTy).Contents (Elt F)),
    StableHlo.ternary main_v106 main_v107 main_v105 main_v108 ((fun x i u => Host.scatterAdd scatter_S16384x1_S1048576x1_S1048576x1_1_0_0_1 x i u) : (⟨S16384x1, .f32⟩ : BufTy).Contents (Elt F) → (⟨S1048576x1, .i32⟩ : BufTy).Contents (Elt F) → (⟨S1048576x1, .f32⟩ : BufTy).Contents (Elt F) → (⟨S16384x1, .f32⟩ : BufTy).Contents (Elt F)),
    StableHlo.nullary main_cst_31 (constant S_ .f32 0x3F800000#32),
    StableHlo.unary main_cst_31 main_v109 (broadcastInDim S16384x1 ![] bcast_S_S16384x1 : (⟨S_, .f32⟩ : BufTy).Contents (Elt F) → (⟨S16384x1, .f32⟩ : BufTy).Contents (Elt F)),
    StableHlo.binary main_v108 main_v109 main_v110 (maximumf : (⟨S16384x1, .f32⟩ : BufTy).Contents (Elt F) → (⟨S16384x1, .f32⟩ : BufTy).Contents (Elt F) → (⟨S16384x1, .f32⟩ : BufTy).Contents (Elt F)),
    StableHlo.unary main_v110 main_v111 (broadcastInDim S16384x64 ![0, 1] bcast_S16384x1_S16384x64_0_1 : (⟨S16384x1, .f32⟩ : BufTy).Contents (Elt F) → (⟨S16384x64, .f32⟩ : BufTy).Contents (Elt F)),
    StableHlo.binary main_v104 main_v111 main_v112 (Host.divf : (⟨S16384x64, .f32⟩ : BufTy).Contents (Elt F) → (⟨S16384x64, .f32⟩ : BufTy).Contents (Elt F) → (⟨S16384x64, .f32⟩ : BufTy).Contents (Elt F)),
    StableHlo.nullary main_c_32 (constantI S_ 32 0#32),
    StableHlo.unary main_c_32 main_v113 (broadcastInDim S1048576 ![] bcast_S_S1048576 : (⟨S_, .i32⟩ : BufTy).Contents (Elt F) → (⟨S1048576, .i32⟩ : BufTy).Contents (Elt F)),
    StableHlo.binary main_v101 main_v113 main_v114 (cmpi .slt : (⟨S1048576, .i32⟩ : BufTy).Contents (Elt F) → (⟨S1048576, .i32⟩ : BufTy).Contents (Elt F) → (⟨S1048576, .i1⟩ : BufTy).Contents (Elt F)),
    StableHlo.nullary main_c_33 (constantI S_ 32 16384#32),
    StableHlo.unary main_c_33 main_v115 (broadcastInDim S1048576 ![] bcast_S_S1048576 : (⟨S_, .i32⟩ : BufTy).Contents (Elt F) → (⟨S1048576, .i32⟩ : BufTy).Contents (Elt F)),
    StableHlo.binary main_v101 main_v115 main_v116 (addi : (⟨S1048576, .i32⟩ : BufTy).Contents (Elt F) → (⟨S1048576, .i32⟩ : BufTy).Contents (Elt F) → (⟨S1048576, .i32⟩ : BufTy).Contents (Elt F)),
    StableHlo.ternary main_v114 main_v116 main_v101 main_v117 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v117 main_v118 (broadcastInDim S1048576x1 ![0] bcast_S1048576_S1048576x1_0 : (⟨S1048576, .i32⟩ : BufTy).Contents (Elt F) → (⟨S1048576x1, .i32⟩ : BufTy).Contents (Elt F)),
    StableHlo.binary main_v112 main_v118 main_v119 ((fun x i => Host.gather gather_S16384x64_S1048576x1_S1048576x64_1_0_n_n_0_1_164 x i) : (⟨S16384x64, .f32⟩ : BufTy).Contents (Elt F) → (⟨S1048576x1, .i32⟩ : BufTy).Contents (Elt F) → (⟨S1048576x64, .f32⟩ : BufTy).Contents (Elt F)) ]

/-- Operations 205 … 210 of 210. The four pooled arrays side by side, the weights transposed, the product, and the bias added: `main_v125`. -/
abbrev seg12 : List (HloOp τ sig (Elt F)) :=
  [ StableHlo.nary ![main_v17, main_v51, main_v85, main_v119] main_v120 (fun u => concatenate S1048576x256 1 [⟨S1048576x64, u 0⟩, ⟨S1048576x64, u 1⟩, ⟨S1048576x64, u 2⟩, ⟨S1048576x64, u 3⟩] concatenates_S1048576x64_S1048576x64_S1048576x64_S1048576x64_S1048576x256_d1),
    StableHlo.unary main_arg3 main_v121 ((transpose S256x96 [1, 0] · transposes_S96x256_S256x96_1_0) : (⟨S96x256, .f32⟩ : BufTy).Contents (Elt F) → (⟨S256x96, .f32⟩ : BufTy).Contents (Elt F)),
    StableHlo.binary main_v120 main_v121 main_v122 ((fun l r => Host.dotGeneral dot_S1048576x256_S256x96_S1048576x96_1_0_0_1_n_n none l r) : (⟨S1048576x256, .f32⟩ : BufTy).Contents (Elt F) → (⟨S256x96, .f32⟩ : BufTy).Contents (Elt F) → (⟨S1048576x96, .f32⟩ : BufTy).Contents (Elt F)),
    StableHlo.unary main_arg4 main_v123 (broadcastInDim S1x96 ![1] bcast_S96_S1x96_1 : (⟨S96, .f32⟩ : BufTy).Contents (Elt F) → (⟨S1x96, .f32⟩ : BufTy).Contents (Elt F)),
    StableHlo.unary main_v123 main_v124 (broadcastInDim S1048576x96 ![0, 1] bcast_S1x96_S1048576x96_0_1 : (⟨S1x96, .f32⟩ : BufTy).Contents (Elt F) → (⟨S1048576x96, .f32⟩ : BufTy).Contents (Elt F)),
    StableHlo.binary main_v122 main_v124 main_v125 (addf : (⟨S1048576x96, .f32⟩ : BufTy).Contents (Elt F) → (⟨S1048576x96, .f32⟩ : BufTy).Contents (Elt F) → (⟨S1048576x96, .f32⟩ : BufTy).Contents (Elt F)) ]

/-- The operations of the first printed window of @main (statements 1 … 60, the call inlined). -/
abbrev ops_part0 : List (HloOp τ sig (Elt F)) := seg0 ++ (seg1 ++ (seg2 ++ seg3))
/-- The operations of the second printed window (statements 61 … 120, the two calls inlined). -/
abbrev ops_part1 : List (HloOp τ sig (Elt F)) := seg4 ++ (seg5 ++ (seg6 ++ (seg7 ++ (seg8 ++ seg9))))
/-- The operations of the third printed window (statements 121 … 163). -/
abbrev ops_part2 : List (HloOp τ sig (Elt F)) := seg10 ++ (seg11 ++ seg12)
/-- @main's 210 operations, in order, the three calls of @floor_divide inlined. -/
abbrev ops : List (HloOp τ sig (Elt F)) := ops_part0 ++ (ops_part1 ++ ops_part2)

/-! ## @main is that straight line

Sequencing in the program monad is grafting (structural recursion on the program tree), so a window of @main —
a chain of operation steps with a call's body, itself such a chain, bound in the middle — and the segments'
straight lines bound one after the other compute to the same tree. -/

set_option maxRecDepth 8192 in
theorem main_part0_eq (c : Dev nD) : main_part0 (F := F) c = seq ops_part0 := by
  simp only [ops_part0, seq_append]
  rfl

set_option maxRecDepth 8192 in
theorem main_part1_eq (c : Dev nD) : main_part1 (F := F) c = seq ops_part1 := by
  simp only [ops_part1, seq_append]
  rfl

set_option maxRecDepth 8192 in
theorem main_part2_eq (c : Dev nD) : main_part2 (F := F) c = seq ops_part2 := by
  simp only [ops_part2, seq_append]
  rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

theorem seg0_sub : (seg0 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
theorem seg1_sub : (seg1 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem seg2_sub : (seg2 : List (HloOp τ sig (Elt F))).Forall fun op => op.bufs ⊆ tcRefs τ sig :=
  ⟨nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub ..⟩
theorem seg3_sub : (seg3 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub ..⟩
theorem seg4_sub : (seg4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub ..⟩
theorem seg5_sub : (seg5 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem seg6_sub : (seg6 : List (HloOp τ sig (Elt F))).Forall fun op => op.bufs ⊆ tcRefs τ sig :=
  ⟨nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub ..⟩
theorem seg7_sub : (seg7 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
theorem seg8_sub : (seg8 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem seg9_sub : (seg9 : List (HloOp τ sig (Elt F))).Forall fun op => op.bufs ⊆ tcRefs τ sig :=
  ⟨nullary_bufs_sub .., unary_bufs_sub .., binary_bufs_sub .., unary_bufs_sub .., reshape_bufs_sub .., binary_bufs_sub ..⟩
theorem seg10_sub : (seg10 : List (HloOp τ sig (Elt F))).Forall fun op => op.bufs ⊆ tcRefs τ sig :=
  ⟨nullary_bufs_sub .., unary_bufs_sub .., binary_bufs_sub .., unary_bufs_sub .., reshape_bufs_sub .., binary_bufs_sub .., nullary_bufs_sub .., unary_bufs_sub .., binary_bufs_sub .., unary_bufs_sub .., reshape_bufs_sub .., binary_bufs_sub ..⟩
theorem seg11_sub : (seg11 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem seg12_sub : (seg12 : List (HloOp τ sig (Elt F))).Forall fun op => op.bufs ⊆ tcRefs τ sig :=
  ⟨nary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, ops_part0, ops_part1, ops_part2, List.mem_append] at h
    rcases h with (h | h | h | h) | (h | h | h | h | h | h) | (h | h | h)
    exacts [List.forall_iff_forall_mem.mp seg0_sub op h,
      List.forall_iff_forall_mem.mp seg1_sub op h,
      List.forall_iff_forall_mem.mp seg2_sub op h,
      List.forall_iff_forall_mem.mp seg3_sub op h,
      List.forall_iff_forall_mem.mp seg4_sub op h,
      List.forall_iff_forall_mem.mp seg5_sub op h,
      List.forall_iff_forall_mem.mp seg6_sub op h,
      List.forall_iff_forall_mem.mp seg7_sub op h,
      List.forall_iff_forall_mem.mp seg8_sub op h,
      List.forall_iff_forall_mem.mp seg9_sub op h,
      List.forall_iff_forall_mem.mp seg10_sub op h,
      List.forall_iff_forall_mem.mp seg11_sub op h,
      List.forall_iff_forall_mem.mp seg12_sub op h]

end Cert.ReferenceIdeal.RefRun

end
-- ==== Proof.RefTerm.lean ====
/-
  The reference's host program as pure terms of its five argument arrays, level by level.

  A point cloud of N = 1048576 points with 64 features each is pooled at four scales.  At a scale with
  `S` cells every point `n` has a cell number `seg n`; the scale's pooled features are, per cell and
  feature, the SUM of the features of the points of that cell divided by `max (number of those points) 1`
  (a mean; an empty cell keeps 0), and every point then reads back the row of its own cell (a negative cell
  number counted from the end of the table).  Scale 0 has the 4 cells of the batch index; scale `k` in
  {2, 4, 8} has the cells `((b·s + ⌊x/k⌋)·s + ⌊y/k⌋)·s + ⌊z/k⌋` with `s = 128/k`.  The four pooled
  [N,64] arrays are set side by side into [N,256], multiplied by `Wᵀ` ([256,96]) and the bias is added.
-/
import proofs.«109526_j73418170958019_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The contents of a buffer of shape `s` and element type `e`. -/
abbrev Ty (F : FTy → Type) [FloatOps F] (s : Shape) (e : EltTy) := (⟨s, e⟩ : BufTy).Contents (Elt F)

/-- Every coordinate divided by the scalar `k`, rounded toward −∞: the truncating quotient, less one where
    dividend and divisor differ in sign and the remainder is not zero. -/
def floorDiv (k : Ty F S_ .i32) (a1 : Ty F S1048576x3 .i32) : Ty F S1048576x3 .i32 :=
  select
    (andi (cmpi .ne (signi a1) (broadcastInDim S1048576x3 ![] bcast_S_S1048576x3 (signi k)))
      (cmpi .ne (Host.remsi a1 (broadcastInDim S1048576x3 ![] bcast_S_S1048576x3 k))
        (broadcastInDim S1048576x3 ![] bcast_S_S1048576x3 (constantI S_ 32 0#32))))
    (subi (Host.divsi a1 (broadcastInDim S1048576x3 ![] bcast_S_S1048576x3 k))
      (broadcastInDim S1048576x3 ![] bcast_S_S1048576x3 (constantI S_ 32 1#32)))
    (Host.divsi a1 (broadcastInDim S1048576x3 ![] bcast_S_S1048576x3 k))

/-- Column `0`, `1` or `2` of the pooled coordinates, as a vector over the points. -/
def col0 (q : Ty F S1048576x3 .i32) : Ty F S1048576 .i32 :=
  shapeCast S1048576 (extractStridedSlice S1048576x1 ![0, 0] q slices_S1048576x3_S1048576x1_0_0) shapeCasts_S1048576x1_S1048576
def col1 (q : Ty F S1048576x3 .i32) : Ty F S1048576 .i32 :=
  shapeCast S1048576 (extractStridedSlice S1048576x1 ![0, 1] q slices_S1048576x3_S1048576x1_0_1) shapeCasts_S1048576x1_S1048576
def col2 (q : Ty F S1048576x3 .i32) : Ty F S1048576 .i32 :=
  shapeCast S1048576 (extractStridedSlice S1048576x1 ![0, 2] q slices_S1048576x3_S1048576x1_0_2) shapeCasts_S1048576x1_S1048576

/-- The scalar `s` at every point. -/
def splat (s : BitVec 32) : Ty F S1048576 .i32 := broadcastInDim S1048576 ![] bcast_S_S1048576 (constantI S_ 32 s : Ty F S_ .i32)

/-- The cell number `((b·s + q₀)·s + q₁)·s + q₂` of every point, from the batch index `b` and the pooled
    coordinates `q`. -/
def cellId (s : BitVec 32) (q : Ty F S1048576x3 .i32) (a2 : Ty F S1048576 .i32) : Ty F S1048576 .i32 :=
  addi (muli (addi (muli (addi (muli a2 (splat (F := F) s)) (col0 q)) (splat (F := F) s)) (col1 q)) (splat (F := F) s)) (col2 q)

/-- The cell numbers as the one-column index table the scatter reads. -/
def asColumn (sg : Ty F S1048576 .i32) : Ty F S1048576x1 .i32 :=
  broadcastInDim S1048576x1 ![0] bcast_S1048576_S1048576x1_0 sg

/-- The cell numbers as the gather reads them: a negative one counted from the end of a table of `n` rows. -/
def wrapped (n : BitVec 32) (sg : Ty F S1048576 .i32) : Ty F S1048576x1 .i32 :=
  asColumn (select (cmpi .slt sg (splat (F := F) 0#32)) (addi sg (splat (F := F) n)) sg)

/-- The constant 1 at every point, one column: what each point adds to its cell's count. -/
def onesCol : Ty F S1048576x1 .f32 := broadcastInDim S1048576x1 ![] bcast_S_S1048576x1 (constant S_ .f32 0x3F800000#32)

/-- Scale 0 (the 4 cells of the batch index): per-cell means, read back by every point. -/
def pooled4 (a0 : Ty F S1048576x64 .f32) (sg : Ty F S1048576 .i32) : Ty F S1048576x64 .f32 :=
  Host.gather gather_S4x64_S1048576x1_S1048576x64_1_0_n_n_0_1_164
    (Host.divf
      (Host.scatterAdd scatter_S4x64_S1048576x1_S1048576x64_1_0_0_1
        (broadcastInDim S4x64 ![] bcast_S_S4x64 (constant S_ .f32 0x00000000#32)) (asColumn sg) a0)
      (broadcastInDim S4x64 ![0, 1] bcast_S4x1_S4x64_0_1
        (maximumf
          (Host.scatterAdd scatter_S4x1_S1048576x1_S1048576x1_1_0_0_1
            (broadcastInDim S4x1 ![] bcast_S_S4x1 (constant S_ .f32 0x00000000#32)) (asColumn sg) onesCol)
          (broadcastInDim S4x1 ![] bcast_S_S4x1 (constant S_ .f32 0x3F800000#32)))))
    (wrapped 4#32 sg)

/-- The scale of 1048576 cells (`k = 2`): per-cell means, read back by every point. -/
def pooled1048576 (a0 : Ty F S1048576x64 .f32) (sg : Ty F S1048576 .i32) : Ty F S1048576x64 .f32 :=
  Host.gather gather_S1048576x64_S1048576x1_S1048576x64_1_0_n_n_0_1_164
    (Host.divf
      (Host.scatterAdd scatter_S1048576x64_S1048576x1_S1048576x64_1_0_0_1
        (broadcastInDim S1048576x64 ![] bcast_S_S1048576x64 (constant S_ .f32 0x00000000#32)) (asColumn sg) a0)
      (broadcastInDim S1048576x64 ![0, 1] bcast_S1048576x1_S1048576x64_0_1
        (maximumf
          (Host.scatterAdd scatter_S1048576x1_S1048576x1_S1048576x1_1_0_0_1
            (broadcastInDim S1048576x1 ![] bcast_S_S1048576x1 (constant S_ .f32 0x00000000#32)) (asColumn sg) onesCol)
          (broadcastInDim S1048576x1 ![] bcast_S_S1048576x1 (constant S_ .f32 0x3F800000#32)))))
    (wrapped 1048576#32 sg)

/-- The scale of 131072 cells (`k = 4`): per-cell means, read back by every point. -/
def pooled131072 (a0 : Ty F S1048576x64 .f32) (sg : Ty F S1048576 .i32) : Ty F S1048576x64 .f32 :=
  Host.gather gather_S131072x64_S1048576x1_S1048576x64_1_0_n_n_0_1_164
    (Host.divf
      (Host.scatterAdd scatter_S131072x64_S1048576x1_S1048576x64_1_0_0_1
        (broadcastInDim S131072x64 ![] bcast_S_S131072x64 (constant S_ .f32 0x00000000#32)) (asColumn sg) a0)
      (broadcastInDim S131072x64 ![0, 1] bcast_S131072x1_S131072x64_0_1
        (maximumf
          (Host.scatterAdd scatter_S131072x1_S1048576x1_S1048576x1_1_0_0_1
            (broadcastInDim S131072x1 ![] bcast_S_S131072x1 (constant S_ .f32 0x00000000#32)) (asColumn sg) onesCol)
          (broadcastInDim S131072x1 ![] bcast_S_S131072x1 (constant S_ .f32 0x3F800000#32)))))
    (wrapped 131072#32 sg)

/-- The scale of 16384 cells (`k = 8`): per-cell means, read back by every point. -/
def pooled16384 (a0 : Ty F S1048576x64 .f32) (sg : Ty F S1048576 .i32) : Ty F S1048576x64 .f32 :=
  Host.gather gather_S16384x64_S1048576x1_S1048576x64_1_0_n_n_0_1_164
    (Host.divf
      (Host.scatterAdd scatter_S16384x64_S1048576x1_S1048576x64_1_0_0_1
        (broadcastInDim S16384x64 ![] bcast_S_S16384x64 (constant S_ .f32 0x00000000#32)) (asColumn sg) a0)
      (broadcastInDim S16384x64 ![0, 1] bcast_S16384x1_S16384x64_0_1
        (maximumf
          (Host.scatterAdd scatter_S16384x1_S1048576x1_S1048576x1_1_0_0_1
            (broadcastInDim S16384x1 ![] bcast_S_S16384x1 (constant S_ .f32 0x00000000#32)) (asColumn sg) onesCol)
          (broadcastInDim S16384x1 ![] bcast_S_S16384x1 (constant S_ .f32 0x3F800000#32)))))
    (wrapped 16384#32 sg)

/-- The linear layer: the four pooled arrays side by side, times `Wᵀ`, plus the bias on every row. -/
def linear (p0 p1 p2 p3 : Ty F S1048576x64 .f32) (a3 : Ty F S96x256 .f32) (a4 : Ty F S96 .f32) : Ty F S1048576x96 .f32 :=
  addf
    (Host.dotGeneral dot_S1048576x256_S256x96_S1048576x96_1_0_0_1_n_n none
      (concatenate S1048576x256 1 [⟨S1048576x64, p0⟩, ⟨S1048576x64, p1⟩, ⟨S1048576x64, p2⟩, ⟨S1048576x64, p3⟩]
        concatenates_S1048576x64_S1048576x64_S1048576x64_S1048576x64_S1048576x256_d1)
      (transpose S256x96 [1, 0] a3 transposes_S96x256_S256x96_1_0))
    (broadcastInDim S1048576x96 ![0, 1] bcast_S1x96_S1048576x96_0_1 (broadcastInDim S1x96 ![1] bcast_S96_S1x96_1 a4))

/-- The cell numbers of the three pyramid scales. -/
def cells2 (a1 : Ty F S1048576x3 .i32) (a2 : Ty F S1048576 .i32) : Ty F S1048576 .i32 :=
  cellId 64#32 (floorDiv (constantI S_ 32 2#32) a1) a2
def cells4 (a1 : Ty F S1048576x3 .i32) (a2 : Ty F S1048576 .i32) : Ty F S1048576 .i32 :=
  cellId 32#32 (floorDiv (constantI S_ 32 4#32) a1) a2
def cells8 (a1 : Ty F S1048576x3 .i32) (a2 : Ty F S1048576 .i32) : Ty F S1048576 .i32 :=
  cellId 16#32 (floorDiv (constantI S_ 32 8#32) a1) a2

/-- The reference's result as one term of its five arguments. -/
def out (a0 : Ty F S1048576x64 .f32) (a1 : Ty F S1048576x3 .i32) (a2 : Ty F S1048576 .i32) (a3 : Ty F S96x256 .f32)
    (a4 : Ty F S96 .f32) : Ty F S1048576x96 .f32 :=
  linear (pooled4 a0 a2) (pooled1048576 a0 (cells2 a1 a2)) (pooled131072 a0 (cells4 a1 a2)) (pooled16384 a0 (cells8 a1 a2)) a3 a4

end Cert.ReferenceIdeal.RefTerm

end
-- ==== Proof.RefWin.lean ====
/-
  The reference's operations read window by window.

  The 210 operations of @main (the list `ops`) are read in eleven windows, each window one step of the
  computation: a pooling scale, a call of @floor_divide, or the arithmetic of one scale's cell numbers.  `valK V0`
  is what the device's buffers hold after the first K windows from contents `V0`.  For every buffer that a later
  window still reads there is a lemma giving it as a term of the five arguments' contents (the terms of
  `RefTerm`): a buffer the window writes by unrolling the window's operations, each operation's result at its own
  buffer being its function's value at its operands; a buffer the window does not write because no operation of the
  window has it as a result.  This module reads the first ten windows, up to the four pooled arrays.
-/
import proofs.«109526_j73418170958019_2_alg».proof.Proof.RefOps
import proofs.«109526_j73418170958019_2_alg».proof.Proof.RefTerm

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each segment writes -/

/-- The buffers that `seg0`'s operations write. -/
abbrev seg0_W : List (Ref sig .tc) := [main_cst, main_v0, main_v1, main_v2, main_cst_0, main_v3, main_cst_1, main_v4, main_v5, main_v6, main_cst_2, main_v7, main_v8, main_v9, main_v10, main_c, main_v11, main_v12, main_c_3, main_v13, main_v14, main_v15, main_v16, main_v17, main_c_4]
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg0` does not write keeps its contents through it. -/
theorem seg0_keep (V : Valuation τ sig (Elt F)) (r : Ref sig .tc) (h : r ∉ seg0_W) :
    after seg0 V (Proc.devRef .tc r) = V (Proc.devRef .tc r) :=
  after_of_writes_sub seg0 V seg0_writes h

/-- The buffers that `seg1`'s operations write. -/
abbrev seg1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v18]
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg1` does not write keeps its contents through it. -/
theorem seg1_keep (V : Valuation τ sig (Elt F)) (r : Ref sig .tc) (h : r ∉ seg1_W) :
    after seg1 V (Proc.devRef .tc r) = V (Proc.devRef .tc r) :=
  after_of_writes_sub seg1 V seg1_writes h

/-- The buffers that `seg2`'s operations write. -/
abbrev seg2_W : List (Ref sig .tc) := [main_c_5, main_v19, main_v20, main_v21, main_v22, main_v23, main_c_6, main_v24, main_v25, main_v26, main_v27, main_v28, main_c_7, main_v29, main_v30, main_v31, main_v32, main_v33]
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg2` does not write keeps its contents through it. -/
theorem seg2_keep (V : Valuation τ sig (Elt F)) (r : Ref sig .tc) (h : r ∉ seg2_W) :
    after seg2 V (Proc.devRef .tc r) = V (Proc.devRef .tc r) :=
  after_of_writes_sub seg2 V seg2_writes h

/-- The buffers that `seg3`'s operations write. -/
abbrev seg3_W : List (Ref sig .tc) := [main_cst_8, main_v34, main_v35, main_v36, main_cst_9, main_v37, main_cst_10, main_v38, main_v39, main_v40, main_cst_11, main_v41, main_v42, main_v43, main_v44, main_c_12]
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg3` does not write keeps its contents through it. -/
theorem seg3_keep (V : Valuation τ sig (Elt F)) (r : Ref sig .tc) (h : r ∉ seg3_W) :
    after seg3 V (Proc.devRef .tc r) = V (Proc.devRef .tc r) :=
  after_of_writes_sub seg3 V seg3_writes h

/-- The buffers that `seg4`'s operations write. -/
abbrev seg4_W : List (Ref sig .tc) := [main_v45, main_v46, main_c_13, main_v47, main_v48, main_v49, main_v50, main_v51, main_c_14]
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg4` does not write keeps its contents through it. -/
theorem seg4_keep (V : Valuation τ sig (Elt F)) (r : Ref sig .tc) (h : r ∉ seg4_W) :
    after seg4 V (Proc.devRef .tc r) = V (Proc.devRef .tc r) :=
  after_of_writes_sub seg4 V seg4_writes h

/-- The buffers that `seg5`'s operations write. -/
abbrev seg5_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v52]
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg5` does not write keeps its contents through it. -/
theorem seg5_keep (V : Valuation τ sig (Elt F)) (r : Ref sig .tc) (h : r ∉ seg5_W) :
    after seg5 V (Proc.devRef .tc r) = V (Proc.devRef .tc r) :=
  after_of_writes_sub seg5 V seg5_writes h

/-- The buffers that `seg6`'s operations write. -/
abbrev seg6_W : List (Ref sig .tc) := [main_c_15, main_v53, main_v54, main_v55, main_v56, main_v57, main_c_16, main_v58, main_v59, main_v60, main_v61, main_v62, main_c_17, main_v63, main_v64, main_v65, main_v66, main_v67]
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg6` does not write keeps its contents through it. -/
theorem seg6_keep (V : Valuation τ sig (Elt F)) (r : Ref sig .tc) (h : r ∉ seg6_W) :
    after seg6 V (Proc.devRef .tc r) = V (Proc.devRef .tc r) :=
  after_of_writes_sub seg6 V seg6_writes h

/-- The buffers that `seg7`'s operations write. -/
abbrev seg7_W : List (Ref sig .tc) := [main_cst_18, main_v68, main_v69, main_v70, main_cst_19, main_v71, main_cst_20, main_v72, main_v73, main_v74, main_cst_21, main_v75, main_v76, main_v77, main_v78, main_c_22, main_v79, main_v80, main_c_23, main_v81, main_v82, main_v83, main_v84, main_v85, main_c_24]
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg7` does not write keeps its contents through it. -/
theorem seg7_keep (V : Valuation τ sig (Elt F)) (r : Ref sig .tc) (h : r ∉ seg7_W) :
    after seg7 V (Proc.devRef .tc r) = V (Proc.devRef .tc r) :=
  after_of_writes_sub seg7 V seg7_writes h

/-- The buffers that `seg8`'s operations write. -/
abbrev seg8_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v86]
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg8` does not write keeps its contents through it. -/
theorem seg8_keep (V : Valuation τ sig (Elt F)) (r : Ref sig .tc) (h : r ∉ seg8_W) :
    after seg8 V (Proc.devRef .tc r) = V (Proc.devRef .tc r) :=
  after_of_writes_sub seg8 V seg8_writes h

/-- The buffers that `seg9`'s operations write. -/
abbrev seg9_W : List (Ref sig .tc) := [main_c_25, main_v87, main_v88, main_v89, main_v90, main_v91]
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg9` does not write keeps its contents through it. -/
theorem seg9_keep (V : Valuation τ sig (Elt F)) (r : Ref sig .tc) (h : r ∉ seg9_W) :
    after seg9 V (Proc.devRef .tc r) = V (Proc.devRef .tc r) :=
  after_of_writes_sub seg9 V seg9_writes h

/-- The buffers that `seg10`'s operations write. -/
abbrev seg10_W : List (Ref sig .tc) := [main_c_26, main_v92, main_v93, main_v94, main_v95, main_v96, main_c_27, main_v97, main_v98, main_v99, main_v100, main_v101]
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg10` does not write keeps its contents through it. -/
theorem seg10_keep (V : Valuation τ sig (Elt F)) (r : Ref sig .tc) (h : r ∉ seg10_W) :
    after seg10 V (Proc.devRef .tc r) = V (Proc.devRef .tc r) :=
  after_of_writes_sub seg10 V seg10_writes h

/-- The buffers that `seg11`'s operations write. -/
abbrev seg11_W : List (Ref sig .tc) := [main_cst_28, main_v102, main_v103, main_v104, main_cst_29, main_v105, main_cst_30, main_v106, main_v107, main_v108, main_cst_31, main_v109, main_v110, main_v111, main_v112, main_c_32, main_v113, main_v114, main_c_33, main_v115, main_v116, main_v117, main_v118, main_v119]
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg11` does not write keeps its contents through it. -/
theorem seg11_keep (V : Valuation τ sig (Elt F)) (r : Ref sig .tc) (h : r ∉ seg11_W) :
    after seg11 V (Proc.devRef .tc r) = V (Proc.devRef .tc r) :=
  after_of_writes_sub seg11 V seg11_writes h

/-- The buffers that `seg12`'s operations write. -/
abbrev seg12_W : List (Ref sig .tc) := [main_v120, main_v121, main_v122, main_v123, main_v124, main_v125]
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `seg12` does not write keeps its contents through it. -/
theorem seg12_keep (V : Valuation τ sig (Elt F)) (r : Ref sig .tc) (h : r ∉ seg12_W) :
    after seg12 V (Proc.devRef .tc r) = V (Proc.devRef .tc r) :=
  after_of_writes_sub seg12 V seg12_writes h

/-! ## The contents window by window -/

/-- The device's buffer contents after the first 1 window (through scale 0 and the scalar 2). -/
def val1 (V0 : Valuation τ sig (Elt F)) : Valuation τ sig (Elt F) := after seg0 V0
/-- A buffer this window does not write keeps its contents through it. -/
theorem val1_keep (V0 : Valuation τ sig (Elt F)) (r : Ref sig .tc) (h0 : r ∉ seg0_W) :
    val1 V0 (Proc.devRef .tc r) = V0 (Proc.devRef .tc r) :=
  seg0_keep _ r h0
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
set_option maxRecDepth 8192 in
theorem val1_main_v17 (V0 : Valuation τ sig (Elt F)) : val1 V0 (no_index (Proc.devRef .tc main_v17)) = RefTerm.pooled4 (V0 (Proc.devRef .tc main_arg0)) (V0 (Proc.devRef .tc main_arg2)) := by
  unfold val1
  simp only [seg0]
  after_results_simp
  all_goals rfl
set_option maxRecDepth 8192 in
theorem val1_main_c_4 (V0 : Valuation τ sig (Elt F)) : val1 V0 (no_index (Proc.devRef .tc main_c_4)) = (constantI S_ 32 2#32 : RefTerm.Ty F S_ .i32) := by
  unfold val1
  simp only [seg0]
  after_results_simp
  all_goals rfl

/-- The device's buffer contents after the first 2 windows (through the first call of @floor_divide). -/
def val2 (V0 : Valuation τ sig (Elt F)) : Valuation τ sig (Elt F) := after seg1 (val1 V0)
/-- A buffer this window does not write keeps its contents through it. -/
theorem val2_keep (V0 : Valuation τ sig (Elt F)) (r : Ref sig .tc) (h1 : r ∉ seg1_W) :
    val2 V0 (Proc.devRef .tc r) = val1 V0 (Proc.devRef .tc r) :=
  seg1_keep _ r h1
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_v17 (V0 : Valuation τ sig (Elt F)) : val2 V0 (no_index (Proc.devRef .tc main_v17)) = RefTerm.pooled4 (V0 (Proc.devRef .tc main_arg0)) (V0 (Proc.devRef .tc main_arg2)) :=
  (val2_keep V0 main_v17 (by decide)).trans (val1_main_v17 V0)
set_option maxRecDepth 8192 in
theorem val2_main_v18 (V0 : Valuation τ sig (Elt F)) : val2 V0 (no_index (Proc.devRef .tc main_v18)) = RefTerm.floorDiv (constantI S_ 32 2#32) (V0 (Proc.devRef .tc main_arg1)) := by
  unfold val2
  simp only [seg1]
  after_results_simp
  simp only [val1_main_c_4, val1_main_arg1] <;> rfl

/-- The device's buffer contents after the first 3 windows (through the cell numbers of the scale of 1048576 cells). -/
def val3 (V0 : Valuation τ sig (Elt F)) : Valuation τ sig (Elt F) := after seg2 (val2 V0)
/-- A buffer this window does not write keeps its contents through it. -/
theorem val3_keep (V0 : Valuation τ sig (Elt F)) (r : Ref sig .tc) (h2 : r ∉ seg2_W) :
    val3 V0 (Proc.devRef .tc r) = val2 V0 (Proc.devRef .tc r) :=
  seg2_keep _ r h2
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_v17 (V0 : Valuation τ sig (Elt F)) : val3 V0 (no_index (Proc.devRef .tc main_v17)) = RefTerm.pooled4 (V0 (Proc.devRef .tc main_arg0)) (V0 (Proc.devRef .tc main_arg2)) :=
  (val3_keep V0 main_v17 (by decide)).trans (val2_main_v17 V0)
set_option maxRecDepth 8192 in
theorem val3_main_v33 (V0 : Valuation τ sig (Elt F)) : val3 V0 (no_index (Proc.devRef .tc main_v33)) = RefTerm.cells2 (V0 (Proc.devRef .tc main_arg1)) (V0 (Proc.devRef .tc main_arg2)) := by
  unfold val3
  simp only [seg2]
  after_results_simp
  simp only [val2_main_v18, val2_main_arg2] <;> rfl

/-- The device's buffer contents after the first 4 windows (through that scale's pooling and the scalar 4). -/
def val4 (V0 : Valuation τ sig (Elt F)) : Valuation τ sig (Elt F) := after seg4 (after seg3 (val3 V0))
/-- A buffer this window does not write keeps its contents through it. -/
theorem val4_keep (V0 : Valuation τ sig (Elt F)) (r : Ref sig .tc) (h3 : r ∉ seg3_W) (h4 : r ∉ seg4_W) :
    val4 V0 (Proc.devRef .tc r) = val3 V0 (Proc.devRef .tc r) :=
  (seg4_keep _ r h4).trans (seg3_keep _ r h3)
theorem val4_main_arg0 (V0 : Valuation τ sig (Elt F)) : val4 V0 (no_index (Proc.devRef .tc main_arg0)) = V0 (Proc.devRef .tc main_arg0) :=
  (val4_keep V0 main_arg0 (by decide) (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide) (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide) (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide) (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide) (by decide)).trans (val3_main_arg4 V0)
theorem val4_main_v17 (V0 : Valuation τ sig (Elt F)) : val4 V0 (no_index (Proc.devRef .tc main_v17)) = RefTerm.pooled4 (V0 (Proc.devRef .tc main_arg0)) (V0 (Proc.devRef .tc main_arg2)) :=
  (val4_keep V0 main_v17 (by decide) (by decide)).trans (val3_main_v17 V0)
set_option maxRecDepth 8192 in
theorem val4_main_v51 (V0 : Valuation τ sig (Elt F)) : val4 V0 (no_index (Proc.devRef .tc main_v51)) = RefTerm.pooled1048576 (V0 (Proc.devRef .tc main_arg0)) (RefTerm.cells2 (V0 (Proc.devRef .tc main_arg1)) (V0 (Proc.devRef .tc main_arg2))) := by
  unfold val4
  simp only [seg3, seg4]
  after_results_simp
  simp only [val3_main_v33, val3_main_arg0] <;> rfl
set_option maxRecDepth 8192 in
theorem val4_main_c_14 (V0 : Valuation τ sig (Elt F)) : val4 V0 (no_index (Proc.devRef .tc main_c_14)) = (constantI S_ 32 4#32 : RefTerm.Ty F S_ .i32) := by
  unfold val4
  simp only [seg3, seg4]
  after_results_simp
  all_goals rfl

/-- The device's buffer contents after the first 5 windows (through the second call of @floor_divide). -/
def val5 (V0 : Valuation τ sig (Elt F)) : Valuation τ sig (Elt F) := after seg5 (val4 V0)
/-- A buffer this window does not write keeps its contents through it. -/
theorem val5_keep (V0 : Valuation τ sig (Elt F)) (r : Ref sig .tc) (h5 : r ∉ seg5_W) :
    val5 V0 (Proc.devRef .tc r) = val4 V0 (Proc.devRef .tc r) :=
  seg5_keep _ r h5
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_v17 (V0 : Valuation τ sig (Elt F)) : val5 V0 (no_index (Proc.devRef .tc main_v17)) = RefTerm.pooled4 (V0 (Proc.devRef .tc main_arg0)) (V0 (Proc.devRef .tc main_arg2)) :=
  (val5_keep V0 main_v17 (by decide)).trans (val4_main_v17 V0)
theorem val5_main_v51 (V0 : Valuation τ sig (Elt F)) : val5 V0 (no_index (Proc.devRef .tc main_v51)) = RefTerm.pooled1048576 (V0 (Proc.devRef .tc main_arg0)) (RefTerm.cells2 (V0 (Proc.devRef .tc main_arg1)) (V0 (Proc.devRef .tc main_arg2))) :=
  (val5_keep V0 main_v51 (by decide)).trans (val4_main_v51 V0)
set_option maxRecDepth 8192 in
theorem val5_main_v52 (V0 : Valuation τ sig (Elt F)) : val5 V0 (no_index (Proc.devRef .tc main_v52)) = RefTerm.floorDiv (constantI S_ 32 4#32) (V0 (Proc.devRef .tc main_arg1)) := by
  unfold val5
  simp only [seg5]
  after_results_simp
  simp only [val4_main_c_14, val4_main_arg1] <;> rfl

/-- The device's buffer contents after the first 6 windows (through the cell numbers of the scale of 131072 cells). -/
def val6 (V0 : Valuation τ sig (Elt F)) : Valuation τ sig (Elt F) := after seg6 (val5 V0)
/-- A buffer this window does not write keeps its contents through it. -/
theorem val6_keep (V0 : Valuation τ sig (Elt F)) (r : Ref sig .tc) (h6 : r ∉ seg6_W) :
    val6 V0 (Proc.devRef .tc r) = val5 V0 (Proc.devRef .tc r) :=
  seg6_keep _ r h6
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_v17 (V0 : Valuation τ sig (Elt F)) : val6 V0 (no_index (Proc.devRef .tc main_v17)) = RefTerm.pooled4 (V0 (Proc.devRef .tc main_arg0)) (V0 (Proc.devRef .tc main_arg2)) :=
  (val6_keep V0 main_v17 (by decide)).trans (val5_main_v17 V0)
theorem val6_main_v51 (V0 : Valuation τ sig (Elt F)) : val6 V0 (no_index (Proc.devRef .tc main_v51)) = RefTerm.pooled1048576 (V0 (Proc.devRef .tc main_arg0)) (RefTerm.cells2 (V0 (Proc.devRef .tc main_arg1)) (V0 (Proc.devRef .tc main_arg2))) :=
  (val6_keep V0 main_v51 (by decide)).trans (val5_main_v51 V0)
set_option maxRecDepth 8192 in
theorem val6_main_v67 (V0 : Valuation τ sig (Elt F)) : val6 V0 (no_index (Proc.devRef .tc main_v67)) = RefTerm.cells4 (V0 (Proc.devRef .tc main_arg1)) (V0 (Proc.devRef .tc main_arg2)) := by
  unfold val6
  simp only [seg6]
  after_results_simp
  simp only [val5_main_v52, val5_main_arg2] <;> rfl

/-- The device's buffer contents after the first 7 windows (through that scale's pooling and the scalar 8). -/
def val7 (V0 : Valuation τ sig (Elt F)) : Valuation τ sig (Elt F) := after seg7 (val6 V0)
/-- A buffer this window does not write keeps its contents through it. -/
theorem val7_keep (V0 : Valuation τ sig (Elt F)) (r : Ref sig .tc) (h7 : r ∉ seg7_W) :
    val7 V0 (Proc.devRef .tc r) = val6 V0 (Proc.devRef .tc r) :=
  seg7_keep _ r h7
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_v17 (V0 : Valuation τ sig (Elt F)) : val7 V0 (no_index (Proc.devRef .tc main_v17)) = RefTerm.pooled4 (V0 (Proc.devRef .tc main_arg0)) (V0 (Proc.devRef .tc main_arg2)) :=
  (val7_keep V0 main_v17 (by decide)).trans (val6_main_v17 V0)
theorem val7_main_v51 (V0 : Valuation τ sig (Elt F)) : val7 V0 (no_index (Proc.devRef .tc main_v51)) = RefTerm.pooled1048576 (V0 (Proc.devRef .tc main_arg0)) (RefTerm.cells2 (V0 (Proc.devRef .tc main_arg1)) (V0 (Proc.devRef .tc main_arg2))) :=
  (val7_keep V0 main_v51 (by decide)).trans (val6_main_v51 V0)
set_option maxRecDepth 8192 in
theorem val7_main_v85 (V0 : Valuation τ sig (Elt F)) : val7 V0 (no_index (Proc.devRef .tc main_v85)) = RefTerm.pooled131072 (V0 (Proc.devRef .tc main_arg0)) (RefTerm.cells4 (V0 (Proc.devRef .tc main_arg1)) (V0 (Proc.devRef .tc main_arg2))) := by
  unfold val7
  simp only [seg7]
  after_results_simp
  simp only [val6_main_v67, val6_main_arg0] <;> rfl
set_option maxRecDepth 8192 in
theorem val7_main_c_24 (V0 : Valuation τ sig (Elt F)) : val7 V0 (no_index (Proc.devRef .tc main_c_24)) = (constantI S_ 32 8#32 : RefTerm.Ty F S_ .i32) := by
  unfold val7
  simp only [seg7]
  after_results_simp
  all_goals rfl

/-- The device's buffer contents after the first 8 windows (through the third call of @floor_divide). -/
def val8 (V0 : Valuation τ sig (Elt F)) : Valuation τ sig (Elt F) := after seg8 (val7 V0)
/-- A buffer this window does not write keeps its contents through it. -/
theorem val8_keep (V0 : Valuation τ sig (Elt F)) (r : Ref sig .tc) (h8 : r ∉ seg8_W) :
    val8 V0 (Proc.devRef .tc r) = val7 V0 (Proc.devRef .tc r) :=
  seg8_keep _ r h8
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_v17 (V0 : Valuation τ sig (Elt F)) : val8 V0 (no_index (Proc.devRef .tc main_v17)) = RefTerm.pooled4 (V0 (Proc.devRef .tc main_arg0)) (V0 (Proc.devRef .tc main_arg2)) :=
  (val8_keep V0 main_v17 (by decide)).trans (val7_main_v17 V0)
theorem val8_main_v51 (V0 : Valuation τ sig (Elt F)) : val8 V0 (no_index (Proc.devRef .tc main_v51)) = RefTerm.pooled1048576 (V0 (Proc.devRef .tc main_arg0)) (RefTerm.cells2 (V0 (Proc.devRef .tc main_arg1)) (V0 (Proc.devRef .tc main_arg2))) :=
  (val8_keep V0 main_v51 (by decide)).trans (val7_main_v51 V0)
theorem val8_main_v85 (V0 : Valuation τ sig (Elt F)) : val8 V0 (no_index (Proc.devRef .tc main_v85)) = RefTerm.pooled131072 (V0 (Proc.devRef .tc main_arg0)) (RefTerm.cells4 (V0 (Proc.devRef .tc main_arg1)) (V0 (Proc.devRef .tc main_arg2))) :=
  (val8_keep V0 main_v85 (by decide)).trans (val7_main_v85 V0)
set_option maxRecDepth 8192 in
theorem val8_main_v86 (V0 : Valuation τ sig (Elt F)) : val8 V0 (no_index (Proc.devRef .tc main_v86)) = RefTerm.floorDiv (constantI S_ 32 8#32) (V0 (Proc.devRef .tc main_arg1)) := by
  unfold val8
  simp only [seg8]
  after_results_simp
  simp only [val7_main_c_24, val7_main_arg1] <;> rfl

/-- The device's buffer contents after the first 9 windows (through the cell numbers of the scale of 16384 cells). -/
def val9 (V0 : Valuation τ sig (Elt F)) : Valuation τ sig (Elt F) := after seg10 (after seg9 (val8 V0))
/-- A buffer this window does not write keeps its contents through it. -/
theorem val9_keep (V0 : Valuation τ sig (Elt F)) (r : Ref sig .tc) (h9 : r ∉ seg9_W) (h10 : r ∉ seg10_W) :
    val9 V0 (Proc.devRef .tc r) = val8 V0 (Proc.devRef .tc r) :=
  (seg10_keep _ r h10).trans (seg9_keep _ r h9)
theorem val9_main_arg0 (V0 : Valuation τ sig (Elt F)) : val9 V0 (no_index (Proc.devRef .tc main_arg0)) = V0 (Proc.devRef .tc main_arg0) :=
  (val9_keep V0 main_arg0 (by decide) (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide) (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide) (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide) (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide) (by decide)).trans (val8_main_arg4 V0)
theorem val9_main_v17 (V0 : Valuation τ sig (Elt F)) : val9 V0 (no_index (Proc.devRef .tc main_v17)) = RefTerm.pooled4 (V0 (Proc.devRef .tc main_arg0)) (V0 (Proc.devRef .tc main_arg2)) :=
  (val9_keep V0 main_v17 (by decide) (by decide)).trans (val8_main_v17 V0)
theorem val9_main_v51 (V0 : Valuation τ sig (Elt F)) : val9 V0 (no_index (Proc.devRef .tc main_v51)) = RefTerm.pooled1048576 (V0 (Proc.devRef .tc main_arg0)) (RefTerm.cells2 (V0 (Proc.devRef .tc main_arg1)) (V0 (Proc.devRef .tc main_arg2))) :=
  (val9_keep V0 main_v51 (by decide) (by decide)).trans (val8_main_v51 V0)
theorem val9_main_v85 (V0 : Valuation τ sig (Elt F)) : val9 V0 (no_index (Proc.devRef .tc main_v85)) = RefTerm.pooled131072 (V0 (Proc.devRef .tc main_arg0)) (RefTerm.cells4 (V0 (Proc.devRef .tc main_arg1)) (V0 (Proc.devRef .tc main_arg2))) :=
  (val9_keep V0 main_v85 (by decide) (by decide)).trans (val8_main_v85 V0)
set_option maxRecDepth 8192 in
theorem val9_main_v101 (V0 : Valuation τ sig (Elt F)) : val9 V0 (no_index (Proc.devRef .tc main_v101)) = RefTerm.cells8 (V0 (Proc.devRef .tc main_arg1)) (V0 (Proc.devRef .tc main_arg2)) := by
  unfold val9
  simp only [seg9, seg10]
  after_results_simp
  simp only [val8_main_v86, val8_main_arg2] <;> rfl

/-- The device's buffer contents after the first 10 windows (through that scale's pooling). -/
def val10 (V0 : Valuation τ sig (Elt F)) : Valuation τ sig (Elt F) := after seg11 (val9 V0)
/-- A buffer this window does not write keeps its contents through it. -/
theorem val10_keep (V0 : Valuation τ sig (Elt F)) (r : Ref sig .tc) (h11 : r ∉ seg11_W) :
    val10 V0 (Proc.devRef .tc r) = val9 V0 (Proc.devRef .tc r) :=
  seg11_keep _ r h11
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_v17 (V0 : Valuation τ sig (Elt F)) : val10 V0 (no_index (Proc.devRef .tc main_v17)) = RefTerm.pooled4 (V0 (Proc.devRef .tc main_arg0)) (V0 (Proc.devRef .tc main_arg2)) :=
  (val10_keep V0 main_v17 (by decide)).trans (val9_main_v17 V0)
theorem val10_main_v51 (V0 : Valuation τ sig (Elt F)) : val10 V0 (no_index (Proc.devRef .tc main_v51)) = RefTerm.pooled1048576 (V0 (Proc.devRef .tc main_arg0)) (RefTerm.cells2 (V0 (Proc.devRef .tc main_arg1)) (V0 (Proc.devRef .tc main_arg2))) :=
  (val10_keep V0 main_v51 (by decide)).trans (val9_main_v51 V0)
theorem val10_main_v85 (V0 : Valuation τ sig (Elt F)) : val10 V0 (no_index (Proc.devRef .tc main_v85)) = RefTerm.pooled131072 (V0 (Proc.devRef .tc main_arg0)) (RefTerm.cells4 (V0 (Proc.devRef .tc main_arg1)) (V0 (Proc.devRef .tc main_arg2))) :=
  (val10_keep V0 main_v85 (by decide)).trans (val9_main_v85 V0)
set_option maxRecDepth 8192 in
theorem val10_main_v119 (V0 : Valuation τ sig (Elt F)) : val10 V0 (no_index (Proc.devRef .tc main_v119)) = RefTerm.pooled16384 (V0 (Proc.devRef .tc main_arg0)) (RefTerm.cells8 (V0 (Proc.devRef .tc main_arg1)) (V0 (Proc.devRef .tc main_arg2))) := by
  unfold val10
  simp only [seg11]
  after_results_simp
  simp only [val9_main_v101, val9_main_arg0] <;> rfl

end Cert.ReferenceIdeal.RefRun

end
-- ==== Proof.RefRun.lean ====
/-
  The reference's run, read back.

  After the ten windows read in `RefWin` the four pooled arrays hold `RefTerm.pooled…` of the arguments.  The last
  window sets them side by side, multiplies by the transposed weights and adds the bias: the result buffer then
  holds `RefTerm.out` of the arguments, and the arguments hold what they held.  `run` states this for every weakly
  fair execution of @main on every device.
-/
import proofs.«109526_j73418170958019_2_alg».proof.Proof.RefWin

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 11 windows (through the linear layer). -/
def val11 (V0 : Valuation τ sig (Elt F)) : Valuation τ sig (Elt F) := after seg12 (val10 V0)
/-- A buffer this window does not write keeps its contents through it. -/
theorem val11_keep (V0 : Valuation τ sig (Elt F)) (r : Ref sig .tc) (h12 : r ∉ seg12_W) :
    val11 V0 (Proc.devRef .tc r) = val10 V0 (Proc.devRef .tc r) :=
  seg12_keep _ r h12
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
-- the pooled arrays and the concatenation stay folded: the equation only reads the operands of the concatenation
-- at their literal positions, and never looks inside them
attribute [local irreducible] RefTerm.pooled4 RefTerm.pooled1048576 RefTerm.pooled131072 RefTerm.pooled16384 concatenate in
set_option maxRecDepth 8192 in
theorem val11_main_v125 (V0 : Valuation τ sig (Elt F)) : val11 V0 (no_index (Proc.devRef .tc main_v125)) = RefTerm.out (V0 (Proc.devRef .tc main_arg0)) (V0 (Proc.devRef .tc main_arg1)) (V0 (Proc.devRef .tc main_arg2)) (V0 (Proc.devRef .tc main_arg3)) (V0 (Proc.devRef .tc main_arg4)) := by
  unfold val11
  simp only [seg12]
  after_results_simp
  dsimp only [Matrix.cons_val]
  rw [val10_main_v17, val10_main_v51, val10_main_v85, val10_main_v119, val10_main_arg3, val10_main_arg4]
  rfl

/-- The whole list read window by window. -/
theorem after_ops (V0 : Valuation τ sig (Elt F)) : after ops V0 = val11 V0 := by
  simp only [ops, ops_part0, ops_part1, ops_part2, after_append]
  rfl

/-- On every device, for any float values, from any memory with zero counters: every weakly fair execution of
    @main terminates with the result buffer at `RefTerm.out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v125).trans (by simp only [after_ops]; exact val11_main_v125 (launchContents m c)),
      (h c main_arg0).trans (by simp only [after_ops]; exact val11_main_arg0 (launchContents m c)),
      (h c main_arg1).trans (by simp only [after_ops]; exact val11_main_arg1 (launchContents m c)),
      (h c main_arg2).trans (by simp only [after_ops]; exact val11_main_arg2 (launchContents m c)),
      (h c main_arg3).trans (by simp only [after_ops]; exact val11_main_arg3 (launchContents m c)),
      (h c main_arg4).trans (by simp only [after_ops]; exact val11_main_arg4 (launchContents m c))⟩)
    (run_seq scopedRefs_eq scopedSems_eq defs main (fun _ => ops) main_eq (fun _ => ops_sub) m ρ)

end Cert.ReferenceIdeal.RefRun

end
-- ==== Proof.LibScatterSet.lean ====
/-
  A scatter whose body returns the update ("set"), read at one index.

  `Host.scatter d f x idx upd` is a left fold over the update positions in row-major order.  Each
  step takes the array built so far and, when the update position lands inside the operand, replaces
  the element at the landing index by `f` of the old element and the update.  When `f` returns the
  update, the element at a fixed index `i` only ever changes by being overwritten: its history is
  a fold over SCALARS, which keeps the last update that landed on `i`.  Two such scatters therefore
  agree at a pair of indices as soon as they start equal there, every update position lands on the
  one index exactly when it lands on the other, and the values written by the positions that land
  agree — whatever the two operand shapes, dimension numbers and index tables are.
-/
import Idealize.ShloMosaic.PureOps.ShapeOps

namespace Cert.LibScatterSet

open Idealize.ShloMosaic

/-- An update position lands on the index `i` exactly when, on every operand axis, its start plus
    its window coordinate is `i`'s coordinate.  The in-range test the scatter makes before writing
    is then automatic, `i` being an index of the operand; conversely a position that fails the
    test lands nowhere. -/
theorem resultIdx?_eq_some_iff {s si u : Shape} {w : Nat} (d : ScatterDims s si u)
    (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hin
      have hv := congrArg Fin.val (congrFun (Option.some.inj h) a)
      simp only at hv
      have := hin a
      omega
    · cases h
  · intro hall
    have hin : ∀ a, 0 ≤ d.start j idx a + d.window j a ∧ d.start j idx a + d.window j a < s.size a := by
      intro a; have := hall a; have := (i a).isLt; omega
    rw [dif_pos hin]
    congr 1; funext a; apply Fin.ext; simp only; have := hall a; omega

/-- One step of a set-scatter, read at the index `i`: the array after the step holds at `i` the
    update's value when the update position `j` lands on `i`, and the old element otherwise
    (the update landed elsewhere, or outside the operand and was dropped). -/
theorem step_apply {α : Type} {s si u : Shape} {w : Nat} (d : ScatterDims s si u)
    (idx : IVec si w) (upd : u.Idx → α) (r : s.Idx → α) (j : u.Idx) (i : s.Idx) :
    (match d.resultIdx? j idx with
      | some k => fun i' => if i' = k then (fun (_ b : α) => b) (r k) (upd j) else r i'
      | none => r) i
      = if d.resultIdx? j idx = some i then upd j else r i := by
  cases hk : d.resultIdx? j idx with
  | none => simp
  | some k =>
    by_cases hik : i = k
    · subst hik; simp
    · have hne : ¬ (some k = some i) := fun h => hik (Option.some.inj h).symm
      simp [hik, hne]

/-- The array fold of a set-scatter over ANY list of flat update positions, read at `i`, is the
    scalar fold over the same list started from the element at `i`: by induction on the list, the
    starting array generalized, each step rewritten by `step_apply`. -/
theorem foldl_set_apply {α : Type} {s si u : Shape} {w : Nat} (d : ScatterDims s si u)
    (idx : IVec si w) (upd : u.Idx → α) (i : s.Idx) (l : List (Fin u.numel)) (x : s.Idx → α) :
    l.foldl (fun r n =>
        match d.resultIdx? (u.rowMajor.symm n) idx with
        | some k => fun i' => if i' = k then (fun (_ b : α) => b) (r k) (upd (u.rowMajor.symm n)) else r i'
        | none => r) x i
      = l.foldl (fun a n =>
          if d.resultIdx? (u.rowMajor.symm n) idx = some i then upd (u.rowMajor.symm n) else a) (x i) := by
  induction l generalizing x with
  | nil => rfl
  | cons n l ih =>
    rw [List.foldl_cons, List.foldl_cons, ih, step_apply]

/-- A set-scatter read at one index `i` is a scalar left fold over the update positions in
    row-major order: start from the operand's element at `i`; an update position that lands on `i`
    overwrites the running value with its update, any other leaves it. -/
theorem scatter_set_apply {α : Type} {s si u : Shape} {w : Nat} (d : ScatterDims s si u)
    (x : s.Idx → α) (idx : IVec si w) (upd : u.Idx → α) (i : s.Idx) :
    Host.scatter d (fun _ b => b) x idx upd i
      = (List.finRange u.numel).foldl (fun a n =>
          if d.resultIdx? (u.rowMajor.symm n) idx = some i then upd (u.rowMajor.symm n) else a) (x i) := by
  unfold Host.scatter
  exact foldl_set_apply d idx upd i _ x

/-- Two scalar "keep the last hit" folds over the same list agree when they start equal, hit at
    the same positions, and write equal values where they hit. -/
theorem foldl_hit_congr {α ι : Type} (l : List ι) (P Q : ι → Prop) [DecidablePred P] [DecidablePred Q]
    (f g : ι → α) (hPQ : ∀ n, P n ↔ Q n) (hfg : ∀ n, P n → f n = g n) (a b : α) (hab : a = b) :
    l.foldl (fun a n => if P n then f n else a) a = l.foldl (fun b n => if Q n then g n else b) b := by
  induction l generalizing a b with
  | nil => exact hab
  | cons n l ih =>
    rw [List.foldl_cons, List.foldl_cons]
    apply ih
    by_cases hp : P n
    · rw [if_pos hp, if_pos ((hPQ n).1 hp)]; exact hfg n hp
    · rw [if_neg hp, if_neg (fun hq => hp ((hPQ n).2 hq))]; exact hab

/-- Two set-scatters with the same update shape — operand shapes, dimension numbers, index tables
    and update tables possibly different — agree at the indices `i` and `i'` when the operands agree
    there, every update position lands on `i` in the first exactly when it lands on `i'` in the
    second, and the updates that land carry equal values. -/
theorem scatter_set_congr {α : Type} {s s' si si' u : Shape} {w w' : Nat}
    (d : ScatterDims s si u) (d' : ScatterDims s' si' u)
    (x : s.Idx → α) (x' : s'.Idx → α) (idx : IVec si w) (idx' : IVec si' w') (upd upd' : u.Idx → α)
    (i : s.Idx) (i' : s'.Idx)
    (h0 : x i = x' i')
    (hhit : ∀ j : u.Idx, d.resultIdx? j idx = some i ↔ d'.resultIdx? j idx' = some i')
    (hupd : ∀ j : u.Idx, d.resultIdx? j idx = some i → upd j = upd' j) :
    Host.scatter d (fun _ b => b) x idx upd i = Host.scatter d' (fun _ b => b) x' idx' upd' i' := by
  rw [scatter_set_apply, scatter_set_apply]
  exact foldl_hit_congr _ _ _ _ _ (fun n => hhit _) (fun n hn => hupd _ hn) _ _ h0

end Cert.LibScatterSet
-- ==== Proof.LibScatterAddColumns.lean ====
/-
  A row scatter-add, read column by column.

  The scatter in question adds row `n` of an update table `[N, C]` into row `idx n` of an operand `[S, C]`
  (one index per update row, read signed; a row whose index is outside `0 … S-1` is dropped): at the ideal
  instance the element `(s, c)` of the result is the operand's element plus the SUM, over the update rows `n`
  with `idx n = s`, of `upd (n, c)`.  Whether an update element lands on `(s, c)` is decided by its row alone,
  and it then lands in its own column.  So the columns never mix: a band of `C'` consecutive columns of the result,
  starting at column `off`, is the result of the same scatter run on that band of the operand and of the updates
  alone.  In particular, accumulating `[features | 1]` (65 columns) in one pass gives in columns 0…63 what
  accumulating the features gives, and in column 64 what accumulating the ones gives.

  Nothing is asked of the summands: the sums are over the same update rows on both sides, matched one to one.
-/
import proofs.«109526_j73418170958019_2_alg».proof.Proof.LibScatterSet
import Idealize.ShloMosaic.PureOps.Ideal
import Idealize.ShloMosaic.Lib.ValueIdx

namespace Cert.LibScatterAddColumns

open Idealize.ShloMosaic Idealize.ShloMosaic.ValueIdx

/-- The rank-2 shape `[a, b]`. -/
abbrev Sh2 (a b : Nat) : Shape := ⟨2, ![a, b]⟩

/-- The dimension numbers of a row scatter: the updates' axis 1 is the window axis, the operand's axis 0 is
    inserted and is the one the index addresses, and the index vector is axis 1 (of extent 1) of the index table. -/
structure IsRowScatter {S C N Cu : Nat} (d : ScatterDims (Sh2 S C) (Sh2 N 1) (Sh2 N Cu)) : Prop where
  uw : d.updateWindowDims = [1]
  iw : d.insertedWindowDims = [0]
  sd : d.scatterDimsToOperandDims = [0]
  iv : d.indexVectorDim = 1

variable {S C N Cu : Nat} {w : Nat}

/-- On the row axis the window starts at the update row's index, read signed. -/
theorem start_row (d : ScatterDims (Sh2 S C) (Sh2 N 1) (Sh2 N Cu)) (hd : IsRowScatter d)
    (n : Fin N) (c : Fin Cu) (idx : IVec (Sh2 N 1) w) :
    d.start (ix2 n c) idx (0 : Fin 2) = (idx (ix2 n (0 : Fin 1))).toInt := by
  obtain ⟨uw, iw, sd, iv, wf⟩ := d
  obtain ⟨h1, h2, h3, h4⟩ := hd
  simp only at h1 h2 h3 h4
  subst h1 h2 h3 h4
  unfold ScatterDims.start
  rw [dif_pos (show (0 : Fin 2) ∈ [(0 : Fin 2)] from List.mem_singleton.mpr rfl)]
  refine congrArg (fun t => (idx t).toInt) ?_
  funext b
  match b with
  | ⟨0, _⟩ => rfl
  | ⟨1, _⟩ => rfl

/-- On the column axis the window starts at 0: the index addresses rows only. -/
theorem start_col (d : ScatterDims (Sh2 S C) (Sh2 N 1) (Sh2 N Cu)) (hd : IsRowScatter d)
    (j : (Sh2 N Cu).Idx) (idx : IVec (Sh2 N 1) w) :
    d.start j idx (1 : Fin 2) = 0 := by
  obtain ⟨uw, iw, sd, iv, wf⟩ := d
  obtain ⟨h1, h2, h3, h4⟩ := hd
  simp only at h1 h2 h3 h4
  subst h1 h2 h3 h4
  unfold ScatterDims.start
  rw [dif_neg (show ¬ (1 : Fin 2) ∈ [(0 : Fin 2)] from by simp)]

/-- The row axis is inserted: the window has no extent along it. -/
theorem window_row (d : ScatterDims (Sh2 S C) (Sh2 N 1) (Sh2 N Cu)) (hd : IsRowScatter d)
    (j : (Sh2 N Cu).Idx) : d.window j (0 : Fin 2) = 0 := by
  obtain ⟨uw, iw, sd, iv, wf⟩ := d
  obtain ⟨h1, h2, h3, h4⟩ := hd
  simp only at h1 h2 h3 h4
  subst h1 h2 h3 h4
  unfold ScatterDims.window
  rw [dif_neg (by show ¬ (0 : Fin 2) ∈ (List.finRange 2).filter (fun a => a ∉ [(0 : Fin 2)]); decide)]

/-- Along the column axis the window coordinate is the update's own column. -/
theorem window_col (d : ScatterDims (Sh2 S C) (Sh2 N 1) (Sh2 N Cu)) (hd : IsRowScatter d)
    (n : Fin N) (c : Fin Cu) : d.window (ix2 n c) (1 : Fin 2) = c.val := by
  obtain ⟨uw, iw, sd, iv, wf⟩ := d
  obtain ⟨h1, h2, h3, h4⟩ := hd
  simp only at h1 h2 h3 h4
  subst h1 h2 h3 h4
  unfold ScatterDims.window
  rw [dif_pos (by show (1 : Fin 2) ∈ (List.finRange 2).filter (fun a => a ∉ [(0 : Fin 2)]); decide)]
  rfl

/-- WHERE AN UPDATE ELEMENT LANDS: the element `(n, c)` of the updates lands on `(s, c')` of the operand exactly
    when row `n`'s index is `s` and `c = c'`. -/
theorem lands_iff (d : ScatterDims (Sh2 S C) (Sh2 N 1) (Sh2 N Cu)) (hd : IsRowScatter d)
    (n : Fin N) (c : Fin Cu) (idx : IVec (Sh2 N 1) w) (s : Fin S) (c' : Fin C) :
    d.resultIdx? (ix2 n c) idx = some (ix2 s c')
      ↔ (idx (ix2 n (0 : Fin 1))).toInt = (s.val : Int) ∧ c.val = c'.val := by
  rw [Cert.LibScatterSet.resultIdx?_eq_some_iff]
  constructor
  · intro h
    have h0 := h (0 : Fin 2)
    have h1 := h (1 : Fin 2)
    rw [start_row d hd, window_row d hd] at h0
    rw [start_col d hd, window_col d hd] at h1
    refine ⟨?_, ?_⟩
    · have : ((ix2 s c' : (Sh2 S C).Idx) (0 : Fin 2)).val = s.val := rfl
      omega
    · have : ((ix2 s c' : (Sh2 S C).Idx) (1 : Fin 2)).val = c'.val := rfl
      omega
  · rintro ⟨h0, h1⟩ a
    match a with
    | ⟨0, _⟩ =>
      show d.start (ix2 n c) idx (0 : Fin 2) + (d.window (ix2 n c) (0 : Fin 2) : Int) = (s.val : Int)
      rw [start_row d hd, window_row d hd]; omega
    | ⟨1, _⟩ =>
      show d.start (ix2 n c) idx (1 : Fin 2) + (d.window (ix2 n c) (1 : Fin 2) : Int) = (c'.val : Int)
      rw [start_col d hd, window_col d hd]; omega

open scoped BigOperators

/-- A sum over a range that keeps only the position `k` (and only when `A` holds) is that one term. -/
theorem sum_ite_and_val_eq {M : Type*} [AddCommMonoid M] {C : Nat} (A : Prop) [Decidable A] (k : Nat) (hk : k < C)
    (f : Fin C → M) : (∑ c : Fin C, if A ∧ c.val = k then f c else 0) = if A then f ⟨k, hk⟩ else 0 := by
  by_cases hA : A
  · simp only [hA, true_and, if_true]
    rw [Finset.sum_eq_single (⟨k, hk⟩ : Fin C)]
    · simp
    · intro b _ hb
      rw [if_neg]
      intro h
      exact hb (Fin.ext h)
    · intro h
      exact absurd (Finset.mem_univ _) h
  · simp [hA]

/-- THE COLUMNS DO NOT MIX.  Take a row scatter-add on `C` columns and one on `C'` columns with the same index
    table, such that the second's operand and updates are the band of `C'` columns starting at column `off` of the
    first's.  Then the second's result is that band of the first's result: at `(s, off + c)` the wide scatter adds to
    the operand the updates `(n, off + c)` of the rows `n` whose index is `s`, and the narrow one adds, to the same
    operand element, the same rows' elements `(n, c)` — the same numbers, over the same rows. -/
theorem hostScatterAdd_band {S C C' N : Nat} {w : Nat}
    (d : ScatterDims (Sh2 S C) (Sh2 N 1) (Sh2 N C)) (hd : IsRowScatter d)
    (d' : ScatterDims (Sh2 S C') (Sh2 N 1) (Sh2 N C')) (hd' : IsRowScatter d')
    (off : Nat) (hoff : off + C' ≤ C)
    (x : (Sh2 S C).Idx → EReal) (x' : (Sh2 S C').Idx → EReal)
    (upd : (Sh2 N C).Idx → EReal) (upd' : (Sh2 N C').Idx → EReal) (idx : IVec (Sh2 N 1) w)
    (hx : ∀ (s : Fin S) (c : Fin C'), x (ix2 s (⟨off + c.val, by omega⟩ : Fin C)) = x' (ix2 s c))
    (hupd : ∀ (n : Fin N) (c : Fin C'), upd (ix2 n (⟨off + c.val, by omega⟩ : Fin C)) = upd' (ix2 n c))
    (s : Fin S) (c : Fin C') :
    Ideal.hostScatterAdd d x idx upd (ix2 s (⟨off + c.val, by omega⟩ : Fin C))
      = Ideal.hostScatterAdd d' x' idx upd' (ix2 s c) := by
  unfold Ideal.hostScatterAdd
  rw [hx]
  congr 1
  rw [Finset.sum_filter, Finset.sum_filter, sum_idx2, sum_idx2]
  refine Finset.sum_congr rfl fun n _ => ?_
  simp only [lands_iff d hd, lands_iff d' hd']
  rw [sum_ite_and_val_eq _ (off + c.val) (by omega), sum_ite_and_val_eq _ c.val c.isLt]
  exact if_congr Iff.rfl (hupd n c) rfl

end Cert.LibScatterAddColumns
-- ==== Proof.PoolMeans.lean ====
/-
  Pooling in one pass or in two: the per-cell means are the same.

  One program accumulates, per cell, the rows `[features | 1]` (65 columns) in ONE scatter-add and then divides
  columns 0…63 of the table (the sums) by `max (column 64) 1` (the count); the other accumulates the features
  (64 columns) and the ones (1 column) in two scatter-adds and divides the one table by `max` of the other and 1.
  A row scatter-add never mixes columns (the band lemma): columns 0…63 of the wide table are the features' table
  and column 64 is the ones' table, element by element, so the two quotients are the same array.
-/
import proofs.«109526_j73418170958019_2_alg».proof.Proof.LibScatterAddColumns
import Idealize.ShloMosaic.PureOps.Contract
import Idealize.ShloMosaic.Lib.Pipeline.Value
import Idealize.ShloMosaic.Lib.IdealHost

noncomputable section

namespace Cert.PoolMeans

open Idealize.ShloMosaic Idealize.ShloMosaic.ValueIdx Cert.LibScatterAddColumns

variable {S N : Nat} {w : Nat}

/-- The features with the ones beside them, read in the features' columns. -/
theorem withOnes_left (hcat : Shape.Concatenates [Sh2 N 64, Sh2 N 1] (Sh2 N 65) (1 : Fin 2))
    (a0 : (Sh2 N 64).Idx → EReal) (ones : (Sh2 N 1).Idx → EReal) (n : Fin N) (c : Fin 64) :
    concatenate (Sh2 N 65) 1 [⟨Sh2 N 64, a0⟩, ⟨Sh2 N 1, ones⟩] hcat (ix2 n (⟨0 + c.val, by omega⟩ : Fin 65)) = a0 (ix2 n c) := by
  refine concatenate_pair_apply_left (t := Sh2 N 65) (1 : Fin 2) a0 ones hcat _ rfl (ix2 n c) ?_
  intro b
  match b with
  | ⟨0, _⟩ => rfl
  | ⟨1, _⟩ => show c.val = 0 + c.val; omega

/-- … and in the last column, where the ones are. -/
theorem withOnes_right (hcat : Shape.Concatenates [Sh2 N 64, Sh2 N 1] (Sh2 N 65) (1 : Fin 2))
    (a0 : (Sh2 N 64).Idx → EReal) (ones : (Sh2 N 1).Idx → EReal) (n : Fin N) (c : Fin 1) :
    concatenate (Sh2 N 65) 1 [⟨Sh2 N 64, a0⟩, ⟨Sh2 N 1, ones⟩] hcat (ix2 n (⟨64 + c.val, by omega⟩ : Fin 65)) = ones (ix2 n c) := by
  refine concatenate_pair_apply_right (t := Sh2 N 65) (1 : Fin 2) a0 ones hcat _ rfl rfl (ix2 n c) ?_ ?_
  · intro b hb
    match b with
    | ⟨0, _⟩ => rfl
    | ⟨1, _⟩ => exact absurd rfl hb
  · show c.val + 64 = 64 + c.val; omega

/-- THE MEANS AGREE: the quotient of the wide table's first 64 columns by `max` of its last column and `one1`
    is the quotient of the features' table by `max` of the ones' table and `one1`. -/
theorem means_eq
    (d65 : ScatterDims (Sh2 S 65) (Sh2 N 1) (Sh2 N 65)) (h65 : IsRowScatter d65)
    (d64 : ScatterDims (Sh2 S 64) (Sh2 N 1) (Sh2 N 64)) (h64 : IsRowScatter d64)
    (d1 : ScatterDims (Sh2 S 1) (Sh2 N 1) (Sh2 N 1)) (h1 : IsRowScatter d1)
    (hcat : Shape.Concatenates [Sh2 N 64, Sh2 N 1] (Sh2 N 65) (1 : Fin 2))
    (hs64 : (Sh2 S 65).Slices ![0, 0] (Sh2 S 64)) (hs1 : (Sh2 S 65).Slices ![0, 64] (Sh2 S 1))
    (hb : (Sh2 S 1).BroadcastsInDim (Sh2 S 64) ![0, 1])
    (hz65 : (⟨0, ![]⟩ : Shape).BroadcastsInDim (Sh2 S 65) ![])
    (hz64 : (⟨0, ![]⟩ : Shape).BroadcastsInDim (Sh2 S 64) ![])
    (hz1 : (⟨0, ![]⟩ : Shape).BroadcastsInDim (Sh2 S 1) ![])
    (zero : FVec Ideal ⟨0, ![]⟩ .f32) (one1 : FVec Ideal (Sh2 S 1) .f32)
    (a0 : FVec Ideal (Sh2 N 64) .f32) (ones : FVec Ideal (Sh2 N 1) .f32) (idx : IVec (Sh2 N 1) w) :
    Host.divf
        (extractStridedSlice (Sh2 S 64) ![0, 0]
          (Host.scatterAdd d65 (broadcastInDim (Sh2 S 65) ![] hz65 zero) idx
            (concatenate (Sh2 N 65) 1 [⟨Sh2 N 64, a0⟩, ⟨Sh2 N 1, ones⟩] hcat)) hs64)
        (broadcastInDim (Sh2 S 64) ![0, 1] hb
          (maximumf
            (extractStridedSlice (Sh2 S 1) ![0, 64]
              (Host.scatterAdd d65 (broadcastInDim (Sh2 S 65) ![] hz65 zero) idx
                (concatenate (Sh2 N 65) 1 [⟨Sh2 N 64, a0⟩, ⟨Sh2 N 1, ones⟩] hcat)) hs1)
            one1))
      = Host.divf (Host.scatterAdd d64 (broadcastInDim (Sh2 S 64) ![] hz64 zero) idx a0)
          (broadcastInDim (Sh2 S 64) ![0, 1] hb
            (maximumf (Host.scatterAdd d1 (broadcastInDim (Sh2 S 1) ![] hz1 zero) idx ones) one1)) := by
  -- columns 0…63 of the wide table are the features' table
  have e64 : extractStridedSlice (Sh2 S 64) ![0, 0]
      (Host.scatterAdd d65 (broadcastInDim (Sh2 S 65) ![] hz65 zero) idx
        (concatenate (Sh2 N 65) 1 [⟨Sh2 N 64, a0⟩, ⟨Sh2 N 1, ones⟩] hcat)) hs64
      = Host.scatterAdd d64 (broadcastInDim (Sh2 S 64) ![] hz64 zero) idx a0 := by
    funext i
    obtain ⟨s, c, rfl⟩ : ∃ (s : Fin S) (c : Fin 64), i = ix2 s c := ⟨i 0, i 1, eq_ix2 i⟩
    refine (extractStridedSlice_apply ![0, 0] _ hs64 (ix2 s c) (ix2 s (⟨0 + c.val, by omega⟩ : Fin 65)) ?_).trans ?_
    · intro a
      match a with
      | ⟨0, _⟩ => show s.val = 0 + s.val; omega
      | ⟨1, _⟩ => rfl
    · exact hostScatterAdd_band d65 h65 d64 h64 0 (by omega) _ _ _ _ idx
        (fun s c => (broadcastInDim_scalar_apply hz65 zero _).trans (broadcastInDim_scalar_apply hz64 zero _).symm)
        (fun n c => withOnes_left hcat a0 ones n c) s c
  -- column 64 of the wide table is the ones' table
  have e1 : extractStridedSlice (Sh2 S 1) ![0, 64]
      (Host.scatterAdd d65 (broadcastInDim (Sh2 S 65) ![] hz65 zero) idx
        (concatenate (Sh2 N 65) 1 [⟨Sh2 N 64, a0⟩, ⟨Sh2 N 1, ones⟩] hcat)) hs1
      = Host.scatterAdd d1 (broadcastInDim (Sh2 S 1) ![] hz1 zero) idx ones := by
    funext i
    obtain ⟨s, c, rfl⟩ : ∃ (s : Fin S) (c : Fin 1), i = ix2 s c := ⟨i 0, i 1, eq_ix2 i⟩
    refine (extractStridedSlice_apply ![0, 64] _ hs1 (ix2 s c) (ix2 s (⟨64 + c.val, by omega⟩ : Fin 65)) ?_).trans ?_
    · intro a
      match a with
      | ⟨0, _⟩ => show s.val = 0 + s.val; omega
      | ⟨1, _⟩ => rfl
    · exact hostScatterAdd_band d65 h65 d1 h1 64 (by omega) _ _ _ _ idx
        (fun s c => (broadcastInDim_scalar_apply hz65 zero _).trans (broadcastInDim_scalar_apply hz1 zero _).symm)
        (fun n c => withOnes_right hcat a0 ones n c) s c
  rw [e64, e1]

end Cert.PoolMeans

end
-- ==== Proof.PoolBridge.lean ====
/-
  The four pooled arrays of the two programs are the same arrays.

  At every scale one program pools in one pass over `[features | 1]` and rounds the means to bf16 before every
  point reads its cell's row back; the other pools features and ones apart.  The means are the same table
  (no column of a row scatter-add mixes with another), rounding is the identity on extended reals, and the
  read-back is the same gather of the same table by the same cell numbers.
-/
import proofs.«109526_j73418170958019_2_alg».proof.Proof.PoolMeans
import proofs.«109526_j73418170958019_2_alg».proof.Proof.KerTerm
import proofs.«109526_j73418170958019_2_alg».proof.Proof.RefTerm

noncomputable section

namespace Cert.PoolBridge

open Idealize.ShloMosaic Idealize.ShloMosaic.ValueIdx Cert.LibScatterAddColumns Cert.PoolMeans

/-- A gather of equal tables by equal indices under equal dimension numbers. -/
theorem gather_congr {s si t : Shape} {w : Nat} {α : Type} (G G' : GatherDims s si t) (hG : G = G') (T T' : s.Idx → α)
    (hT : T = T') (W W' : IVec si w) (hW : W = W') : Host.gather G T W = Host.gather G' T' W' := by
  subst hG hT hW; rfl

/-- A row scatter-add of equal operands, index tables and updates. -/
theorem scatterAdd_congr {s si u : Shape} {w : Nat} (d : ScatterDims s si u) (x : FVec Ideal s .f32) (i i' : IVec si w)
    (v v' : FVec Ideal u .f32) (hi : i = i') (hv : v = v') :
    Host.scatterAdd d x i v = Host.scatterAdd d x i' v' := by
  subst hi hv; rfl

/-- A quotient of equal arrays. -/
theorem divf_congr {s : Shape} {a a' b b' : FVec Ideal s .f32} (ha : a = a') (hb : b = b') :
    Host.divf a b = Host.divf a' b' := by
  subst ha hb; rfl

/-- Rounding to a narrower float format is the identity on extended reals. -/
theorem truncf_eq {s : Shape} (a : FVec Ideal s .f32) (h : FTy.bf16.bits < FTy.f32.bits) :
    (truncf .bf16 a h : FVec Ideal s .bf16) = a := rfl

/-- The two programs spell the index table and the column of ones alike. -/
theorem asColumn_eq (sg : Cert.KernelIdeal.KerTerm.Ty Ideal Cert.KernelIdeal.S1048576 .i32) : Cert.KernelIdeal.KerTerm.asColumn (F := Ideal) sg = Cert.ReferenceIdeal.RefTerm.asColumn (F := Ideal) sg := rfl
theorem onesCol_eq : Cert.KernelIdeal.KerTerm.onesCol (F := Ideal) = Cert.ReferenceIdeal.RefTerm.onesCol (F := Ideal) := rfl

attribute [local irreducible] Host.scatterAdd Host.gather Host.divsi Host.remsi concatenate extractStridedSlice

/-- The scale of 4 cells: the one-pass means, rounded to bf16 (the identity on extended reals) and read back by
    every point, are the two-pass means read back. -/
theorem pooled4_eq (a0 : Cert.KernelIdeal.KerTerm.Ty Ideal Cert.KernelIdeal.S1048576x64 .f32) (sg : Cert.KernelIdeal.KerTerm.Ty Ideal Cert.KernelIdeal.S1048576 .i32) :
    Cert.KernelIdeal.KerTerm.pooled4 (F := Ideal) a0 sg = Cert.ReferenceIdeal.RefTerm.pooled4 (F := Ideal) a0 sg := by
  have hm := means_eq (S := 4) (N := 1048576)
    Cert.KernelIdeal.scatter_S4x65_S1048576x1_S1048576x65_1_0_0_1 ⟨rfl, rfl, rfl, rfl⟩
    Cert.ReferenceIdeal.scatter_S4x64_S1048576x1_S1048576x64_1_0_0_1 ⟨rfl, rfl, rfl, rfl⟩
    Cert.ReferenceIdeal.scatter_S4x1_S1048576x1_S1048576x1_1_0_0_1 ⟨rfl, rfl, rfl, rfl⟩
    Cert.KernelIdeal.Gen.concatenates_S1048576x64_S1048576x1_S1048576x65_d1
    Cert.KernelIdeal.Gen.slices_S4x65_S4x64_0_0 Cert.KernelIdeal.Gen.slices_S4x65_S4x1_0_64
    Cert.KernelIdeal.Gen.bcast_S4x1_S4x64_0_1
    Cert.KernelIdeal.Gen.bcast_S_S4x65 Cert.ReferenceIdeal.Gen.bcast_S_S4x64 Cert.ReferenceIdeal.Gen.bcast_S_S4x1
    (constant (F := Ideal) ⟨0, ![]⟩ .f32 0x00000000#32)
    (broadcastInDim (Sh2 4 1) ![] Cert.KernelIdeal.Gen.bcast_S_S4x1 (constant (F := Ideal) ⟨0, ![]⟩ .f32 0x3F800000#32))
    a0 (Cert.KernelIdeal.KerTerm.onesCol (F := Ideal)) (Cert.KernelIdeal.KerTerm.asColumn (F := Ideal) sg)
  unfold Cert.KernelIdeal.KerTerm.pooled4 Cert.ReferenceIdeal.RefTerm.pooled4
  refine gather_congr _ _ rfl _ _ ?_ _ _ rfl
  refine (truncf_eq _ _).trans ?_
  unfold Cert.KernelIdeal.KerTerm.sums4 Cert.KernelIdeal.KerTerm.withOnes
  refine Eq.trans hm ?_
  rw [asColumn_eq sg, onesCol_eq]

/-- The scale of 1048576 cells: the one-pass means, rounded to bf16 (the identity on extended reals) and read back by
    every point, are the two-pass means read back. -/
theorem pooled1048576_eq (a0 : Cert.KernelIdeal.KerTerm.Ty Ideal Cert.KernelIdeal.S1048576x64 .f32) (sg : Cert.KernelIdeal.KerTerm.Ty Ideal Cert.KernelIdeal.S1048576 .i32) :
    Cert.KernelIdeal.KerTerm.pooled1048576 (F := Ideal) a0 sg = Cert.ReferenceIdeal.RefTerm.pooled1048576 (F := Ideal) a0 sg := by
  have hm := means_eq (S := 1048576) (N := 1048576)
    Cert.KernelIdeal.scatter_S1048576x65_S1048576x1_S1048576x65_1_0_0_1 ⟨rfl, rfl, rfl, rfl⟩
    Cert.ReferenceIdeal.scatter_S1048576x64_S1048576x1_S1048576x64_1_0_0_1 ⟨rfl, rfl, rfl, rfl⟩
    Cert.ReferenceIdeal.scatter_S1048576x1_S1048576x1_S1048576x1_1_0_0_1 ⟨rfl, rfl, rfl, rfl⟩
    Cert.KernelIdeal.Gen.concatenates_S1048576x64_S1048576x1_S1048576x65_d1
    Cert.KernelIdeal.Gen.slices_S1048576x65_S1048576x64_0_0 Cert.KernelIdeal.Gen.slices_S1048576x65_S1048576x1_0_64
    Cert.KernelIdeal.Gen.bcast_S1048576x1_S1048576x64_0_1
    Cert.KernelIdeal.Gen.bcast_S_S1048576x65 Cert.ReferenceIdeal.Gen.bcast_S_S1048576x64 Cert.ReferenceIdeal.Gen.bcast_S_S1048576x1
    (constant (F := Ideal) ⟨0, ![]⟩ .f32 0x00000000#32)
    (broadcastInDim (Sh2 1048576 1) ![] Cert.KernelIdeal.Gen.bcast_S_S1048576x1 (constant (F := Ideal) ⟨0, ![]⟩ .f32 0x3F800000#32))
    a0 (Cert.KernelIdeal.KerTerm.onesCol (F := Ideal)) (Cert.KernelIdeal.KerTerm.asColumn (F := Ideal) sg)
  unfold Cert.KernelIdeal.KerTerm.pooled1048576 Cert.ReferenceIdeal.RefTerm.pooled1048576
  refine gather_congr _ _ rfl _ _ ?_ _ _ rfl
  refine (truncf_eq _ _).trans ?_
  unfold Cert.KernelIdeal.KerTerm.sums1048576 Cert.KernelIdeal.KerTerm.withOnes
  refine Eq.trans hm ?_
  rw [asColumn_eq sg, onesCol_eq]

/-- The scale of 131072 cells: the one-pass means, rounded to bf16 (the identity on extended reals) and read back by
    every point, are the two-pass means read back. -/
theorem pooled131072_eq (a0 : Cert.KernelIdeal.KerTerm.Ty Ideal Cert.KernelIdeal.S1048576x64 .f32) (sg : Cert.KernelIdeal.KerTerm.Ty Ideal Cert.KernelIdeal.S1048576 .i32) :
    Cert.KernelIdeal.KerTerm.pooled131072 (F := Ideal) a0 sg = Cert.ReferenceIdeal.RefTerm.pooled131072 (F := Ideal) a0 sg := by
  have hm := means_eq (S := 131072) (N := 1048576)
    Cert.KernelIdeal.scatter_S131072x65_S1048576x1_S1048576x65_1_0_0_1 ⟨rfl, rfl, rfl, rfl⟩
    Cert.ReferenceIdeal.scatter_S131072x64_S1048576x1_S1048576x64_1_0_0_1 ⟨rfl, rfl, rfl, rfl⟩
    Cert.ReferenceIdeal.scatter_S131072x1_S1048576x1_S1048576x1_1_0_0_1 ⟨rfl, rfl, rfl, rfl⟩
    Cert.KernelIdeal.Gen.concatenates_S1048576x64_S1048576x1_S1048576x65_d1
    Cert.KernelIdeal.Gen.slices_S131072x65_S131072x64_0_0 Cert.KernelIdeal.Gen.slices_S131072x65_S131072x1_0_64
    Cert.KernelIdeal.Gen.bcast_S131072x1_S131072x64_0_1
    Cert.KernelIdeal.Gen.bcast_S_S131072x65 Cert.ReferenceIdeal.Gen.bcast_S_S131072x64 Cert.ReferenceIdeal.Gen.bcast_S_S131072x1
    (constant (F := Ideal) ⟨0, ![]⟩ .f32 0x00000000#32)
    (broadcastInDim (Sh2 131072 1) ![] Cert.KernelIdeal.Gen.bcast_S_S131072x1 (constant (F := Ideal) ⟨0, ![]⟩ .f32 0x3F800000#32))
    a0 (Cert.KernelIdeal.KerTerm.onesCol (F := Ideal)) (Cert.KernelIdeal.KerTerm.asColumn (F := Ideal) sg)
  unfold Cert.KernelIdeal.KerTerm.pooled131072 Cert.ReferenceIdeal.RefTerm.pooled131072
  refine gather_congr _ _ rfl _ _ ?_ _ _ rfl
  refine (truncf_eq _ _).trans ?_
  unfold Cert.KernelIdeal.KerTerm.sums131072 Cert.KernelIdeal.KerTerm.withOnes
  refine Eq.trans hm ?_
  rw [asColumn_eq sg, onesCol_eq]

/-- The scale of 16384 cells: the one-pass means, rounded to bf16 (the identity on extended reals) and read back by
    every point, are the two-pass means read back. -/
theorem pooled16384_eq (a0 : Cert.KernelIdeal.KerTerm.Ty Ideal Cert.KernelIdeal.S1048576x64 .f32) (sg : Cert.KernelIdeal.KerTerm.Ty Ideal Cert.KernelIdeal.S1048576 .i32) :
    Cert.KernelIdeal.KerTerm.pooled16384 (F := Ideal) a0 sg = Cert.ReferenceIdeal.RefTerm.pooled16384 (F := Ideal) a0 sg := by
  have hm := means_eq (S := 16384) (N := 1048576)
    Cert.KernelIdeal.scatter_S16384x65_S1048576x1_S1048576x65_1_0_0_1 ⟨rfl, rfl, rfl, rfl⟩
    Cert.ReferenceIdeal.scatter_S16384x64_S1048576x1_S1048576x64_1_0_0_1 ⟨rfl, rfl, rfl, rfl⟩
    Cert.ReferenceIdeal.scatter_S16384x1_S1048576x1_S1048576x1_1_0_0_1 ⟨rfl, rfl, rfl, rfl⟩
    Cert.KernelIdeal.Gen.concatenates_S1048576x64_S1048576x1_S1048576x65_d1
    Cert.KernelIdeal.Gen.slices_S16384x65_S16384x64_0_0 Cert.KernelIdeal.Gen.slices_S16384x65_S16384x1_0_64
    Cert.KernelIdeal.Gen.bcast_S16384x1_S16384x64_0_1
    Cert.KernelIdeal.Gen.bcast_S_S16384x65 Cert.ReferenceIdeal.Gen.bcast_S_S16384x64 Cert.ReferenceIdeal.Gen.bcast_S_S16384x1
    (constant (F := Ideal) ⟨0, ![]⟩ .f32 0x00000000#32)
    (broadcastInDim (Sh2 16384 1) ![] Cert.KernelIdeal.Gen.bcast_S_S16384x1 (constant (F := Ideal) ⟨0, ![]⟩ .f32 0x3F800000#32))
    a0 (Cert.KernelIdeal.KerTerm.onesCol (F := Ideal)) (Cert.KernelIdeal.KerTerm.asColumn (F := Ideal) sg)
  unfold Cert.KernelIdeal.KerTerm.pooled16384 Cert.ReferenceIdeal.RefTerm.pooled16384
  refine gather_congr _ _ rfl _ _ ?_ _ _ rfl
  refine (truncf_eq _ _).trans ?_
  unfold Cert.KernelIdeal.KerTerm.sums16384 Cert.KernelIdeal.KerTerm.withOnes
  refine Eq.trans hm ?_
  rw [asColumn_eq sg, onesCol_eq]

/-- The two programs compute the cell numbers by the same operations. -/
theorem cells2_eq (a1 : Cert.KernelIdeal.KerTerm.Ty Ideal Cert.KernelIdeal.S1048576x3 .i32) (a2 : Cert.KernelIdeal.KerTerm.Ty Ideal Cert.KernelIdeal.S1048576 .i32) :
    Cert.KernelIdeal.KerTerm.cells2 (F := Ideal) a1 a2 = Cert.ReferenceIdeal.RefTerm.cells2 (F := Ideal) a1 a2 := rfl
theorem cells4_eq (a1 : Cert.KernelIdeal.KerTerm.Ty Ideal Cert.KernelIdeal.S1048576x3 .i32) (a2 : Cert.KernelIdeal.KerTerm.Ty Ideal Cert.KernelIdeal.S1048576 .i32) :
    Cert.KernelIdeal.KerTerm.cells4 (F := Ideal) a1 a2 = Cert.ReferenceIdeal.RefTerm.cells4 (F := Ideal) a1 a2 := rfl
theorem cells8_eq (a1 : Cert.KernelIdeal.KerTerm.Ty Ideal Cert.KernelIdeal.S1048576x3 .i32) (a2 : Cert.KernelIdeal.KerTerm.Ty Ideal Cert.KernelIdeal.S1048576 .i32) :
    Cert.KernelIdeal.KerTerm.cells8 (F := Ideal) a1 a2 = Cert.ReferenceIdeal.RefTerm.cells8 (F := Ideal) a1 a2 := rfl

end Cert.PoolBridge

end
-- ==== Proof.LibSumBands.lean ====
/-
  A sum over a finite range, cut into consecutive bands.

  When an axis of length `n` is a concatenation of pieces of lengths `a`, `b` (and `c`), a sum over the axis is
  the sum over the first piece, plus the sum over the second piece read `a` places further on (plus the sum over the
  third read `a + b` places further on). Nothing is asked of the summands but that they live in a commutative
  monoid: on the extended reals, where `+` is commutative and associative without any finiteness hypothesis, this
  is the law that turns ONE contraction over a concatenated axis into the partial products of the pieces.

  The positions are spelt with the anonymous constructor `⟨a + j, _⟩` of the literal range `Fin n`, so that the
  statement rewrites a sum whose bound is a numeral (`Fin 320`, `Fin 384`) and leaves coordinates of literal type.
-/
import Mathlib.Algebra.BigOperators.Fin

/-! # Sums over consecutive bands of a range

`sum_two_bands` and `sum_three_bands`: a sum over `Fin n` with `n = a + b` (or `a + b + c`) is the sum of the sums
over the bands, the `j`-th position of a band being `⟨offset + j, _⟩ : Fin n`. Stated for any commutative monoid, so
in particular for the extended reals with no finiteness hypothesis. -/

namespace Cert.SumBands

open scoped BigOperators

/-- A sum over `n = a + b` positions is the sum over the first `a` plus the sum over the last `b`. -/
theorem sum_two_bands {M : Type*} [AddCommMonoid M] {n : Nat} (a b : Nat) (h : a + b = n) (f : Fin n → M) :
    ∑ k : Fin n, f k
      = (∑ j : Fin a, f ⟨j.val, by have := j.isLt; omega⟩) + (∑ j : Fin b, f ⟨a + j.val, by have := j.isLt; omega⟩) := by
  subst h
  rw [Fin.sum_univ_add]
  rfl

/-- A sum over `n = a + b + c` positions is the sum over the first `a`, plus the sum over the next `b`, plus the
    sum over the last `c` — grouped `(first + second) + third`. -/
theorem sum_three_bands {M : Type*} [AddCommMonoid M] {n : Nat} (a b c : Nat) (h : a + b + c = n) (f : Fin n → M) :
    ∑ k : Fin n, f k
      = ((∑ j : Fin a, f ⟨j.val, by have := j.isLt; omega⟩) + (∑ j : Fin b, f ⟨a + j.val, by have := j.isLt; omega⟩))
        + (∑ j : Fin c, f ⟨a + b + j.val, by have := j.isLt; omega⟩) := by
  subst h
  rw [Fin.sum_univ_add, Fin.sum_univ_add]
  rfl

end Cert.SumBands
-- ==== Proof.LinearBridge.lean ====
/-
  The reference's linear layer is the four-band sum.

  The reference sets the four pooled arrays side by side ([N,256]), contracts the 256 columns against the
  transposed weight and adds the bias row to every row.  A column `k` of the concatenation is column `k - 64·v`
  of the `v`-th pooled array for `64·v ≤ k < 64·(v+1)`, so the sum over the 256 columns splits into the four sums
  over 64 columns — a regrouping of one finite sum, which the extended reals allow without any finiteness
  hypothesis (addition is commutative and associative there).  The transposed weight is the same array on both
  sides (rounding to bf16 is the identity on extended reals); the bias, recast as a row on one side and broadcast
  through a row on the other, is read at the same entry.
-/
import proofs.«109526_j73418170958019_2_alg».proof.Proof.RefTerm
import proofs.«109526_j73418170958019_2_alg».proof.Proof.KerTerm
import proofs.«109526_j73418170958019_2_alg».proof.Proof.LinearSpec
import proofs.«109526_j73418170958019_2_alg».proof.Proof.LibSumBands
import Idealize.ShloMosaic.PureOps.Ideal.Laws
import Idealize.ShloMosaic.Lib.Pipeline.Value
import Idealize.ShloMosaic.Lib.ValueIdx

noncomputable section

namespace Cert.LinearBridge

open Idealize.ShloMosaic Idealize.ShloMosaic.ValueIdx Cert.LinearSpec

open scoped BigOperators

/-- A sum over 256 positions is the sum of its four bands of 64, added in order. -/
theorem sum_four_bands {M : Type*} [AddCommMonoid M] (f : Fin 256 → M) :
    ∑ k : Fin 256, f k
      = (((∑ j : Fin 64, f ⟨64 * (0 : Fin 4).val + j.val, by omega⟩) + ∑ j : Fin 64, f ⟨64 * (1 : Fin 4).val + j.val, by omega⟩)
          + ∑ j : Fin 64, f ⟨64 * (2 : Fin 4).val + j.val, by omega⟩)
        + ∑ j : Fin 64, f ⟨64 * (3 : Fin 4).val + j.val, by omega⟩ := by
  have h := Cert.SumBands.sum_three_bands 64 64 128 rfl f
  have h2 := Cert.SumBands.sum_two_bands 64 64 rfl (fun j : Fin 128 => f ⟨64 + 64 + j.val, by omega⟩)
  rw [h, h2, ← add_assoc]
  refine congrArg₂ (· + ·) (congrArg₂ (· + ·) (congrArg₂ (· + ·) ?_ ?_) ?_) ?_ <;>
    exact Finset.sum_congr rfl fun j _ => congrArg f (Fin.ext (by
      have h0 : (0 : Fin 4).val = 0 := rfl
      have h1 : (1 : Fin 4).val = 1 := rfl
      have h2' : (2 : Fin 4).val = 2 := rfl
      have h3 : (3 : Fin 4).val = 3 := rfl
      dsimp only
      omega))

/-- The host's `dot_general` with one contracted axis of extent `Kx`, read at an index as a sum over `Fin Kx` of the
    operands at caller-named indices. -/
theorem dotGeneral_apply_fin {sl sr so : Shape} {φ₁ φ₂ : FTy} (D : DotDims sl sr so) (Kx : Nat)
    (hr : D.contr.rank = 1) (hs : D.contr.size ⟨0, by omega⟩ = Kx) (prec : Option ContractPrecision)
    (A : FVec Ideal sl φ₁) (B : FVec Ideal sr φ₂) (j : so.Idx) (li : Fin Kx → sl.Idx) (ri : Fin Kx → sr.Idx)
    (hl : ∀ k, D.lhsIdx j ((contrEquiv1 D Kx hr hs).symm k) = li k)
    (hri : ∀ k, D.rhsIdx j ((contrEquiv1 D Kx hr hs).symm k) = ri k) :
    Host.dotGeneral D prec A B j = ∑ k : Fin Kx, A (li k) * B (ri k) := by
  show FloatOps.dotGeneral D prec .single A B j = _
  rw [Ideal.dotGeneral_apply, ← Equiv.sum_comp (contrEquiv1 D Kx hr hs).symm]
  exact Finset.sum_congr rfl fun k _ => by rw [hl k, hri k]

/-- The four pooled arrays set side by side: `[N,256]`. -/
def sideBySide (p0 p1 p2 p3 : FVec Ideal Cert.ReferenceIdeal.S1048576x64 .f32) : FVec Ideal Cert.ReferenceIdeal.S1048576x256 .f32 :=
  concatenate Cert.ReferenceIdeal.S1048576x256 1 [⟨Cert.ReferenceIdeal.S1048576x64, p0⟩, ⟨Cert.ReferenceIdeal.S1048576x64, p1⟩, ⟨Cert.ReferenceIdeal.S1048576x64, p2⟩, ⟨Cert.ReferenceIdeal.S1048576x64, p3⟩] Cert.ReferenceIdeal.Gen.concatenates_S1048576x64_S1048576x64_S1048576x64_S1048576x64_S1048576x256_d1

/-- Column `64·v + j` of the four pooled arrays set side by side is column `j` of the `v`-th. -/
theorem sideBySide_apply (p0 p1 p2 p3 : FVec Ideal Cert.ReferenceIdeal.S1048576x64 .f32) (n : Fin 1048576) (j : Fin 64) :
    sideBySide p0 p1 p2 p3 (ix2 n (⟨64 * (0 : Fin 4).val + j.val, by omega⟩ : Fin 256)) = p0 (ix2 n j)
    ∧ sideBySide p0 p1 p2 p3 (ix2 n (⟨64 * (1 : Fin 4).val + j.val, by omega⟩ : Fin 256)) = p1 (ix2 n j)
    ∧ sideBySide p0 p1 p2 p3 (ix2 n (⟨64 * (2 : Fin 4).val + j.val, by omega⟩ : Fin 256)) = p2 (ix2 n j)
    ∧ sideBySide p0 p1 p2 p3 (ix2 n (⟨64 * (3 : Fin 4).val + j.val, by omega⟩ : Fin 256)) = p3 (ix2 n j) := by
  have hi : ∀ (v : Nat) (hv : 64 * v + j.val < 256) (b : Fin Cert.ReferenceIdeal.S1048576x64.rank),
      b.cast (rfl : Cert.ReferenceIdeal.S1048576x64.rank = Cert.ReferenceIdeal.S1048576x256.rank) ≠ (1 : Fin 2) →
      ((ix2 n j : Cert.ReferenceIdeal.S1048576x64.Idx) b).val
        = ((ix2 n (⟨64 * v + j.val, hv⟩ : Fin 256) : Cert.ReferenceIdeal.S1048576x256.Idx) (b.cast rfl)).val := by
    intro v hv b hb
    match b with
    | ⟨0, _⟩ => rfl
    | ⟨1, _⟩ => exact absurd rfl hb
  unfold sideBySide
  refine ⟨?_, ?_, ?_, ?_⟩
  · exact concatenate_apply_piece (t := Cert.ReferenceIdeal.S1048576x256) (1 : Fin 2) [⟨Cert.ReferenceIdeal.S1048576x64, p0⟩, ⟨Cert.ReferenceIdeal.S1048576x64, p1⟩, ⟨Cert.ReferenceIdeal.S1048576x64, p2⟩, ⟨Cert.ReferenceIdeal.S1048576x64, p3⟩] Cert.ReferenceIdeal.Gen.concatenates_S1048576x64_S1048576x64_S1048576x64_S1048576x64_S1048576x256_d1
      (ix2 n (⟨64 * (0 : Fin 4).val + j.val, by omega⟩ : Fin 256)) 0 (by show 0 < 4; omega) Cert.ReferenceIdeal.S1048576x64 p0 rfl rfl 0 rfl (ix2 n j)
      (hi 0 (by omega)) (by show 0 + j.val = 64 * 0 + j.val; omega)
  · exact concatenate_apply_piece (t := Cert.ReferenceIdeal.S1048576x256) (1 : Fin 2) [⟨Cert.ReferenceIdeal.S1048576x64, p0⟩, ⟨Cert.ReferenceIdeal.S1048576x64, p1⟩, ⟨Cert.ReferenceIdeal.S1048576x64, p2⟩, ⟨Cert.ReferenceIdeal.S1048576x64, p3⟩] Cert.ReferenceIdeal.Gen.concatenates_S1048576x64_S1048576x64_S1048576x64_S1048576x64_S1048576x256_d1
      (ix2 n (⟨64 * (1 : Fin 4).val + j.val, by omega⟩ : Fin 256)) 1 (by show 1 < 4; omega) Cert.ReferenceIdeal.S1048576x64 p1 rfl rfl 64 rfl (ix2 n j)
      (hi 1 (by omega)) (by show 64 + j.val = 64 * 1 + j.val; omega)
  · exact concatenate_apply_piece (t := Cert.ReferenceIdeal.S1048576x256) (1 : Fin 2) [⟨Cert.ReferenceIdeal.S1048576x64, p0⟩, ⟨Cert.ReferenceIdeal.S1048576x64, p1⟩, ⟨Cert.ReferenceIdeal.S1048576x64, p2⟩, ⟨Cert.ReferenceIdeal.S1048576x64, p3⟩] Cert.ReferenceIdeal.Gen.concatenates_S1048576x64_S1048576x64_S1048576x64_S1048576x64_S1048576x256_d1
      (ix2 n (⟨64 * (2 : Fin 4).val + j.val, by omega⟩ : Fin 256)) 2 (by show 2 < 4; omega) Cert.ReferenceIdeal.S1048576x64 p2 rfl rfl 128 rfl (ix2 n j)
      (hi 2 (by omega)) (by show 128 + j.val = 64 * 2 + j.val; omega)
  · exact concatenate_apply_piece (t := Cert.ReferenceIdeal.S1048576x256) (1 : Fin 2) [⟨Cert.ReferenceIdeal.S1048576x64, p0⟩, ⟨Cert.ReferenceIdeal.S1048576x64, p1⟩, ⟨Cert.ReferenceIdeal.S1048576x64, p2⟩, ⟨Cert.ReferenceIdeal.S1048576x64, p3⟩] Cert.ReferenceIdeal.Gen.concatenates_S1048576x64_S1048576x64_S1048576x64_S1048576x64_S1048576x256_d1
      (ix2 n (⟨64 * (3 : Fin 4).val + j.val, by omega⟩ : Fin 256)) 3 (by show 3 < 4; omega) Cert.ReferenceIdeal.S1048576x64 p3 rfl rfl 192 rfl (ix2 n j)
      (hi 3 (by omega)) (by show 192 + j.val = 64 * 3 + j.val; omega)

/-- Two indices of a rank-two shape with equal coordinates are equal. -/
theorem idx2_ext {n0 n1 : Nat} (a b : (⟨2, ![n0, n1]⟩ : Shape).Idx)
    (h0 : (a 0).val = (b 0).val) (h1 : (a 1).val = (b 1).val) : a = b :=
  funext fun d => Fin.ext (by
    match d with
    | ⟨0, _⟩ => exact h0
    | ⟨1, _⟩ => exact h1)

/-- The contraction of `[N,256] × [256,96]`: at output `(n, o)` and contraction position `k` the left operand is
    read at `(n, k)` … -/
theorem dot_lhs (n : Fin 1048576) (o : Fin 96) (k : Fin 256) :
    (Cert.ReferenceIdeal.dot_S1048576x256_S256x96_S1048576x96_1_0_0_1_n_n).lhsIdx (ix2 n o) ((contrEquiv1 Cert.ReferenceIdeal.dot_S1048576x256_S256x96_S1048576x96_1_0_0_1_n_n 256 rfl rfl).symm k) = ix2 n k :=
  idx2_ext _ _ rfl
    ((DotDims.lhsIdx_val_of_single Cert.ReferenceIdeal.dot_S1048576x256_S256x96_S1048576x96_1_0_0_1_n_n (cl := (1 : Fin 2)) rfl (ix2 n o) _).trans
      (contrEquiv1_symm_val Cert.ReferenceIdeal.dot_S1048576x256_S256x96_S1048576x96_1_0_0_1_n_n 256 rfl rfl k))

/-- … and the right operand at `(k, o)`. -/
theorem dot_rhs (n : Fin 1048576) (o : Fin 96) (k : Fin 256) :
    (Cert.ReferenceIdeal.dot_S1048576x256_S256x96_S1048576x96_1_0_0_1_n_n).rhsIdx (ix2 n o) ((contrEquiv1 Cert.ReferenceIdeal.dot_S1048576x256_S256x96_S1048576x96_1_0_0_1_n_n 256 rfl rfl).symm k) = ix2 k o :=
  idx2_ext _ _
    ((DotDims.rhsIdx_val_of_single Cert.ReferenceIdeal.dot_S1048576x256_S256x96_S1048576x96_1_0_0_1_n_n (cr := (0 : Fin 2)) rfl (ix2 n o) _).trans
      (contrEquiv1_symm_val Cert.ReferenceIdeal.dot_S1048576x256_S256x96_S1048576x96_1_0_0_1_n_n 256 rfl rfl k))
    rfl

/-- The bias broadcast through a row to every row, and the bias recast as a row, read at `(n, o)` and `(0, o)`:
    both are the bias's entry `o`. -/
theorem bias_apply (a4 : FVec Ideal Cert.ReferenceIdeal.S96 .f32) (n : Fin 1048576) (o : Fin 96) :
    broadcastInDim Cert.ReferenceIdeal.S1048576x96 ![0, 1] Cert.ReferenceIdeal.Gen.bcast_S1x96_S1048576x96_0_1
        (broadcastInDim Cert.ReferenceIdeal.S1x96 ![1] Cert.ReferenceIdeal.Gen.bcast_S96_S1x96_1 a4) (ix2 n o)
      = Cert.KernelIdeal.KerTerm.biasRow (F := Ideal) a4 (ix2 (0 : Fin 1) o) := by
  refine (broadcastInDim_apply _ _ _ (ix2 n o) (ix2 (0 : Fin 1) o) ?_).trans ?_
  · intro a
    match a with
    | ⟨0, _⟩ => rfl
    | ⟨1, _⟩ => rfl
  refine (broadcastInDim_apply _ _ _ (ix2 (0 : Fin 1) o) (ix1 o) ?_).trans ?_
  · intro a
    match a with
    | ⟨0, _⟩ => rfl
  unfold Cert.KernelIdeal.KerTerm.biasRow
  refine Eq.symm ((shapeCast_addUnit_apply ![96] a4 _ (ix2 (0 : Fin 1) o)).trans (congrArg a4 ?_))
  funext a
  match a with
  | ⟨0, _⟩ => rfl

/-- THE LINEAR LAYER: the reference's `[pooled₀ | pooled₁ | pooled₂ | pooled₃] · Wᵀ + bias` is the four-band sum over
    the transposed weight (rounded to bf16: the identity) and the bias row. -/
theorem linear_eq (p0 p1 p2 p3 : FVec Ideal Cert.ReferenceIdeal.S1048576x64 .f32) (a3 : FVec Ideal Cert.ReferenceIdeal.S96x256 .f32)
    (a4 : FVec Ideal Cert.ReferenceIdeal.S96 .f32) :
    Cert.ReferenceIdeal.RefTerm.linear (F := Ideal) p0 p1 p2 p3 a3 a4
      = linearOf p0 p1 p2 p3 (Cert.KernelIdeal.KerTerm.weights (F := Ideal) a3) (Cert.KernelIdeal.KerTerm.biasRow (F := Ideal) a4) := by
  funext i
  obtain ⟨n, o, rfl⟩ : ∃ (n : Fin 1048576) (o : Fin 96), i = ix2 n o := ⟨i 0, i 1, eq_ix2 i⟩
  unfold Cert.ReferenceIdeal.RefTerm.linear linearOf band
  refine (addf_apply _ _ _).trans (congrArg₂ (· + ·) ?_ (bias_apply a4 n o))
  refine (dotGeneral_apply_fin Cert.ReferenceIdeal.dot_S1048576x256_S256x96_S1048576x96_1_0_0_1_n_n 256 rfl rfl none _ _ (ix2 n o) (fun k => ix2 n k) (fun k => ix2 k o)
    (dot_lhs n o) (dot_rhs n o)).trans ?_
  refine (sum_four_bands _).trans ?_
  refine congrArg₂ (· + ·) (congrArg₂ (· + ·) (congrArg₂ (· + ·) ?_ ?_) ?_) ?_
  · exact Finset.sum_congr rfl fun j _ => congrArg₂ (· * ·) (sideBySide_apply p0 p1 p2 p3 n j).1 rfl
  · exact Finset.sum_congr rfl fun j _ => congrArg₂ (· * ·) (sideBySide_apply p0 p1 p2 p3 n j).2.1 rfl
  · exact Finset.sum_congr rfl fun j _ => congrArg₂ (· * ·) (sideBySide_apply p0 p1 p2 p3 n j).2.2.1 rfl
  · exact Finset.sum_congr rfl fun j _ => congrArg₂ (· * ·) (sideBySide_apply p0 p1 p2 p3 n j).2.2.2 rfl

end Cert.LinearBridge

end
-- ==== Proof.lean ====
/-
  The kernel against its reference: multi-scale sparse-voxel average pooling, broadcast back to the points, the four
  pooled views side by side, and a linear layer.

  A point cloud of N = 1048576 points with 64 features each is pooled at four scales (the 4 batches; the voxel grids
  of 2, 4 and 8 voxels per cell): per cell and feature the mean of the features of the cell's points, which every
  point then reads back.  The result is `[pooled₀ | pooled₁ | pooled₂ | pooled₃] · Wᵀ + b`, an `[N,96]` array.

  The two programs differ in three arrangements, none of which changes an extended real:
  * POOLING.  The kernel's program accumulates `[features | 1]` (65 columns) per cell in ONE scatter-add and divides
    columns 0…63 by `max (column 64) 1`; the reference accumulates features and ones apart.  A row scatter-add never
    mixes columns, so the two tables of means are equal element by element (Proof/LibScatterAddColumns.lean,
    Proof/PoolMeans.lean, Proof/PoolBridge.lean).  The cell numbers are computed by the same integer operations.
  * ROUNDING.  The kernel's program rounds the means and the transposed weight to bf16 before the product; at the
    ideal instance a change of float format is the identity.
  * THE PRODUCT.  The reference contracts the 256 columns of the concatenation in one `dot_general`; the kernel, at
    each of 128 grid points (8192 rows each), adds four products of a pooled block with a 64-row band of the weight
    and then the bias row.  One finite sum regrouped into four consecutive bands: addition of extended reals is
    commutative and associative, so no finiteness is needed (Proof/LinearBridge.lean; the region's value as a
    whole-array function is Proof/KerPayload.lean and Proof/KerRegion.lean).
  What the host operations before the region leave in the region's six input arrays is Proof/KerHost.lean; the
  reference's run, read back as one term of its arguments, is Proof/RefOps.lean, Proof/RefWin.lean, Proof/RefRun.lean.
  The precondition (finite inputs) is never opened.
-/
import proofs.«109526_j73418170958019_2_alg».proof.Defs
import proofs.«109526_j73418170958019_2_alg».proof.Proof.Gen.Kernel
import proofs.«109526_j73418170958019_2_alg».proof.Proof.Gen.Kernel.Skeleton
import proofs.«109526_j73418170958019_2_alg».proof.Proof.Gen.Kernel.Launch
import proofs.«109526_j73418170958019_2_alg».proof.Proof.Gen.Kernel.Points
import proofs.«109526_j73418170958019_2_alg».proof.Proof.Gen.Kernel.Frame
import proofs.«109526_j73418170958019_2_alg».proof.Proof.Gen.KernelIdeal
import proofs.«109526_j73418170958019_2_alg».proof.Proof.Gen.KernelIdeal.Skeleton
import proofs.«109526_j73418170958019_2_alg».proof.Proof.Gen.KernelIdeal.Launch
import proofs.«109526_j73418170958019_2_alg».proof.Proof.Gen.KernelIdeal.Points
import proofs.«109526_j73418170958019_2_alg».proof.Proof.Gen.KernelIdeal.Frame
import proofs.«109526_j73418170958019_2_alg».proof.Proof.Gen.KernelIdeal.Value
import proofs.«109526_j73418170958019_2_alg».proof.Proof.Gen.ReferenceIdeal
import proofs.«109526_j73418170958019_2_alg».proof.Proof.Gen.Pre_finite_inputs
import proofs.«109526_j73418170958019_2_alg».proof.Proof.KerHost
import proofs.«109526_j73418170958019_2_alg».proof.Proof.KerRegion
import proofs.«109526_j73418170958019_2_alg».proof.Proof.RefRun
import proofs.«109526_j73418170958019_2_alg».proof.Proof.PoolBridge
import proofs.«109526_j73418170958019_2_alg».proof.Proof.LinearBridge
import Idealize.ShloMosaic.Adequacy
import Idealize.ShloMosaic.Init

noncomputable section

namespace Cert.Proof

open Idealize.ShloMosaic Idealize.ShloMosaic.TcCoe Idealize.SL.Sem

/-! ## The two programs' results are one function of the arguments -/

attribute [local irreducible] Host.scatterAdd Host.gather Host.divsi Host.remsi concatenate extractStridedSlice in
/-- The linear layer of the kernel program's six region inputs — the one-pass pooled arrays, the transposed weight,
    the bias row — is the reference's result: the pooled arrays agree scale by scale, the cell numbers are the same
    terms, and the four-band sum is the reference's one contraction. -/
theorem value_eq (a0 : Cert.KernelIdeal.KerTerm.Ty Ideal Cert.KernelIdeal.S1048576x64 .f32)
    (a1 : Cert.KernelIdeal.KerTerm.Ty Ideal Cert.KernelIdeal.S1048576x3 .i32)
    (a2 : Cert.KernelIdeal.KerTerm.Ty Ideal Cert.KernelIdeal.S1048576 .i32)
    (a3 : Cert.KernelIdeal.KerTerm.Ty Ideal Cert.KernelIdeal.S96x256 .f32)
    (a4 : Cert.KernelIdeal.KerTerm.Ty Ideal Cert.KernelIdeal.S96 .f32) :
    Cert.LinearSpec.linearOf
        (Cert.KernelIdeal.KerTerm.pooled4 (F := Ideal) a0 a2)
        (Cert.KernelIdeal.KerTerm.pooled1048576 (F := Ideal) a0 (Cert.KernelIdeal.KerTerm.cells2 a1 a2))
        (Cert.KernelIdeal.KerTerm.pooled131072 (F := Ideal) a0 (Cert.KernelIdeal.KerTerm.cells4 a1 a2))
        (Cert.KernelIdeal.KerTerm.pooled16384 (F := Ideal) a0 (Cert.KernelIdeal.KerTerm.cells8 a1 a2))
        (Cert.KernelIdeal.KerTerm.weights (F := Ideal) a3) (Cert.KernelIdeal.KerTerm.biasRow (F := Ideal) a4)
      = Cert.ReferenceIdeal.RefTerm.out (F := Ideal) a0 a1 a2 a3 a4 := by
  rw [Cert.PoolBridge.pooled4_eq, Cert.PoolBridge.pooled1048576_eq, Cert.PoolBridge.pooled131072_eq,
    Cert.PoolBridge.pooled16384_eq, Cert.PoolBridge.cells2_eq, Cert.PoolBridge.cells4_eq, Cert.PoolBridge.cells8_eq]
  exact (Cert.LinearBridge.linear_eq _ _ _ _ a3 a4).symm

/-- The kernel program's output array after its run, as the reference's term of the launch contents of the
    arguments. -/
theorem kernel_out (m : (ℓ : Loc Cert.KernelIdeal.nD Cert.KernelIdeal.τ Cert.KernelIdeal.sig) → Buf (Elt Ideal) ℓ)
    (c : Dev Cert.KernelIdeal.nD) :
    (Cert.KernelIdeal.Gen.dats (F := Ideal) m 0 c).arrAt 6 Cert.KernelIdeal.cfg0.N
      = Cert.ReferenceIdeal.RefTerm.out (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  rw [Cert.KernelIdeal.KerValue.final6, Cert.KernelIdeal.KerHost.V_v18, Cert.KernelIdeal.KerHost.V_v53,
    Cert.KernelIdeal.KerHost.V_v88, Cert.KernelIdeal.KerHost.V_v123, Cert.KernelIdeal.KerHost.V_v125,
    Cert.KernelIdeal.KerHost.V_v126]
  exact value_eq _ _ _ _ _

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing: the idealization is the program's own text read at the ideal instance. -/
theorem preserves : Cert.preserves_Kernel_KernelIdeal := trivial

/-- From memories agreeing on the arguments both programs end at the reference's term of those arguments. -/
theorem algebraic : Cert.algebraic_KernelIdeal_ReferenceIdeal := by
  intro m ρ m' ρ' _ hagree
  refine ⟨fun c => Cert.ReferenceIdeal.RefTerm.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_out m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
